-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S8192 : Shape := ⟨1, ![8192]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_arg4 : IVec S8192 32) (main_v13 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v13 main_v16
  let main_c_6 : IVec S_ 32 := constantI S_ 32 10000#32
  let main_v18 : IVec S8192 32 := broadcastInDim S8192 ![] bcast_S_S8192 main_c_6
  let main_v19 : IVec S8192 1 := cmpi .slt main_arg3 main_v18
  let main_c_7 : IVec S_ 1 := constantI S_ 1 1#1
  let main_v20 : IVec S_ 1 := (fun x v => Host.reduce IntOp.andi x v reducesTo_S8192_S_d0 h_S_) main_v19 main_c_7
  let main_v21 : IVec S_ 1 := andi main_v17 main_v20
  let main_c_8 : IVec S_ 32 := constantI S_ 32 0#32
  let main_v22 : IVec S8192 32 := broadcastInDim S8192 ![] bcast_S_S8192 main_c_8
  let main_v23 : IVec S8192 1 := cmpi .sge main_arg4 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v21 main_v24
  let main_c_10 : IVec S_ 32 := constantI S_ 32 10000#32
  let main_v26 : IVec S8192 32 := broadcastInDim S8192 ![] bcast_S_S8192 main_c_10
  let main_v27 : IVec S8192 1 := cmpi .slt main_arg4 main_v26
  let main_c_11 : IVec S_ 1 := constantI S_ 1 1#1
  let main_v28 : IVec S_ 1 := (fun x v => Host.reduce IntOp.andi x v reducesTo_S8192_S_d0 h_S_) main_v27 main_c_11
  let main_v29 : IVec S_ 1 := andi main_v25 main_v28
  main_v29

def fn {F : FTy → Type} [FloatOps F] (main_arg0 : FVec F S10000x256 .f32) (main_arg1 : FVec F S10000x256 .f32) (main_arg2 : FVec F S10000x10000 .f32) (main_arg3 : IVec S8192 32) (main_arg4 : IVec S8192 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_c_4 : IVec S_ 32 := constantI S_ 32 0#32
  let main_v14 : IVec S8192 32 := broadcastInDim S8192 ![] bcast_S_S8192 main_c_4
  let main_v15 : IVec S8192 1 := cmpi .sge main_arg3 main_v14
  let main_c_5 : IVec S_ 1 := constantI S_ 1 1#1
  fn_part1 (F := F) main_arg3 main_arg4 main_v13 main_v15 main_c_5
-- ==== Kernel.lean ====
abbrev S10000x256 : Shape := ⟨2, ![10000, 256]⟩
abbrev S10000x10000 : Shape := ⟨2, ![10000, 10000]⟩
abbrev S8192 : Shape := ⟨1, ![8192]⟩
abbrev S_ : Shape := ⟨0, ![]⟩
abbrev S8192x1 : Shape := ⟨2, ![8192, 1]⟩
abbrev S8192x256 : Shape := ⟨2, ![8192, 256]⟩
abbrev S10240x10240 : Shape := ⟨2, ![10240, 10240]⟩
abbrev S8192x10240 : Shape := ⟨2, ![8192, 10240]⟩
abbrev S512 : Shape := ⟨1, ![512]⟩
abbrev S1024x2048 : Shape := ⟨2, ![1024, 2048]⟩
abbrev S512x2048 : Shape := ⟨2, ![512, 2048]⟩
abbrev S512x1024 : Shape := ⟨2, ![512, 1024]⟩
abbrev S512x1 : Shape := ⟨2, ![512, 1]⟩
abbrev S8192x8192 : Shape := ⟨2, ![8192, 8192]⟩
abbrev S512x512 : Shape := ⟨2, ![512, 512]⟩
abbrev S512x256 : Shape := ⟨2, ![512, 256]⟩
abbrev S1x512 : Shape := ⟨2, ![1, 512]⟩

abbrev nBuf : Space → Nat
  | .hbm => 32
  | .vmem => 23
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S10000x10000, .f32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x256, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x256, .f32⟩
  | .hbm, ⟨23, _⟩ => ⟨S10000x10000, .bf16⟩
  | .hbm, ⟨24, _⟩ => ⟨S_, .i32⟩
  | .hbm, ⟨25, _⟩ => ⟨S_, .bf16⟩
  | .hbm, ⟨26, _⟩ => ⟨S10240x10240, .bf16⟩
  | .hbm, ⟨27, _⟩ => ⟨S8192x10240, .bf16⟩
  | .hbm, ⟨28, _⟩ => ⟨S8192x8192, .bf16⟩
  | .hbm, ⟨29, _⟩ => ⟨S8192x1, .f32⟩
  | .hbm, ⟨30, _⟩ => ⟨S_, .f32⟩
  | .hbm, ⟨31, _⟩ => ⟨S_, .f32⟩
  | .local _ .vmem, ⟨0, _⟩ => ⟨S512, .i32⟩
  | .local _ .vmem, ⟨1, _⟩ => ⟨S512, .i32⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512, .i32⟩
  | .local _ .vmem, ⟨8, _⟩ => ⟨S512, .i32⟩
  | .local _ .vmem, ⟨9, _⟩ => ⟨S512x2048, .bf16⟩
  | .local _ .vmem, ⟨10, _⟩ => ⟨S512x2048, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x512, .bf16⟩
  | .local _ .vmem, ⟨19, _⟩ => ⟨S512x512, .bf16⟩
  | .local _ .vmem, ⟨20, _⟩ => ⟨S512x1, .f32⟩
  | .local _ .vmem, ⟨21, _⟩ => ⟨S512x1, .f32⟩
  | .local _ .vmem, ⟨22, _⟩ => ⟨S512x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![16, 5, 10], ![false, false, false]⟩

def k0_cond2 (i : grid0.Coords) : BitVec 1 :=
  let arg2 : BitVec 32 := BitVec.ofNat 32 (i 2).val
  let c9_i32 : BitVec 32 := 9#32
  let v22 : BitVec 1 := Scalar.cmpi .eq arg2 c9_i32
  let v23 : BitVec 32 := Scalar.extui v22
  let c0_i32_7 : BitVec 32 := 0#32
  let v24 : BitVec 1 := Scalar.cmpi .ne v23 c0_i32_7
  v24

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![16, 16, 5], ![false, false, false]⟩

def k1_cond2 (i : grid1.Coords) : BitVec 1 :=
  let arg2 : BitVec 32 := BitVec.ofNat 32 (i 2).val
  let c4_i32 : BitVec 32 := 4#32
  let v22 : BitVec 1 := Scalar.cmpi .eq arg2 c4_i32
  let v23 : BitVec 32 := Scalar.extui v22
  let c0_i32_7 : BitVec 32 := 0#32
  let v24 : BitVec 1 := Scalar.cmpi .ne v23 c0_i32_7
  v24

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_14 : BitVec 32 := 0#32
  let v36 : BitVec 1 := Scalar.cmpi .ne v35 c0_i32_14
  v36

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  pads_S10000x10000_S10240x10240_02400_02400 : S10000x10000.Pads (![0, 0] : Fin 2 → Nat) ![240, 240] ![0, 0] S10240x10240
  h_S_ : 0 < S_.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512_S512_0 : ∀ a, (![0] : Fin 1 → Nat) a + S512.size a ≤ S512.size a
  h_S512 : 0 < S512.numel
  iota_S512x1024_d1_w32 : S512x1024.Iotas .tc 32 [1]
  shapeCasts_S512_S512x1 : S512.ShapeCasts S512x1
  broadcasts_S512x1_S512x1024 : S512x1.Broadcasts S512x1024
  natLt_1_32 : 1 < 32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S512x2048_S512x2048_0_0 : (Rect.unit (s := S512x2048) ![0, 0] S512x2048.size inb_S512x2048_S512x2048_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x2048_d1_w32 : S512x2048.Iotas .tc 32 [1]
  broadcasts_S512x1_S512x2048 : S512x1.Broadcasts S512x2048
  packedbf16_S512x512_S512x512_0_0 : (Rect.unit (s := S512x512) ![0, 0] S512x512.size inb_S512x512_S512x512_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reducesTo_S8192x1_S_d0_1 : S8192x1.ReducesTo [0, 1] S_
  gather_S10000x256_S8192x1_S8192x256_1_0_n_n_0_1_1256_wf : GatherDims.WF S10000x256 S8192x1 S8192x256 [1] [0] [] [0] [] 1 ![1, 256]
  dot_S512x1024_S1024x2048_S512x2048_1_0_0_1_n_n_wf : DotDims.WF S512x1024 S1024x2048 S512x2048 [1] [0] [0] [1] [] []
  dot_S512x2048_S512x2048_S512x512_1_1_0_0_n_n_wf : DotDims.WF S512x2048 S512x2048 S512x512 [1] [1] [0] [0] [] []
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S8192.size a
  hwx0_0 : ∀ i : grid0.Coords, EltTy.bits .i32 = 32 ∨ (Rect.block (s := S8192) S512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S10240x10240.size a
  hwx0_1 : ∀ i : grid0.Coords, EltTy.bits .bf16 = 32 ∨ (Rect.block (s := S10240x10240) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x10240.size a
  hwx0_2 : ∀ i : grid0.Coords, EltTy.bits .bf16 = 32 ∨ (Rect.block (s := S8192x10240) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S8192.size a
  hwx1_0 : ∀ i : grid1.Coords, EltTy.bits .i32 = 32 ∨ (Rect.block (s := S8192) S512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x10240.size a
  hwx1_1 : ∀ i : grid1.Coords, EltTy.bits .bf16 = 32 ∨ (Rect.block (s := S8192x10240) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x8192.size a
  hwx1_2 : ∀ i : grid1.Coords, EltTy.bits .bf16 = 32 ∨ (Rect.block (s := S8192x8192) S512x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S8192x256.size a
  hwx2_1 : ∀ i : grid2.Coords, EltTy.bits .f32 = 32 ∨ (Rect.block (s := S8192x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S8192x8192.size a
  hwx2_2 : ∀ i : grid2.Coords, EltTy.bits .bf16 = 32 ∨ (Rect.block (s := S8192x8192) S512x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S8192x1.size a
  hwx2_3 : ∀ i : grid2.Coords, EltTy.bits .f32 = 32 ∨ (Rect.block (s := S8192x1) S512x1.size (cc2_transform_3 i) (hinb2_3 i)).WholeWords (EltTy.packing .f32)

variable [Facts₀]

def gather_S10000x256_S8192x1_S8192x256_1_0_n_n_0_1_1256 : GatherDims S10000x256 S8192x1 S8192x256 where
  offsetDims := [1]
  collapsedSliceDims := [0]
  operandBatchingDims := []
  startIndicesBatchingDims := []
  startIndexMap := [0]
  indexVectorDim := 1
  sliceSizes := ![1, 256]
  wf := gather_S10000x256_S8192x1_S8192x256_1_0_n_n_0_1_1256_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg3) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg4) S512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v6) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S512x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S8192 : Shape := ⟨1, ![8192]⟩
abbrev S_ : Shape := ⟨0, ![]⟩
abbrev S8192x1 : Shape := ⟨2, ![8192, 1]⟩
abbrev S8192x256 : Shape := ⟨2, ![8192, 256]⟩
abbrev S8192x8192 : Shape := ⟨2, ![8192, 8192]⟩
abbrev S1x8192 : Shape := ⟨2, ![1, 8192]⟩
abbrev S8192x10000 : Shape := ⟨2, ![8192, 10000]⟩

abbrev nBuf : Space → Nat
  | .hbm => 60
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S10000x10000, .f32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x256, .f32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x256, .f32⟩
  | .hbm, ⟨27, _⟩ => ⟨S_, .f32⟩
  | .hbm, ⟨28, _⟩ => ⟨S8192, .f32⟩
  | .hbm, ⟨29, _⟩ => ⟨S8192x8192, .f32⟩
  | .hbm, ⟨30, _⟩ => ⟨S8192x1, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x10000, .f32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  gather_S10000x256_S8192x1_S8192x256_1_0_n_n_0_1_1256_wf : GatherDims.WF S10000x256 S8192x1 S8192x256 [1] [0] [] [0] [] 1 ![1, 256]
  dot_S8192x256_S8192x256_S8192x8192_1_1_0_0_n_n_wf : DotDims.WF S8192x256 S8192x256 S8192x8192 [1] [1] [0] [0] [] []
  gather_S10000x10000_S8192x1_S8192x10000_1_0_n_n_0_1_110000_wf : GatherDims.WF S10000x10000 S8192x1 S8192x10000 [1] [0] [] [0] [] 1 ![1, 10000]
  gather_S8192x10000_S8192x1_S8192x8192_0_1_n_n_1_1_81921_wf : GatherDims.WF S8192x10000 S8192x1 S8192x8192 [0] [1] [] [1] [] 1 ![8192, 1]

variable [Facts₀]

def gather_S10000x256_S8192x1_S8192x256_1_0_n_n_0_1_1256 : GatherDims S10000x256 S8192x1 S8192x256 where
  offsetDims := [1]
  collapsedSliceDims := [0]
  operandBatchingDims := []
  startIndicesBatchingDims := []
  startIndexMap := [0]
  indexVectorDim := 1
  sliceSizes := ![1, 256]
  wf := gather_S10000x256_S8192x1_S8192x256_1_0_n_n_0_1_1256_wf
def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S10000x10000_S8192x1_S8192x10000_1_0_n_n_0_1_110000 : GatherDims S10000x10000 S8192x1 S8192x10000 where
  offsetDims := [1]
  collapsedSliceDims := [0]
  operandBatchingDims := []
  startIndicesBatchingDims := []
  startIndexMap := [0]
  indexVectorDim := 1
  sliceSizes := ![1, 10000]
  wf := gather_S10000x10000_S8192x1_S8192x10000_1_0_n_n_0_1_110000_wf
def gather_S8192x10000_S8192x1_S8192x8192_0_1_n_n_1_1_81921 : GatherDims S8192x10000 S8192x1 S8192x8192 where
  offsetDims := [0]
  collapsedSliceDims := [1]
  operandBatchingDims := []
  startIndicesBatchingDims := []
  startIndexMap := [1]
  indexVectorDim := 1
  sliceSizes := ![8192, 1]
  wf := gather_S8192x10000_S8192x1_S8192x8192_0_1_n_n_1_1_81921_wf

class Facts : Prop extends Facts₀ where

variable [Facts]
-- ==== Proof.Kernel.R0Defs.lean ====
/-
  Call 0 (R = onehot(idx1) · Ppad, accumulated over ten steps of the reduction axis in a VMEM scratch):
  what its three whole-body runs are stated over. The body branches twice on the reduction coordinate:
  at step 0 it first zeroes the scratch, at step 9 it last rounds the scratch into the output block.
  So a grid point is in one of three cases: first step (A), a middle step (B), last step (C).
-/
import proofs.«100679_j35734127902881_1_alg».proof.Proof.Gen.Kernel.Launch
import proofs.«100679_j35734127902881_1_alg».proof.Proof.Gen.Kernel.Skeleton
import proofs.«100679_j35734127902881_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the grid -/

/-- The body zeroes its accumulator: the reduction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- The body stores its output block: the reduction coordinate is the last one. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last reduction step the output block is not stored, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S512x2048 .bf16 := (Memref.whole cc0_stg2_0 : Memref sig .tc .vmem S512x2048 .bf16).view
abbrev ms0_0 (t : Fin cfg0.N) : Memref sig .tc .vmem S512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
/-- The accumulator: a whole scoped buffer of the call's own. -/
abbrev scM0_0 : Memref sig .tc .vmem S512x2048 .f32 := Memref.whole cc0_scratch0
abbrev VS0_0 : View sig .tc .vmem S512x2048 .f32 := scM0_0.view

/-- What the region hands the body beside its windows: the accumulator at some contents, every other scoped buffer
    that is no staging buffer of this call unopened, and the generator register. -/
theorem PhiA0_eq (c : Dev nD) :
    (Pipeline.ΦA spec0 c : sProp 𝕄)
      = iprop(((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0_0, owns_whole, bigSepL]
  rfl

end Cert.Kernel.Hand

end
-- ==== Proof.Kernel.R0RunA.lean ====
/-
  Call 0, first reduction step: the body zeroes the accumulator, adds this step's one-hot product into it, and
  leaves the output block alone. The pieces the accumulator ends with are found by running the body.
-/
import proofs.«100679_j35734127902881_1_alg».proof.Proof.Kernel.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i)
    (x0 : Vec F S512 .i32) (x1 : Vec F S1024x2048 .bf16) :
    Σ' (LO : List (View.Piece (Elt F) S512x2048 .bf16)), { LS0 : List (View.Piece (Elt F) S512x2048 .f32) //
      ∀ (xi : Vec F S512x2048 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc0__r_kernel i arg3 harg3 arg4 harg4 arg5 harg5 arg6 harg6) K } := by
  refine ⟨[], ?_, fun xi E K => ?run⟩
  case run =>
    simp only [cc0__r_kernel_eq_skeleton]; unfold cc0__r_kernel_skel
    unfold owns
    iintro ⟨⟨%f0, %hf0, H0⟩, ⟨%f1, %hf1, H1⟩, ⟨%fO, %hfO, HO⟩, ⟨%ds0, %fs0, -, HS0⟩, Hk⟩
    obtain rfl := harg3.eq_unread hf0; obtain rfl := harg4.eq_unread hf1; obtain rfl := harg5.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

end Cert.Kernel.Hand

end
-- ==== Proof.Kernel.R0RunB.lean ====
/-
  Call 0, a middle reduction step: the body adds this step's one-hot product into the accumulator the step before
  left, and leaves the output block alone.
-/
import proofs.«100679_j35734127902881_1_alg».proof.Proof.Kernel.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i)
    (x0 : Vec F S512 .i32) (x1 : Vec F S1024x2048 .bf16) (xs0 : Vec F S512x2048 .f32) :
    Σ' (LO : List (View.Piece (Elt F) S512x2048 .bf16)), { LS0 : List (View.Piece (Elt F) S512x2048 .f32) //
      ∀ (xi : Vec F S512x2048 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs0
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc0__r_kernel i arg3 harg3 arg4 harg4 arg5 harg5 arg6 harg6) K } := by
  refine ⟨[], ?_, fun xi E K => ?run⟩
  case run =>
    simp only [cc0__r_kernel_eq_skeleton]; unfold cc0__r_kernel_skel
    unfold owns
    iintro ⟨⟨%f0, %hf0, H0⟩, ⟨%f1, %hf1, H1⟩, ⟨%fO, %hfO, HO⟩, ⟨%fs0, %hfs0, HS0⟩, Hk⟩
    obtain rfl := harg3.eq_unread hf0; obtain rfl := harg4.eq_unread hf1; obtain rfl := harg5.eq_unread hfO; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

end Cert.Kernel.Hand

end
-- ==== Proof.Kernel.R0RunC.lean ====
/-
  Call 0, last reduction step: the body adds this step's one-hot product into the accumulator the step before
  left, then stores the accumulator, rounded to the output's format, as the whole output block.
-/
import proofs.«100679_j35734127902881_1_alg».proof.Proof.Kernel.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i)
    (x0 : Vec F S512 .i32) (x1 : Vec F S1024x2048 .bf16) (xs0 : Vec F S512x2048 .f32) :
    Σ' (LO : List (View.Piece (Elt F) S512x2048 .bf16)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc0__r_kernel i arg3 harg3 arg4 harg4 arg5 harg5 arg6 harg6) K } := by
  refine ⟨?_, ?_, fun E K => ?run⟩
  case run =>
    simp only [cc0__r_kernel_eq_skeleton]; unfold cc0__r_kernel_skel
    unfold owns
    iintro ⟨⟨%f0, %hf0, H0⟩, ⟨%f1, %hf1, H1⟩, ⟨%dO, %fO, -, HO⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]; · iexists _; iexact HO
    iexists _; iexact HS0

end Cert.Kernel.Hand

end
-- ==== Proof.Kernel.R0.lean ====
/-
  Call 0 at the contents `V` its region is entered with: what the output block's staging buffer and the accumulator
  hold after every grid point (by recursion on the point: the accumulator restarts at each first reduction step and
  otherwise continues from the point before), the invariant carrying the accumulator between points, the
  pipeline's proof data, and the body's obligation at a generic point.
-/
import proofs.«100679_j35734127902881_1_alg».proof.Proof.Kernel.R0RunA
import proofs.«100679_j35734127902881_1_alg».proof.Proof.Kernel.R0RunB
import proofs.«100679_j35734127902881_1_alg».proof.Proof.Kernel.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- First step: nothing is stored into the output block (a placeholder nothing consults). -/
def out0_A_2 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i) (x0 : Vec F S512 .i32) (x1 : Vec F S1024x2048 .bf16) : Vec F S512x2048 .bf16 :=
  VO0_2.read (Elt F) (VO0_2.writes (Elt F) VO0_2.junk (kernelRun0_A c i arg3 harg3 arg4 harg4 arg5 harg5 arg6 harg6 hc0 hc1 x0 x1).1)
theorem scover0_A_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i) (x0 : Vec F S512 .i32) (x1 : Vec F S1024x2048 .bf16) (y : S512x2048.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S512x2048.size (by sl_kernel_rfl) y
/-- First step: the accumulator ends at its pieces read back. -/
def sout0_A_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i) (x0 : Vec F S512 .i32) (x1 : Vec F S1024x2048 .bf16) : Vec F S512x2048 .f32 :=
  VS0_0.read (Elt F) (VS0_0.writes (Elt F) VS0_0.junk (kernelRun0_A c i arg3 harg3 arg4 harg4 arg5 harg5 arg6 harg6 hc0 hc1 x0 x1).2.1)

def out0_B_2 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i) (x0 : Vec F S512 .i32) (x1 : Vec F S1024x2048 .bf16) (xs0 : Vec F S512x2048 .f32) : Vec F S512x2048 .bf16 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i) (x0 : Vec F S512 .i32) (x1 : Vec F S1024x2048 .bf16) (xs0 : Vec F S512x2048 .f32) (y : S512x2048.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S512x2048.size (by sl_kernel_rfl) y
def sout0_B_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i) (x0 : Vec F S512 .i32) (x1 : Vec F S1024x2048 .bf16) (xs0 : Vec F S512x2048 .f32) : Vec F S512x2048 .f32 :=
  VS0_0.read (Elt F) (VS0_0.writes (Elt F) VS0_0.junk (kernelRun0_B c i arg3 harg3 arg4 harg4 arg5 harg5 arg6 harg6 hc0 hc1 x0 x1 xs0).2.1)

theorem cover0_C_2 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) (y : S512x2048.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S512x2048.size (by sl_kernel_rfl) y
/-- Last step: the output block ends at its one whole store read back. -/
def out0_C_2 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) : Vec F S512x2048 .bf16 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) (y : S512x2048.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S512x2048.size (by sl_kernel_rfl) y
def sout0_C_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) : Vec F S512x2048 .f32 :=
  VS0_0.read (Elt F) (VS0_0.writes (Elt F) VS0_0.junk (kernelRun0_C c i arg3 harg3 arg4 harg4 arg5 harg5 arg6 harg6 hc0 hc1 x0 x1 xs0).2.1)

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the accumulator hold after each point -/

/-- After the body at position `n`: (the output block's staging buffer, the accumulator). -/
def outsAt0 (c : Dev nD) : (n : ℕ) → n < cfg0.N → Vec F S512x2048 .bf16 × Vec F S512x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 10 = 0 then
      if h1 : (n + 1) % 10 = 9 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 10 = 9 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 10 = 0) (h1 : ¬t.val % 10 = 9) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region hands over; afterwards the accumulator at what the
    point before left in it, the other scoped buffers unopened, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop((owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 800 := lt_of_lt_of_eq t.isLt (show cfg0.N = 800 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 10 = 0
  · have h1 : ¬ t.val % 10 = 9 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 10 = 9
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%eO, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the region's own back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 800 := N_0; omega), PhiA0_eq]
  iintro ⟨⟨HS0, HR⟩, Hg⟩
  isplitl [HS0 HR]
  · isplitl [HS0]
    · iexists _; iexact HS0
    iexact HR
  iexact Hg

end Region

end Cert.Kernel.Hand

end
-- ==== Proof.Kernel.R1Defs.lean ====
/-
  Call 1 (G = R · onehot(idx2)ᵀ, accumulated over five steps of the reduction axis in a VMEM scratch):
  what its three whole-body runs are stated over. At step 0 the body first zeroes the scratch, at step 4 it
  last rounds the scratch into the output block: first step (A), a middle step (B), last step (C).
-/
import proofs.«100679_j35734127902881_1_alg».proof.Proof.Gen.Kernel.Launch
import proofs.«100679_j35734127902881_1_alg».proof.Proof.Gen.Kernel.Skeleton
import proofs.«100679_j35734127902881_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the grid -/

/-- The body zeroes its accumulator: the reduction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

/-- The body stores its output block: the reduction coordinate is the last one. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last reduction step the output block is not stored, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S512x512 .bf16 := (Memref.whole cc1_stg2_0 : Memref sig .tc .vmem S512x512 .bf16).view
abbrev ms1_0 (t : Fin cfg1.N) : Memref sig .tc .vmem S512 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
/-- The accumulator: a whole scoped buffer of the call's own. -/
abbrev scM1_0 : Memref sig .tc .vmem S512x512 .f32 := Memref.whole cc1_scratch0
abbrev VS1_0 : View sig .tc .vmem S512x512 .f32 := scM1_0.view

/-- What the region hands the body beside its windows: the accumulator at some contents, every other scoped buffer
    that is no staging buffer of this call unopened, and the generator register. -/
theorem PhiA1_eq (c : Dev nD) :
    (Pipeline.ΦA spec1 c : sProp 𝕄)
      = iprop(((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1_0, owns_whole, bigSepL]
  rfl

end Cert.Kernel.Hand

end
-- ==== Proof.Kernel.R1RunA.lean ====
/-
  Call 1, first reduction step: the body zeroes the accumulator, adds this step's product of the row tile with
  the one-hot tile into it, and leaves the output block alone.
-/
import proofs.«100679_j35734127902881_1_alg».proof.Proof.Kernel.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i)
    (x0 : Vec F S512 .i32) (x1 : Vec F S512x2048 .bf16) :
    Σ' (LO : List (View.Piece (Elt F) S512x512 .bf16)), { LS0 : List (View.Piece (Elt F) S512x512 .f32) //
      ∀ (xi : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc1__g_kernel i arg3 harg3 arg4 harg4 arg5 harg5 arg6 harg6) K } := by
  refine ⟨[], ?_, fun xi E K => ?run⟩
  case run =>
    simp only [cc1__g_kernel_eq_skeleton]; unfold cc1__g_kernel_skel
    unfold owns
    iintro ⟨⟨%f0, %hf0, H0⟩, ⟨%f1, %hf1, H1⟩, ⟨%fO, %hfO, HO⟩, ⟨%ds0, %fs0, -, HS0⟩, Hk⟩
    obtain rfl := harg3.eq_unread hf0; obtain rfl := harg4.eq_unread hf1; obtain rfl := harg5.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

end Cert.Kernel.Hand

end
-- ==== Proof.Kernel.R1RunB.lean ====
/-
  Call 1, a middle reduction step: the body adds this step's product into the accumulator the step before left,
  and leaves the output block alone.
-/
import proofs.«100679_j35734127902881_1_alg».proof.Proof.Kernel.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i)
    (x0 : Vec F S512 .i32) (x1 : Vec F S512x2048 .bf16) (xs0 : Vec F S512x512 .f32) :
    Σ' (LO : List (View.Piece (Elt F) S512x512 .bf16)), { LS0 : List (View.Piece (Elt F) S512x512 .f32) //
      ∀ (xi : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs0
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc1__g_kernel i arg3 harg3 arg4 harg4 arg5 harg5 arg6 harg6) K } := by
  refine ⟨[], ?_, fun xi E K => ?run⟩
  case run =>
    simp only [cc1__g_kernel_eq_skeleton]; unfold cc1__g_kernel_skel
    unfold owns
    iintro ⟨⟨%f0, %hf0, H0⟩, ⟨%f1, %hf1, H1⟩, ⟨%fO, %hfO, HO⟩, ⟨%fs0, %hfs0, HS0⟩, Hk⟩
    obtain rfl := harg3.eq_unread hf0; obtain rfl := harg4.eq_unread hf1; obtain rfl := harg5.eq_unread hfO; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

end Cert.Kernel.Hand

end
-- ==== Proof.Kernel.R1RunC.lean ====
/-
  Call 1, last reduction step: the body adds this step's product into the accumulator the step before left, then
  stores the accumulator, rounded to the output's format, as the whole output block.
-/
import proofs.«100679_j35734127902881_1_alg».proof.Proof.Kernel.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i)
    (x0 : Vec F S512 .i32) (x1 : Vec F S512x2048 .bf16) (xs0 : Vec F S512x512 .f32) :
    Σ' (LO : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc1__g_kernel i arg3 harg3 arg4 harg4 arg5 harg5 arg6 harg6) K } := by
  refine ⟨?_, ?_, fun E K => ?run⟩
  case run =>
    simp only [cc1__g_kernel_eq_skeleton]; unfold cc1__g_kernel_skel
    unfold owns
    iintro ⟨⟨%f0, %hf0, H0⟩, ⟨%f1, %hf1, H1⟩, ⟨%dO, %fO, -, HO⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]; · iexists _; iexact HO
    iexists _; iexact HS0

end Cert.Kernel.Hand

end
-- ==== Proof.Kernel.R1.lean ====
/-
  Call 1 at the contents `V` its region is entered with: what the output block's staging buffer and the accumulator
  hold after every grid point, the invariant carrying the accumulator between points, the pipeline's proof data,
  and the body's obligation at a generic point.
-/
import proofs.«100679_j35734127902881_1_alg».proof.Proof.Kernel.R1RunA
import proofs.«100679_j35734127902881_1_alg».proof.Proof.Kernel.R1RunB
import proofs.«100679_j35734127902881_1_alg».proof.Proof.Kernel.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- First step: nothing is stored into the output block (a placeholder nothing consults). -/
def out1_A_2 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i) (x0 : Vec F S512 .i32) (x1 : Vec F S512x2048 .bf16) : Vec F S512x512 .bf16 :=
  VO1_2.read (Elt F) (VO1_2.writes (Elt F) VO1_2.junk (kernelRun1_A c i arg3 harg3 arg4 harg4 arg5 harg5 arg6 harg6 hc0 hc1 x0 x1).1)
theorem scover1_A_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i) (x0 : Vec F S512 .i32) (x1 : Vec F S512x2048 .bf16) (y : S512x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S512x512.size (by sl_kernel_rfl) y
/-- First step: the accumulator ends at its pieces read back. -/
def sout1_A_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i) (x0 : Vec F S512 .i32) (x1 : Vec F S512x2048 .bf16) : Vec F S512x512 .f32 :=
  VS1_0.read (Elt F) (VS1_0.writes (Elt F) VS1_0.junk (kernelRun1_A c i arg3 harg3 arg4 harg4 arg5 harg5 arg6 harg6 hc0 hc1 x0 x1).2.1)

def out1_B_2 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i) (x0 : Vec F S512 .i32) (x1 : Vec F S512x2048 .bf16) (xs0 : Vec F S512x512 .f32) : Vec F S512x512 .bf16 :=
  VO1_2.read (Elt F) (VO1_2.writes (Elt F) VO1_2.junk (kernelRun1_B c i arg3 harg3 arg4 harg4 arg5 harg5 arg6 harg6 hc0 hc1 x0 x1 xs0).1)
theorem scover1_B_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i) (x0 : Vec F S512 .i32) (x1 : Vec F S512x2048 .bf16) (xs0 : Vec F S512x512 .f32) (y : S512x512.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S512x512.size (by sl_kernel_rfl) y
def sout1_B_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i) (x0 : Vec F S512 .i32) (x1 : Vec F S512x2048 .bf16) (xs0 : Vec F S512x512 .f32) : Vec F S512x512 .f32 :=
  VS1_0.read (Elt F) (VS1_0.writes (Elt F) VS1_0.junk (kernelRun1_B c i arg3 harg3 arg4 harg4 arg5 harg5 arg6 harg6 hc0 hc1 x0 x1 xs0).2.1)

theorem cover1_C_2 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) (y : S512x512.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S512x512.size (by sl_kernel_rfl) y
/-- Last step: the output block ends at its one whole store read back. -/
def out1_C_2 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) : Vec F S512x512 .bf16 :=
  VO1_2.read (Elt F) (VO1_2.writes (Elt F) VO1_2.junk (kernelRun1_C c i arg3 harg3 arg4 harg4 arg5 harg5 arg6 harg6 hc0 hc1 x0 x1 xs0).1)
theorem scover1_C_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) (y : S512x512.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S512x512.size (by sl_kernel_rfl) y
def sout1_C_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) : Vec F S512x512 .f32 :=
  VS1_0.read (Elt F) (VS1_0.writes (Elt F) VS1_0.junk (kernelRun1_C c i arg3 harg3 arg4 harg4 arg5 harg5 arg6 harg6 hc0 hc1 x0 x1 xs0).2.1)

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the accumulator hold after each point -/

/-- After the body at position `n`: (the output block's staging buffer, the accumulator). -/
def outsAt1 (c : Dev nD) : (n : ℕ) → n < cfg1.N → Vec F S512x512 .bf16 × Vec F S512x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 5 = 0 then
      if h1 : (n + 1) % 5 = 4 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 5 = 4 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region hands over; afterwards the accumulator at what the
    point before left in it, the other scoped buffers unopened, the generator register at some state. -/
def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop((owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 1280 := lt_of_lt_of_eq t.isLt (show cfg1.N = 1280 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 5 = 0
  · have h1 : ¬ t.val % 5 = 4 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 5 = 4
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%eO, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the region's own back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 1280 := N_1; omega), PhiA1_eq]
  iintro ⟨⟨HS0, HR⟩, Hg⟩
  isplitl [HS0 HR]
  · isplitl [HS0]
    · iexists _; iexact HS0
    iexact HR
  iexact Hg

end Region

end Cert.Kernel.Hand

end
-- ==== Proof.Kernel.R2Defs.lean ====
/-
  Call 2 (per row block, the weighted squared distances summed over sixteen column blocks in a VMEM scratch):
  what its three whole-body runs are stated over. At column block 0 the body first zeroes the scratch, at column
  block 15 it last copies the scratch into the output block: first step (A), a middle step (B), last step (C).
-/
import proofs.«100679_j35734127902881_1_alg».proof.Proof.Gen.Kernel.Launch
import proofs.«100679_j35734127902881_1_alg».proof.Proof.Gen.Kernel.Skeleton
import proofs.«100679_j35734127902881_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the grid -/

/-- The body zeroes its accumulator: the reduction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

/-- The body stores its output block: the reduction coordinate is the last one. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last reduction step the output block is not stored, and the pipeline does not write it back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S512x1 .f32 := (Memref.whole cc2_stg3_0 : Memref sig .tc .vmem S512x1 .f32).view
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
/-- The accumulator: a whole scoped buffer of the call's own. -/
abbrev scM2_0 : Memref sig .tc .vmem S512x1 .f32 := Memref.whole cc2_scratch0
abbrev VS2_0 : View sig .tc .vmem S512x1 .f32 := scM2_0.view

/-- What the region hands the body beside its windows: the accumulator at some contents, every other scoped buffer
    that is no staging buffer of this call unopened, and the generator register. -/
theorem PhiA2_eq (c : Dev nD) :
    (Pipeline.ΦA spec2 c : sProp 𝕄)
      = iprop(((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2_0, owns_whole, bigSepL]
  rfl

end Cert.Kernel.Hand

end
-- ==== Proof.Kernel.R2RunA.lean ====
/-
  Call 2, first column block: the body zeroes the accumulator, adds this block's row sums of distance times plan
  into it, and leaves the output block alone.
-/
import proofs.«100679_j35734127902881_1_alg».proof.Proof.Kernel.R2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i)
    (x0 : Vec F S512x256 .f32) (x1 : Vec F S512x256 .f32) (x2 : Vec F S512x512 .bf16) :
    Σ' (LO : List (View.Piece (Elt F) S512x1 .f32)), { LS0 : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc2__cost_kernel i arg2 harg2 arg3 harg3 arg4 harg4 arg5 harg5 arg6 harg6) K } := by
  refine ⟨[], ?_, fun xi E K => ?run⟩
  case run =>
    simp only [cc2__cost_kernel_eq_skeleton]; unfold cc2__cost_kernel_skel
    simp only [k2_part1_eq_skeleton]
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.Kernel.Hand

end
-- ==== Proof.Kernel.R2RunB.lean ====
/-
  Call 2, a middle column block: the body adds this block's row sums into the accumulator the block before left,
  and leaves the output block alone.
-/
import proofs.«100679_j35734127902881_1_alg».proof.Proof.Kernel.R2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun2_B (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i)
    (x0 : Vec F S512x256 .f32) (x1 : Vec F S512x256 .f32) (x2 : Vec F S512x512 .bf16) (xs0 : Vec F S512x1 .f32) :
    Σ' (LO : List (View.Piece (Elt F) S512x1 .f32)), { LS0 : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc2__cost_kernel i arg2 harg2 arg3 harg3 arg4 harg4 arg5 harg5 arg6 harg6) K } := by
  refine ⟨[], ?_, fun xi E K => ?run⟩
  case run =>
    simp only [cc2__cost_kernel_eq_skeleton]; unfold cc2__cost_kernel_skel
    simp only [k2_part1_eq_skeleton]
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hfO; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.Kernel.Hand

end
-- ==== Proof.Kernel.R2RunC.lean ====
/-
  Call 2, last column block: the body adds this block's row sums into the accumulator the block before left, then
  stores the accumulator as the whole output block.
-/
import proofs.«100679_j35734127902881_1_alg».proof.Proof.Kernel.R2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i)
    (x0 : Vec F S512x256 .f32) (x1 : Vec F S512x256 .f32) (x2 : Vec F S512x512 .bf16) (xs0 : Vec F S512x1 .f32) :
    Σ' (LO : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc2__cost_kernel i arg2 harg2 arg3 harg3 arg4 harg4 arg5 harg5 arg6 harg6) K } := by
  refine ⟨?_, ?_, fun E K => ?run⟩
  case run =>
    simp only [cc2__cost_kernel_eq_skeleton]; unfold cc2__cost_kernel_skel
    simp only [k2_part1_eq_skeleton]
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

end Cert.Kernel.Hand

end
-- ==== Proof.Kernel.R2.lean ====
/-
  Call 2 at the contents `V` its region is entered with: what the output block's staging buffer and the accumulator
  hold after every grid point, the invariant carrying the accumulator between points, the pipeline's proof data,
  and the body's obligation at a generic point.
-/
import proofs.«100679_j35734127902881_1_alg».proof.Proof.Kernel.R2RunA
import proofs.«100679_j35734127902881_1_alg».proof.Proof.Kernel.R2RunB
import proofs.«100679_j35734127902881_1_alg».proof.Proof.Kernel.R2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- First step: nothing is stored into the output block (a placeholder nothing consults). -/
def out2_A_3 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i) (x0 : Vec F S512x256 .f32) (x1 : Vec F S512x256 .f32) (x2 : Vec F S512x512 .bf16) : Vec F S512x1 .f32 :=
  VO2_3.read (Elt F) (VO2_3.writes (Elt F) VO2_3.junk (kernelRun2_A c i arg2 harg2 arg3 harg3 arg4 harg4 arg5 harg5 arg6 harg6 hc0 hc1 x0 x1 x2).1)
theorem scover2_A_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i) (x0 : Vec F S512x256 .f32) (x1 : Vec F S512x256 .f32) (x2 : Vec F S512x512 .bf16) (y : S512x1.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1.size (by sl_kernel_rfl) y
/-- First step: the accumulator ends at its pieces read back. -/
def sout2_A_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i) (x0 : Vec F S512x256 .f32) (x1 : Vec F S512x256 .f32) (x2 : Vec F S512x512 .bf16) : Vec F S512x1 .f32 :=
  VS2_0.read (Elt F) (VS2_0.writes (Elt F) VS2_0.junk (kernelRun2_A c i arg2 harg2 arg3 harg3 arg4 harg4 arg5 harg5 arg6 harg6 hc0 hc1 x0 x1 x2).2.1)

def out2_B_3 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i) (x0 : Vec F S512x256 .f32) (x1 : Vec F S512x256 .f32) (x2 : Vec F S512x512 .bf16) (xs0 : Vec F S512x1 .f32) : Vec F S512x1 .f32 :=
  VO2_3.read (Elt F) (VO2_3.writes (Elt F) VO2_3.junk (kernelRun2_B c i arg2 harg2 arg3 harg3 arg4 harg4 arg5 harg5 arg6 harg6 hc0 hc1 x0 x1 x2 xs0).1)
theorem scover2_B_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i) (x0 : Vec F S512x256 .f32) (x1 : Vec F S512x256 .f32) (x2 : Vec F S512x512 .bf16) (xs0 : Vec F S512x1 .f32) (y : S512x1.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1.size (by sl_kernel_rfl) y
def sout2_B_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i) (x0 : Vec F S512x256 .f32) (x1 : Vec F S512x256 .f32) (x2 : Vec F S512x512 .bf16) (xs0 : Vec F S512x1 .f32) : Vec F S512x1 .f32 :=
  VS2_0.read (Elt F) (VS2_0.writes (Elt F) VS2_0.junk (kernelRun2_B c i arg2 harg2 arg3 harg3 arg4 harg4 arg5 harg5 arg6 harg6 hc0 hc1 x0 x1 x2 xs0).2.1)

theorem cover2_C_3 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) (y : S512x1.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1.size (by sl_kernel_rfl) y
/-- Last step: the output block ends at its one whole store read back. -/
def out2_C_3 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) : Vec F S512x1 .f32 :=
  VO2_3.read (Elt F) (VO2_3.writes (Elt F) VO2_3.junk (kernelRun2_C c i arg2 harg2 arg3 harg3 arg4 harg4 arg5 harg5 arg6 harg6 hc0 hc1 x0 x1 x2 xs0).1)
theorem scover2_C_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) (y : S512x1.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1.size (by sl_kernel_rfl) y
def sout2_C_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) : Vec F S512x1 .f32 :=
  VS2_0.read (Elt F) (VS2_0.writes (Elt F) VS2_0.junk (kernelRun2_C c i arg2 harg2 arg3 harg3 arg4 harg4 arg5 harg5 arg6 harg6 hc0 hc1 x0 x1 x2 xs0).2.1)

section Region
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the output block and the accumulator hold after each point -/

/-- After the body at position `n`: (the output block's staging buffer, the accumulator). -/
def outsAt2 (c : Dev nD) : (n : ℕ) → n < cfg2.N → Vec F S512x1 .f32 × Vec F S512x1 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region hands over; afterwards the accumulator at what the
    point before left in it, the other scoped buffers unopened, the generator register at some state. -/
def PhiS2 (c : Dev nD) : (n : ℕ) → n ≤ cfg2.N → sProp 𝕄
  | 0, _ => Pipeline.ΦA spec2 c
  | n + 1, hn => iprop((owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop((owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬ t.val % 16 = 15 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := by intro hz; rw [hz] at h0; exact h0 (Nat.zero_mod _)
    by_cases h1 : t.val % 16 = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%eO, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the region hands over is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the region's own back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega), PhiA2_eq]
  iintro ⟨⟨HS0, HR⟩, Hg⟩
  isplitl [HS0 HR]
  · isplitl [HS0]
    · iexists _; iexact HS0
    iexact HR
  iexact Hg

end Region

end Cert.Kernel.Hand

end
-- ==== Proof.Kernel.Run.lean ====
/-
  The whole program's run: @main is two stretches of host operations (the embedding gathers; the rounding and
  zero-padding of the plan), the three kernel regions one after the other, and a last host stretch (the sum of
  the per-row partial costs). The contents of every unscoped buffer are followed from the launch memory through
  each segment: a host stretch applies its operations, a region replaces its output array by what its
  write-backs leave. The run ends with every unscoped buffer at the last of these valuations.
-/
import proofs.«100679_j35734127902881_1_alg».proof.Proof.Kernel.R0
import proofs.«100679_j35734127902881_1_alg».proof.Proof.Kernel.R1
import proofs.«100679_j35734127902881_1_alg».proof.Proof.Kernel.R2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (the wrapped indices, the two embedding gathers, the plan rounded). -/
abbrev W1 : Dev nD → Valuation τ sig (Elt F) := fun c => StableHlo.after hostOps0 (W0 m c)
/-- After the second host stretch (the plan zero-padded): region 0's entry. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- At region 0's exit: its arrays at what the pipeline leaves (the inputs as entered, the output's write-backs
    folded), every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At region 1's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its arrays at what the pipeline leaves (the inputs as entered, the output's write-backs
    folded), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the last host stretch (the partial costs summed): the end of @main. -/
abbrev W6 : Dev nD → Valuation τ sig (Elt F) := fun c => StableHlo.after hostOps3 (W5 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hfresh0 : (hostOps0 : List (HloOp τ sig (Elt F))).Forall fun op => op.fresh = ∅ := by
  simp only [List.Forall]; repeat' constructor
theorem hfresh0_1 : (hostOps0_1 : List (HloOp τ sig (Elt F))).Forall fun op => op.fresh = ∅ := by
  simp only [List.Forall]; repeat' constructor
theorem hfresh3 : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state region 2 leaves, without the `owes`: every unscoped buffer at its exit contents. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at the contents before it, left with the
    region's arrays at what its write-backs leave and every other unscoped buffer as entered. The generator register
    and the scoped buffers pass into the invariant and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V2 m) c)
    unfold Pipeline.ΦA
    iintro ⟨Hp, -, Hr⟩
    isplitl [Hr]; · iexact Hr
    iexact Hp
  hout c := by
    rw [Pipeline.ownSems0_none]
    refine (hout0 (V2 m) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other unscoped buffer as entered. The generator register
    and the scoped buffers pass into the invariant and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V3 m) c)
    unfold Pipeline.ΦA
    iintro ⟨Hp, -, Hr⟩
    isplitl [Hr]; · iexact Hr
    iexact Hp
  hout c := by
    rw [Pipeline.ownSems0_none]
    refine (hout1 (V3 m) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    region's arrays at what its write-backs leave and every other unscoped buffer as entered. The generator register
    and the scoped buffers pass into the invariant and out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (V4 m) c)
    unfold Pipeline.ΦA
    iintro ⟨Hp, -, Hr⟩
    isplitl [Hr]; · iexact Hr
    iexact Hp
  hout c := by
    rw [Pipeline.ownSems0_none]
    refine (hout2 (V4 m) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hfresh0 (W0 m)),
    .host (hseg hostOps0_1 hostOps0_1_sub hfresh0_1 (W1 m)),
    .region (reg0 m),
    .region (reg1 m),
    .region (reg2 m),
    .host (hseg hostOps3 hostOps3_sub hfresh3 (W5 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final state each unscoped buffer of each core holds the last valuation's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, ⟨Hp, Ho⟩⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.Kernel.Args.lean ====
/-
  The argument arrays end as launched: no host operation writes one and no region's output window is one, so the
  last valuation at an argument's buffer walks back, through the regions and the host stretches, to the launch
  memory. With the run this is the program's frame: it terminates, faults nowhere, and leaves its arguments unchanged.
-/
import proofs.«100679_j35734127902881_1_alg».proof.Proof.Kernel.Run
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W2_arg0 (c : Dev nD) : W2 m c (Proc.devRef .tc main_arg0) = m ((c : Thread nD τ).loc main_arg0) := by
  dsimp only [W2, W1, hostOps0_1, hostOps0]; after_results
theorem W2_arg1 (c : Dev nD) : W2 m c (Proc.devRef .tc main_arg1) = m ((c : Thread nD τ).loc main_arg1) := by
  dsimp only [W2, W1, hostOps0_1, hostOps0]; after_results
theorem W2_arg2 (c : Dev nD) : W2 m c (Proc.devRef .tc main_arg2) = m ((c : Thread nD τ).loc main_arg2) := by
  dsimp only [W2, W1, hostOps0_1, hostOps0]; after_results
theorem W2_arg3 (c : Dev nD) : W2 m c (Proc.devRef .tc main_arg3) = m ((c : Thread nD τ).loc main_arg3) := by
  dsimp only [W2, W1, hostOps0_1, hostOps0]; after_results
theorem W2_arg4 (c : Dev nD) : W2 m c (Proc.devRef .tc main_arg4) = m ((c : Thread nD τ).loc main_arg4) := by
  dsimp only [W2, W1, hostOps0_1, hostOps0]; after_results

/-- A buffer no region's window has as its array is read back through the three regions unchanged. -/
theorem W5_keep (c : Dev nD) (b : Ref sig .tc) (h0 : ∀ w, Pipeline.arrRef spec0 w ≠ b) (h1 : ∀ w, Pipeline.arrRef spec1 w ≠ b) (h2 : ∀ w, Pipeline.arrRef spec2 w ≠ b) :
    W5 m c (Proc.devRef .tc b) = W2 m c (Proc.devRef .tc b) :=
  (W5_of_ne m c b h2).trans ((W4_of_ne m c b h1).trans (W3_of_ne m c b h0))

theorem W6_arg0 (c : Dev nD) : W6 m c (Proc.devRef .tc main_arg0) = m ((c : Thread nD τ).loc main_arg0) := by
  have e : W6 m c (Proc.devRef .tc main_arg0) = W5 m c (Proc.devRef .tc main_arg0) := by dsimp only [W6, hostOps3]; after_results
  exact e.trans ((W5_keep m c main_arg0 (by decide) (by decide) (by decide)).trans (W2_arg0 m c))
theorem W6_arg1 (c : Dev nD) : W6 m c (Proc.devRef .tc main_arg1) = m ((c : Thread nD τ).loc main_arg1) := by
  have e : W6 m c (Proc.devRef .tc main_arg1) = W5 m c (Proc.devRef .tc main_arg1) := by dsimp only [W6, hostOps3]; after_results
  exact e.trans ((W5_keep m c main_arg1 (by decide) (by decide) (by decide)).trans (W2_arg1 m c))
theorem W6_arg2 (c : Dev nD) : W6 m c (Proc.devRef .tc main_arg2) = m ((c : Thread nD τ).loc main_arg2) := by
  have e : W6 m c (Proc.devRef .tc main_arg2) = W5 m c (Proc.devRef .tc main_arg2) := by dsimp only [W6, hostOps3]; after_results
  exact e.trans ((W5_keep m c main_arg2 (by decide) (by decide) (by decide)).trans (W2_arg2 m c))
theorem W6_arg3 (c : Dev nD) : W6 m c (Proc.devRef .tc main_arg3) = m ((c : Thread nD τ).loc main_arg3) := by
  have e : W6 m c (Proc.devRef .tc main_arg3) = W5 m c (Proc.devRef .tc main_arg3) := by dsimp only [W6, hostOps3]; after_results
  -- the first index vector is region 0's first input window: a region leaves an input's array as it found it
  exact e.trans ((W5_of_ne m c main_arg3 (by decide)).trans ((W4_of_ne m c main_arg3 (by decide)).trans
    ((W3_arr m c 0).trans (((dat0 (V2 m) c).arrAt_in 0 rfl _).trans ((A_eq0 (V2 m) c 0).trans (W2_arg3 m c))))))
theorem W6_arg4 (c : Dev nD) : W6 m c (Proc.devRef .tc main_arg4) = m ((c : Thread nD τ).loc main_arg4) := by
  have e : W6 m c (Proc.devRef .tc main_arg4) = W5 m c (Proc.devRef .tc main_arg4) := by dsimp only [W6, hostOps3]; after_results
  -- the second index vector is region 1's first input window
  exact e.trans ((W5_of_ne m c main_arg4 (by decide)).trans
    ((W4_arr m c 0).trans (((dat1 (V3 m) c).arrAt_in 0 rfl _).trans ((A_eq1 (V3 m) c 0).trans ((W3_of_ne m c main_arg4 (by decide)).trans (W2_arg4 m c))))))

/-- THE FRAME, at any instance of the float operations. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_arg0 m c),
      (h c _ (mem_uc main_arg1 (by decide))).trans (W6_arg1 m c),
      (h c _ (mem_uc main_arg2 (by decide))).trans (W6_arg2 m c),
      (h c _ (mem_uc main_arg3 (by decide))).trans (W6_arg3 m c),
      (h c _ (mem_uc main_arg4 (by decide))).trans (W6_arg4 m c)⟩) (run_all m ρ)

end Cert.Kernel.Hand

end
-- ==== Proof.KernelIdeal.R0Defs.lean ====
/-
  Call 0 (R = onehot(idx1) · Ppad, accumulated over ten steps of the reduction axis in a VMEM scratch):
  what its three whole-body runs are stated over. The body branches twice on the reduction coordinate:
  at step 0 it first zeroes the scratch, at step 9 it last rounds the scratch into the output block.
  So a grid point is in one of three cases: first step (A), a middle step (B), last step (C).
-/
import proofs.«100679_j35734127902881_1_alg».proof.Proof.Gen.KernelIdeal.Launch
import proofs.«100679_j35734127902881_1_alg».proof.Proof.Gen.KernelIdeal.Skeleton
import proofs.«100679_j35734127902881_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the grid -/

/-- The body zeroes its accumulator: the reduction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- The body stores its output block: the reduction coordinate is the last one. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last reduction step the output block is not stored, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S512x2048 .bf16 := (Memref.whole cc0_stg2_0 : Memref sig .tc .vmem S512x2048 .bf16).view
abbrev ms0_0 (t : Fin cfg0.N) : Memref sig .tc .vmem S512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
/-- The accumulator: a whole scoped buffer of the call's own. -/
abbrev scM0_0 : Memref sig .tc .vmem S512x2048 .f32 := Memref.whole cc0_scratch0
abbrev VS0_0 : View sig .tc .vmem S512x2048 .f32 := scM0_0.view

/-- What the region hands the body beside its windows: the accumulator at some contents, every other scoped buffer
    that is no staging buffer of this call unopened, and the generator register. -/
theorem PhiA0_eq (c : Dev nD) :
    (Pipeline.ΦA spec0 c : sProp 𝕄)
      = iprop(((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0_0, owns_whole, bigSepL]
  rfl

end Cert.KernelIdeal.Hand

end
-- ==== Proof.KernelIdeal.R0RunA.lean ====
/-
  Call 0, first reduction step: the body zeroes the accumulator, adds this step's one-hot product into it, and
  leaves the output block alone. The pieces the accumulator ends with are found by running the body.
-/
import proofs.«100679_j35734127902881_1_alg».proof.Proof.KernelIdeal.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i)
    (x0 : Vec F S512 .i32) (x1 : Vec F S1024x2048 .bf16) :
    Σ' (LO : List (View.Piece (Elt F) S512x2048 .bf16)), { LS0 : List (View.Piece (Elt F) S512x2048 .f32) //
      ∀ (xi : Vec F S512x2048 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc0__r_kernel i arg3 harg3 arg4 harg4 arg5 harg5 arg6 harg6) K } := by
  refine ⟨[], ?_, fun xi E K => ?run⟩
  case run =>
    simp only [cc0__r_kernel_eq_skeleton]; unfold cc0__r_kernel_skel
    unfold owns
    iintro ⟨⟨%f0, %hf0, H0⟩, ⟨%f1, %hf1, H1⟩, ⟨%fO, %hfO, HO⟩, ⟨%ds0, %fs0, -, HS0⟩, Hk⟩
    obtain rfl := harg3.eq_unread hf0; obtain rfl := harg4.eq_unread hf1; obtain rfl := harg5.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

end Cert.KernelIdeal.Hand

end
-- ==== Proof.KernelIdeal.R0RunB.lean ====
/-
  Call 0, a middle reduction step: the body adds this step's one-hot product into the accumulator the step before
  left, and leaves the output block alone.
-/
import proofs.«100679_j35734127902881_1_alg».proof.Proof.KernelIdeal.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i)
    (x0 : Vec F S512 .i32) (x1 : Vec F S1024x2048 .bf16) (xs0 : Vec F S512x2048 .f32) :
    Σ' (LO : List (View.Piece (Elt F) S512x2048 .bf16)), { LS0 : List (View.Piece (Elt F) S512x2048 .f32) //
      ∀ (xi : Vec F S512x2048 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs0
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc0__r_kernel i arg3 harg3 arg4 harg4 arg5 harg5 arg6 harg6) K } := by
  refine ⟨[], ?_, fun xi E K => ?run⟩
  case run =>
    simp only [cc0__r_kernel_eq_skeleton]; unfold cc0__r_kernel_skel
    unfold owns
    iintro ⟨⟨%f0, %hf0, H0⟩, ⟨%f1, %hf1, H1⟩, ⟨%fO, %hfO, HO⟩, ⟨%fs0, %hfs0, HS0⟩, Hk⟩
    obtain rfl := harg3.eq_unread hf0; obtain rfl := harg4.eq_unread hf1; obtain rfl := harg5.eq_unread hfO; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

end Cert.KernelIdeal.Hand

end
-- ==== Proof.KernelIdeal.R0RunC.lean ====
/-
  Call 0, last reduction step: the body adds this step's one-hot product into the accumulator the step before
  left, then stores the accumulator, rounded to the output's format, as the whole output block.
-/
import proofs.«100679_j35734127902881_1_alg».proof.Proof.KernelIdeal.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i)
    (x0 : Vec F S512 .i32) (x1 : Vec F S1024x2048 .bf16) (xs0 : Vec F S512x2048 .f32) :
    Σ' (LO : List (View.Piece (Elt F) S512x2048 .bf16)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc0__r_kernel i arg3 harg3 arg4 harg4 arg5 harg5 arg6 harg6) K } := by
  refine ⟨?_, ?_, fun E K => ?run⟩
  case run =>
    simp only [cc0__r_kernel_eq_skeleton]; unfold cc0__r_kernel_skel
    unfold owns
    iintro ⟨⟨%f0, %hf0, H0⟩, ⟨%f1, %hf1, H1⟩, ⟨%dO, %fO, -, HO⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]; · iexists _; iexact HO
    iexists _; iexact HS0

end Cert.KernelIdeal.Hand

end
-- ==== Proof.KernelIdeal.R0.lean ====
/-
  Call 0 at the contents `V` its region is entered with: what the output block's staging buffer and the accumulator
  hold after every grid point (by recursion on the point: the accumulator restarts at each first reduction step and
  otherwise continues from the point before), the invariant carrying the accumulator between points, the
  pipeline's proof data, and the body's obligation at a generic point.
-/
import proofs.«100679_j35734127902881_1_alg».proof.Proof.KernelIdeal.R0RunA
import proofs.«100679_j35734127902881_1_alg».proof.Proof.KernelIdeal.R0RunB
import proofs.«100679_j35734127902881_1_alg».proof.Proof.KernelIdeal.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- First step: nothing is stored into the output block (a placeholder nothing consults). -/
def out0_A_2 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i) (x0 : Vec F S512 .i32) (x1 : Vec F S1024x2048 .bf16) : Vec F S512x2048 .bf16 :=
  VO0_2.read (Elt F) (VO0_2.writes (Elt F) VO0_2.junk (kernelRun0_A c i arg3 harg3 arg4 harg4 arg5 harg5 arg6 harg6 hc0 hc1 x0 x1).1)
theorem scover0_A_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i) (x0 : Vec F S512 .i32) (x1 : Vec F S1024x2048 .bf16) (y : S512x2048.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S512x2048.size (by sl_kernel_rfl) y
/-- First step: the accumulator ends at its pieces read back. -/
def sout0_A_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i) (x0 : Vec F S512 .i32) (x1 : Vec F S1024x2048 .bf16) : Vec F S512x2048 .f32 :=
  VS0_0.read (Elt F) (VS0_0.writes (Elt F) VS0_0.junk (kernelRun0_A c i arg3 harg3 arg4 harg4 arg5 harg5 arg6 harg6 hc0 hc1 x0 x1).2.1)

def out0_B_2 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i) (x0 : Vec F S512 .i32) (x1 : Vec F S1024x2048 .bf16) (xs0 : Vec F S512x2048 .f32) : Vec F S512x2048 .bf16 :=
  VO0_2.read (Elt F) (VO0_2.writes (Elt F) VO0_2.junk (kernelRun0_B c i arg3 harg3 arg4 harg4 arg5 harg5 arg6 harg6 hc0 hc1 x0 x1 xs0).1)
theorem scover0_B_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i) (x0 : Vec F S512 .i32) (x1 : Vec F S1024x2048 .bf16) (xs0 : Vec F S512x2048 .f32) (y : S512x2048.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S512x2048.size (by sl_kernel_rfl) y
def sout0_B_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i) (x0 : Vec F S512 .i32) (x1 : Vec F S1024x2048 .bf16) (xs0 : Vec F S512x2048 .f32) : Vec F S512x2048 .f32 :=
  VS0_0.read (Elt F) (VS0_0.writes (Elt F) VS0_0.junk (kernelRun0_B c i arg3 harg3 arg4 harg4 arg5 harg5 arg6 harg6 hc0 hc1 x0 x1 xs0).2.1)

theorem cover0_C_2 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) (y : S512x2048.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S512x2048.size (by sl_kernel_rfl) y
/-- Last step: the output block ends at its one whole store read back. -/
def out0_C_2 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) : Vec F S512x2048 .bf16 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) (y : S512x2048.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S512x2048.size (by sl_kernel_rfl) y
def sout0_C_0 (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) : Vec F S512x2048 .f32 :=
  VS0_0.read (Elt F) (VS0_0.writes (Elt F) VS0_0.junk (kernelRun0_C c i arg3 harg3 arg4 harg4 arg5 harg5 arg6 harg6 hc0 hc1 x0 x1 xs0).2.1)

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the accumulator hold after each point -/

/-- After the body at position `n`: (the output block's staging buffer, the accumulator). -/
def outsAt0 (c : Dev nD) : (n : ℕ) → n < cfg0.N → Vec F S512x2048 .bf16 × Vec F S512x2048 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 10 = 0 then
      if h1 : (n + 1) % 10 = 9 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 10 = 9 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 10 = 0) (h1 : ¬t.val % 10 = 9) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region hands over; afterwards the accumulator at what the
    point before left in it, the other scoped buffers unopened, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop((owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 800 := lt_of_lt_of_eq t.isLt (show cfg0.N = 800 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 10 = 0
  · have h1 : ¬ t.val % 10 = 9 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 10 = 9
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%eO, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the region's own back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 800 := N_0; omega), PhiA0_eq]
  iintro ⟨⟨HS0, HR⟩, Hg⟩
  isplitl [HS0 HR]
  · isplitl [HS0]
    · iexists _; iexact HS0
    iexact HR
  iexact Hg

end Region

end Cert.KernelIdeal.Hand

end
-- ==== Proof.KernelIdeal.R1Defs.lean ====
/-
  Call 1 (G = R · onehot(idx2)ᵀ, accumulated over five steps of the reduction axis in a VMEM scratch):
  what its three whole-body runs are stated over. At step 0 the body first zeroes the scratch, at step 4 it
  last rounds the scratch into the output block: first step (A), a middle step (B), last step (C).
-/
import proofs.«100679_j35734127902881_1_alg».proof.Proof.Gen.KernelIdeal.Launch
import proofs.«100679_j35734127902881_1_alg».proof.Proof.Gen.KernelIdeal.Skeleton
import proofs.«100679_j35734127902881_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the grid -/

/-- The body zeroes its accumulator: the reduction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

/-- The body stores its output block: the reduction coordinate is the last one. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last reduction step the output block is not stored, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S512x512 .bf16 := (Memref.whole cc1_stg2_0 : Memref sig .tc .vmem S512x512 .bf16).view
abbrev ms1_0 (t : Fin cfg1.N) : Memref sig .tc .vmem S512 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
/-- The accumulator: a whole scoped buffer of the call's own. -/
abbrev scM1_0 : Memref sig .tc .vmem S512x512 .f32 := Memref.whole cc1_scratch0
abbrev VS1_0 : View sig .tc .vmem S512x512 .f32 := scM1_0.view

/-- What the region hands the body beside its windows: the accumulator at some contents, every other scoped buffer
    that is no staging buffer of this call unopened, and the generator register. -/
theorem PhiA1_eq (c : Dev nD) :
    (Pipeline.ΦA spec1 c : sProp 𝕄)
      = iprop(((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1_0, owns_whole, bigSepL]
  rfl

end Cert.KernelIdeal.Hand

end
-- ==== Proof.KernelIdeal.R1RunA.lean ====
/-
  Call 1, first reduction step: the body zeroes the accumulator, adds this step's product of the row tile with
  the one-hot tile into it, and leaves the output block alone.
-/
import proofs.«100679_j35734127902881_1_alg».proof.Proof.KernelIdeal.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i)
    (x0 : Vec F S512 .i32) (x1 : Vec F S512x2048 .bf16) :
    Σ' (LO : List (View.Piece (Elt F) S512x512 .bf16)), { LS0 : List (View.Piece (Elt F) S512x512 .f32) //
      ∀ (xi : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc1__g_kernel i arg3 harg3 arg4 harg4 arg5 harg5 arg6 harg6) K } := by
  refine ⟨[], ?_, fun xi E K => ?run⟩
  case run =>
    simp only [cc1__g_kernel_eq_skeleton]; unfold cc1__g_kernel_skel
    unfold owns
    iintro ⟨⟨%f0, %hf0, H0⟩, ⟨%f1, %hf1, H1⟩, ⟨%fO, %hfO, HO⟩, ⟨%ds0, %fs0, -, HS0⟩, Hk⟩
    obtain rfl := harg3.eq_unread hf0; obtain rfl := harg4.eq_unread hf1; obtain rfl := harg5.eq_unread hfO
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

end Cert.KernelIdeal.Hand

end
-- ==== Proof.KernelIdeal.R1RunB.lean ====
/-
  Call 1, a middle reduction step: the body adds this step's product into the accumulator the step before left,
  and leaves the output block alone.
-/
import proofs.«100679_j35734127902881_1_alg».proof.Proof.KernelIdeal.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i)
    (x0 : Vec F S512 .i32) (x1 : Vec F S512x2048 .bf16) (xs0 : Vec F S512x512 .f32) :
    Σ' (LO : List (View.Piece (Elt F) S512x512 .bf16)), { LS0 : List (View.Piece (Elt F) S512x512 .f32) //
      ∀ (xi : Vec F S512x512 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs0
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc1__g_kernel i arg3 harg3 arg4 harg4 arg5 harg5 arg6 harg6) K } := by
  refine ⟨[], ?_, fun xi E K => ?run⟩
  case run =>
    simp only [cc1__g_kernel_eq_skeleton]; unfold cc1__g_kernel_skel
    unfold owns
    iintro ⟨⟨%f0, %hf0, H0⟩, ⟨%f1, %hf1, H1⟩, ⟨%fO, %hfO, HO⟩, ⟨%fs0, %hfs0, HS0⟩, Hk⟩
    obtain rfl := harg3.eq_unread hf0; obtain rfl := harg4.eq_unread hf1; obtain rfl := harg5.eq_unread hfO; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]
    · iexists _; isplitr; · ipureintro; exact harg5.read_unread _
      iexact HO
    iexists _; iexact HS0

end Cert.KernelIdeal.Hand

end
-- ==== Proof.KernelIdeal.R1RunC.lean ====
/-
  Call 1, last reduction step: the body adds this step's product into the accumulator the step before left, then
  stores the accumulator, rounded to the output's format, as the whole output block.
-/
import proofs.«100679_j35734127902881_1_alg».proof.Proof.KernelIdeal.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i)
    (x0 : Vec F S512 .i32) (x1 : Vec F S512x2048 .bf16) (xs0 : Vec F S512x512 .f32) :
    Σ' (LO : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc1__g_kernel i arg3 harg3 arg4 harg4 arg5 harg5 arg6 harg6) K } := by
  refine ⟨?_, ?_, fun E K => ?run⟩
  case run =>
    simp only [cc1__g_kernel_eq_skeleton]; unfold cc1__g_kernel_skel
    unfold owns
    iintro ⟨⟨%f0, %hf0, H0⟩, ⟨%f1, %hf1, H1⟩, ⟨%dO, %fO, -, HO⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [HO]; · iexists _; iexact HO
    iexists _; iexact HS0

end Cert.KernelIdeal.Hand

end
-- ==== Proof.KernelIdeal.R1.lean ====
/-
  Call 1 at the contents `V` its region is entered with: what the output block's staging buffer and the accumulator
  hold after every grid point, the invariant carrying the accumulator between points, the pipeline's proof data,
  and the body's obligation at a generic point.
-/
import proofs.«100679_j35734127902881_1_alg».proof.Proof.KernelIdeal.R1RunA
import proofs.«100679_j35734127902881_1_alg».proof.Proof.KernelIdeal.R1RunB
import proofs.«100679_j35734127902881_1_alg».proof.Proof.KernelIdeal.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- First step: nothing is stored into the output block (a placeholder nothing consults). -/
def out1_A_2 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i) (x0 : Vec F S512 .i32) (x1 : Vec F S512x2048 .bf16) : Vec F S512x512 .bf16 :=
  VO1_2.read (Elt F) (VO1_2.writes (Elt F) VO1_2.junk (kernelRun1_A c i arg3 harg3 arg4 harg4 arg5 harg5 arg6 harg6 hc0 hc1 x0 x1).1)
theorem scover1_A_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i) (x0 : Vec F S512 .i32) (x1 : Vec F S512x2048 .bf16) (y : S512x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S512x512.size (by sl_kernel_rfl) y
/-- First step: the accumulator ends at its pieces read back. -/
def sout1_A_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i) (x0 : Vec F S512 .i32) (x1 : Vec F S512x2048 .bf16) : Vec F S512x512 .f32 :=
  VS1_0.read (Elt F) (VS1_0.writes (Elt F) VS1_0.junk (kernelRun1_A c i arg3 harg3 arg4 harg4 arg5 harg5 arg6 harg6 hc0 hc1 x0 x1).2.1)

def out1_B_2 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i) (x0 : Vec F S512 .i32) (x1 : Vec F S512x2048 .bf16) (xs0 : Vec F S512x512 .f32) : Vec F S512x512 .bf16 :=
  VO1_2.read (Elt F) (VO1_2.writes (Elt F) VO1_2.junk (kernelRun1_B c i arg3 harg3 arg4 harg4 arg5 harg5 arg6 harg6 hc0 hc1 x0 x1 xs0).1)
theorem scover1_B_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i) (x0 : Vec F S512 .i32) (x1 : Vec F S512x2048 .bf16) (xs0 : Vec F S512x512 .f32) (y : S512x512.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S512x512.size (by sl_kernel_rfl) y
def sout1_B_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i) (x0 : Vec F S512 .i32) (x1 : Vec F S512x2048 .bf16) (xs0 : Vec F S512x512 .f32) : Vec F S512x512 .f32 :=
  VS1_0.read (Elt F) (VS1_0.writes (Elt F) VS1_0.junk (kernelRun1_B c i arg3 harg3 arg4 harg4 arg5 harg5 arg6 harg6 hc0 hc1 x0 x1 xs0).2.1)

theorem cover1_C_2 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) (y : S512x512.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S512x512.size (by sl_kernel_rfl) y
/-- Last step: the output block ends at its one whole store read back. -/
def out1_C_2 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) : Vec F S512x512 .bf16 :=
  VO1_2.read (Elt F) (VO1_2.writes (Elt F) VO1_2.junk (kernelRun1_C c i arg3 harg3 arg4 harg4 arg5 harg5 arg6 harg6 hc0 hc1 x0 x1 xs0).1)
theorem scover1_C_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) (y : S512x512.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S512x512.size (by sl_kernel_rfl) y
def sout1_C_0 (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) : Vec F S512x512 .f32 :=
  VS1_0.read (Elt F) (VS1_0.writes (Elt F) VS1_0.junk (kernelRun1_C c i arg3 harg3 arg4 harg4 arg5 harg5 arg6 harg6 hc0 hc1 x0 x1 xs0).2.1)

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the accumulator hold after each point -/

/-- After the body at position `n`: (the output block's staging buffer, the accumulator). -/
def outsAt1 (c : Dev nD) : (n : ℕ) → n < cfg1.N → Vec F S512x512 .bf16 × Vec F S512x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 5 = 0 then
      if h1 : (n + 1) % 5 = 4 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 5 = 4 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region hands over; afterwards the accumulator at what the
    point before left in it, the other scoped buffers unopened, the generator register at some state. -/
def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop((owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 1280 := lt_of_lt_of_eq t.isLt (show cfg1.N = 1280 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 5 = 0
  · have h1 : ¬ t.val % 5 = 4 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 5 = 4
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%eO, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the region's own back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 1280 := N_1; omega), PhiA1_eq]
  iintro ⟨⟨HS0, HR⟩, Hg⟩
  isplitl [HS0 HR]
  · isplitl [HS0]
    · iexists _; iexact HS0
    iexact HR
  iexact Hg

end Region

end Cert.KernelIdeal.Hand

end
-- ==== Proof.KernelIdeal.R2Defs.lean ====
/-
  Call 2 (per row block, the weighted squared distances summed over sixteen column blocks in a VMEM scratch):
  what its three whole-body runs are stated over. At column block 0 the body first zeroes the scratch, at column
  block 15 it last copies the scratch into the output block: first step (A), a middle step (B), last step (C).
-/
import proofs.«100679_j35734127902881_1_alg».proof.Proof.Gen.KernelIdeal.Launch
import proofs.«100679_j35734127902881_1_alg».proof.Proof.Gen.KernelIdeal.Skeleton
import proofs.«100679_j35734127902881_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the grid -/

/-- The body zeroes its accumulator: the reduction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

/-- The body stores its output block: the reduction coordinate is the last one. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last reduction step the output block is not stored, and the pipeline does not write it back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the body is called with -/

abbrev VO2_3 : View sig .tc .vmem S512x1 .f32 := (Memref.whole cc2_stg3_0 : Memref sig .tc .vmem S512x1 .f32).view
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
/-- The accumulator: a whole scoped buffer of the call's own. -/
abbrev scM2_0 : Memref sig .tc .vmem S512x1 .f32 := Memref.whole cc2_scratch0
abbrev VS2_0 : View sig .tc .vmem S512x1 .f32 := scM2_0.view

/-- What the region hands the body beside its windows: the accumulator at some contents, every other scoped buffer
    that is no staging buffer of this call unopened, and the generator register. -/
theorem PhiA2_eq (c : Dev nD) :
    (Pipeline.ΦA spec2 c : sProp 𝕄)
      = iprop(((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2_0, owns_whole, bigSepL]
  rfl

end Cert.KernelIdeal.Hand

end
-- ==== Proof.KernelIdeal.R2RunA.lean ====
/-
  Call 2, first column block: the body zeroes the accumulator, adds this block's row sums of distance times plan
  into it, and leaves the output block alone.
-/
import proofs.«100679_j35734127902881_1_alg».proof.Proof.KernelIdeal.R2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i)
    (x0 : Vec F S512x256 .f32) (x1 : Vec F S512x256 .f32) (x2 : Vec F S512x512 .bf16) :
    Σ' (LO : List (View.Piece (Elt F) S512x1 .f32)), { LS0 : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc2__cost_kernel i arg2 harg2 arg3 harg3 arg4 harg4 arg5 harg5 arg6 harg6) K } := by
  refine ⟨[], ?_, fun xi E K => ?run⟩
  case run =>
    simp only [cc2__cost_kernel_eq_skeleton]; unfold cc2__cost_kernel_skel
    simp only [k2_part1_eq_skeleton]
    unfold owns
    iintro ⟨⟨%f0, %hf0, H0⟩, ⟨%f1, %hf1, H1⟩, ⟨%f2, %hf2, H2⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.KernelIdeal.Hand

end
-- ==== Proof.KernelIdeal.R2RunB.lean ====
/-
  Call 2, a middle column block: the body adds this block's row sums into the accumulator the block before left,
  and leaves the output block alone.
-/
import proofs.«100679_j35734127902881_1_alg».proof.Proof.KernelIdeal.R2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun2_B (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i)
    (x0 : Vec F S512x256 .f32) (x1 : Vec F S512x256 .f32) (x2 : Vec F S512x512 .bf16) (xs0 : Vec F S512x1 .f32) :
    Σ' (LO : List (View.Piece (Elt F) S512x1 .f32)), { LS0 : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS0)) -∗ K ⟨⟩))
          ⊢ wp frame (wpE (defs₀ (F := F)) Variants.none c none) E (cc2__cost_kernel i arg2 harg2 arg3 harg3 arg4 harg4 arg5 harg5 arg6 harg6) K } := by
  refine ⟨[], ?_, fun xi E K => ?run⟩
  case run =>
    simp only [cc2__cost_kernel_eq_skeleton]; unfold cc2__cost_kernel_skel
    simp only [k2_part1_eq_skeleton]
    unfold owns
    iintro ⟨⟨%f0, %hf0, H0⟩, ⟨%f1, %hf1, H1⟩, ⟨%f2, %hf2, H2⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hfO; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS0

end Cert.KernelIdeal.Hand

end
-- ==== Proof.KernelIdeal.R2RunC.lean ====
/-
  Call 2, last column block: the body adds this block's row sums into the accumulator the block before left, then
  stores the accumulator as the whole output block.
-/
import proofs.«100679_j35734127902881_1_alg».proof.Proof.KernelIdeal.R2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i)
    (x0 : Vec F S512x256 .f32) (x1 : Vec F S512x256 .f32) (x2 : Vec F S512x512 .bf16) (xs0 : Vec F S512x1 .f32) :
    Σ' (LO : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS0)) -∗ K ⟨⟩))
          ⊢ wp frame (wpE (defs₀ (F := F)) Variants.none c none) E (cc2__cost_kernel i arg2 harg2 arg3 harg3 arg4 harg4 arg5 harg5 arg6 harg6) K } := by
  refine ⟨?_, ?_, fun E K => ?run⟩
  case run =>
    simp only [cc2__cost_kernel_eq_skeleton]; unfold cc2__cost_kernel_skel
    simp only [k2_part1_eq_skeleton]
    unfold owns
    iintro ⟨⟨%f0, %hf0, H0⟩, ⟨%f1, %hf1, H1⟩, ⟨%f2, %hf2, H2⟩, ⟨%dO, %fO, -, HO⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS0

end Cert.KernelIdeal.Hand

end
-- ==== Proof.KernelIdeal.R2.lean ====
/-
  Call 2 at the contents `V` its region is entered with: what the output block's staging buffer and the accumulator
  hold after every grid point, the invariant carrying the accumulator between points, the pipeline's proof data,
  and the body's obligation at a generic point.
-/
import proofs.«100679_j35734127902881_1_alg».proof.Proof.KernelIdeal.R2RunA
import proofs.«100679_j35734127902881_1_alg».proof.Proof.KernelIdeal.R2RunB
import proofs.«100679_j35734127902881_1_alg».proof.Proof.KernelIdeal.R2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- First step: nothing is stored into the output block (a placeholder nothing consults). -/
def out2_A_3 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i) (x0 : Vec F S512x256 .f32) (x1 : Vec F S512x256 .f32) (x2 : Vec F S512x512 .bf16) : Vec F S512x1 .f32 :=
  VO2_3.read (Elt F) (VO2_3.writes (Elt F) VO2_3.junk (kernelRun2_A c i arg2 harg2 arg3 harg3 arg4 harg4 arg5 harg5 arg6 harg6 hc0 hc1 x0 x1 x2).1)
theorem scover2_A_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i) (x0 : Vec F S512x256 .f32) (x1 : Vec F S512x256 .f32) (x2 : Vec F S512x512 .bf16) (y : S512x1.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1.size (by sl_kernel_rfl) y
/-- First step: the accumulator ends at its pieces read back. -/
def sout2_A_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i) (x0 : Vec F S512x256 .f32) (x1 : Vec F S512x256 .f32) (x2 : Vec F S512x512 .bf16) : Vec F S512x1 .f32 :=
  VS2_0.read (Elt F) (VS2_0.writes (Elt F) VS2_0.junk (kernelRun2_A c i arg2 harg2 arg3 harg3 arg4 harg4 arg5 harg5 arg6 harg6 hc0 hc1 x0 x1 x2).2.1)

def out2_B_3 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i) (x0 : Vec F S512x256 .f32) (x1 : Vec F S512x256 .f32) (x2 : Vec F S512x512 .bf16) (xs0 : Vec F S512x1 .f32) : Vec F S512x1 .f32 :=
  VO2_3.read (Elt F) (VO2_3.writes (Elt F) VO2_3.junk (kernelRun2_B c i arg2 harg2 arg3 harg3 arg4 harg4 arg5 harg5 arg6 harg6 hc0 hc1 x0 x1 x2 xs0).1)
theorem scover2_B_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i) (x0 : Vec F S512x256 .f32) (x1 : Vec F S512x256 .f32) (x2 : Vec F S512x512 .bf16) (xs0 : Vec F S512x1 .f32) (y : S512x1.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1.size (by sl_kernel_rfl) y
def sout2_B_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i) (x0 : Vec F S512x256 .f32) (x1 : Vec F S512x256 .f32) (x2 : Vec F S512x512 .bf16) (xs0 : Vec F S512x1 .f32) : Vec F S512x1 .f32 :=
  VS2_0.read (Elt F) (VS2_0.writes (Elt F) VS2_0.junk (kernelRun2_B c i arg2 harg2 arg3 harg3 arg4 harg4 arg5 harg5 arg6 harg6 hc0 hc1 x0 x1 x2 xs0).2.1)

theorem cover2_C_3 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) (y : S512x1.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1.size (by sl_kernel_rfl) y
/-- Last step: the output block ends at its one whole store read back. -/
def out2_C_3 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) : Vec F S512x1 .f32 :=
  VO2_3.read (Elt F) (VO2_3.writes (Elt F) VO2_3.junk (kernelRun2_C c i arg2 harg2 arg3 harg3 arg4 harg4 arg5 harg5 arg6 harg6 hc0 hc1 x0 x1 x2 xs0).1)
theorem scover2_C_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) (y : S512x1.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1.size (by sl_kernel_rfl) y
def sout2_C_0 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) : Vec F S512x1 .f32 :=
  VS2_0.read (Elt F) (VS2_0.writes (Elt F) VS2_0.junk (kernelRun2_C c i arg2 harg2 arg3 harg3 arg4 harg4 arg5 harg5 arg6 harg6 hc0 hc1 x0 x1 x2 xs0).2.1)

section Region
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What the output block and the accumulator hold after each point -/

/-- After the body at position `n`: (the output block's staging buffer, the accumulator). -/
def outsAt2 (c : Dev nD) : (n : ℕ) → n < cfg2.N → Vec F S512x1 .f32 × Vec F S512x1 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry what the region hands over; afterwards the accumulator at what the
    point before left in it, the other scoped buffers unopened, the generator register at some state. -/
def PhiS2 (c : Dev nD) : (n : ℕ) → n ≤ cfg2.N → sProp 𝕄
  | 0, _ => Pipeline.ΦA spec2 c
  | n + 1, hn => iprop((owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop((owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬ t.val % 16 = 15 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := by intro hz; rw [hz] at h0; exact h0 (Nat.zero_mod _)
    by_cases h1 : t.val % 16 = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%eO, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the region hands over is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the region's own back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega), PhiA2_eq]
  iintro ⟨⟨HS0, HR⟩, Hg⟩
  isplitl [HS0 HR]
  · isplitl [HS0]
    · iexists _; iexact HS0
    iexact HR
  iexact Hg

end Region

end Cert.KernelIdeal.Hand

end
-- ==== Proof.KernelIdeal.Run.lean ====
/-
  The whole program's run: @main is two stretches of host operations (the embedding gathers; the rounding and
  zero-padding of the plan), the three kernel regions one after the other, and a last host stretch (the sum of
  the per-row partial costs). The contents of every unscoped buffer are followed from the launch memory through
  each segment: a host stretch applies its operations, a region replaces its output array by what its
  write-backs leave. The run ends with every unscoped buffer at the last of these valuations.
-/
import proofs.«100679_j35734127902881_1_alg».proof.Proof.KernelIdeal.R0
import proofs.«100679_j35734127902881_1_alg».proof.Proof.KernelIdeal.R1
import proofs.«100679_j35734127902881_1_alg».proof.Proof.KernelIdeal.R2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the first host stretch (the wrapped indices, the two embedding gathers, the plan rounded). -/
abbrev W1 : Dev nD → Valuation τ sig (Elt F) := fun c => StableHlo.after hostOps0 (W0 m c)
/-- After the second host stretch (the plan zero-padded): region 0's entry. -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- At region 0's exit: its arrays at what the pipeline leaves (the inputs as entered, the output's write-backs
    folded), every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At region 1's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its arrays at what the pipeline leaves (the inputs as entered, the output's write-backs
    folded), every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the last host stretch (the partial costs summed): the end of @main. -/
abbrev W6 : Dev nD → Valuation τ sig (Elt F) := fun c => StableHlo.after hostOps3 (W5 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hfresh0 : (hostOps0 : List (HloOp τ sig (Elt F))).Forall fun op => op.fresh = ∅ := by
  simp only [List.Forall]; repeat' constructor
theorem hfresh0_1 : (hostOps0_1 : List (HloOp τ sig (Elt F))).Forall fun op => op.fresh = ∅ := by
  simp only [List.Forall]; repeat' constructor
theorem hfresh3 : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state region 2 leaves, without the `owes`: every unscoped buffer at its exit contents. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at the contents before it, left with the
    region's arrays at what its write-backs leave and every other unscoped buffer as entered. The generator register
    and the scoped buffers pass into the invariant and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V2 m) c)
    unfold Pipeline.ΦA
    iintro ⟨Hp, -, Hr⟩
    isplitl [Hr]; · iexact Hr
    iexact Hp
  hout c := by
    rw [Pipeline.ownSems0_none]
    refine (hout0 (V2 m) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other unscoped buffer as entered. The generator register
    and the scoped buffers pass into the invariant and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V3 m) c)
    unfold Pipeline.ΦA
    iintro ⟨Hp, -, Hr⟩
    isplitl [Hr]; · iexact Hr
    iexact Hp
  hout c := by
    rw [Pipeline.ownSems0_none]
    refine (hout1 (V3 m) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    region's arrays at what its write-backs leave and every other unscoped buffer as entered. The generator register
    and the scoped buffers pass into the invariant and out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (V4 m) c)
    unfold Pipeline.ΦA
    iintro ⟨Hp, -, Hr⟩
    isplitl [Hr]; · iexact Hr
    iexact Hp
  hout c := by
    rw [Pipeline.ownSems0_none]
    refine (hout2 (V4 m) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hfresh0 (W0 m)),
    .host (hseg hostOps0_1 hostOps0_1_sub hfresh0_1 (W1 m)),
    .region (reg0 m),
    .region (reg1 m),
    .region (reg2 m),
    .host (hseg hostOps3 hostOps3_sub hfresh3 (W5 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final state each unscoped buffer of each core holds the last valuation's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, ⟨Hp, Ho⟩⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.KernelIdeal.Args.lean ====
/-
  The argument arrays end as launched: no host operation writes one and no region's output window is one, so the
  last valuation at an argument's buffer walks back, through the regions and the host stretches, to the launch
  memory. With the run this is the program's frame: it terminates, faults nowhere, and leaves its arguments unchanged.
-/
import proofs.«100679_j35734127902881_1_alg».proof.Proof.KernelIdeal.Run
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W2_arg0 (c : Dev nD) : W2 m c (Proc.devRef .tc main_arg0) = m ((c : Thread nD τ).loc main_arg0) := by
  dsimp only [W2, W1, hostOps0_1, hostOps0]; after_results
theorem W2_arg1 (c : Dev nD) : W2 m c (Proc.devRef .tc main_arg1) = m ((c : Thread nD τ).loc main_arg1) := by
  dsimp only [W2, W1, hostOps0_1, hostOps0]; after_results
theorem W2_arg2 (c : Dev nD) : W2 m c (Proc.devRef .tc main_arg2) = m ((c : Thread nD τ).loc main_arg2) := by
  dsimp only [W2, W1, hostOps0_1, hostOps0]; after_results
theorem W2_arg3 (c : Dev nD) : W2 m c (Proc.devRef .tc main_arg3) = m ((c : Thread nD τ).loc main_arg3) := by
  dsimp only [W2, W1, hostOps0_1, hostOps0]; after_results
theorem W2_arg4 (c : Dev nD) : W2 m c (Proc.devRef .tc main_arg4) = m ((c : Thread nD τ).loc main_arg4) := by
  dsimp only [W2, W1, hostOps0_1, hostOps0]; after_results

/-- A buffer no region's window has as its array is read back through the three regions unchanged. -/
theorem W5_keep (c : Dev nD) (b : Ref sig .tc) (h0 : ∀ w, Pipeline.arrRef spec0 w ≠ b) (h1 : ∀ w, Pipeline.arrRef spec1 w ≠ b) (h2 : ∀ w, Pipeline.arrRef spec2 w ≠ b) :
    W5 m c (Proc.devRef .tc b) = W2 m c (Proc.devRef .tc b) :=
  (W5_of_ne m c b h2).trans ((W4_of_ne m c b h1).trans (W3_of_ne m c b h0))

theorem W6_arg0 (c : Dev nD) : W6 m c (Proc.devRef .tc main_arg0) = m ((c : Thread nD τ).loc main_arg0) := by
  have e : W6 m c (Proc.devRef .tc main_arg0) = W5 m c (Proc.devRef .tc main_arg0) := by dsimp only [W6, hostOps3]; after_results
  exact e.trans ((W5_keep m c main_arg0 (by decide) (by decide) (by decide)).trans (W2_arg0 m c))
theorem W6_arg1 (c : Dev nD) : W6 m c (Proc.devRef .tc main_arg1) = m ((c : Thread nD τ).loc main_arg1) := by
  have e : W6 m c (Proc.devRef .tc main_arg1) = W5 m c (Proc.devRef .tc main_arg1) := by dsimp only [W6, hostOps3]; after_results
  exact e.trans ((W5_keep m c main_arg1 (by decide) (by decide) (by decide)).trans (W2_arg1 m c))
theorem W6_arg2 (c : Dev nD) : W6 m c (Proc.devRef .tc main_arg2) = m ((c : Thread nD τ).loc main_arg2) := by
  have e : W6 m c (Proc.devRef .tc main_arg2) = W5 m c (Proc.devRef .tc main_arg2) := by dsimp only [W6, hostOps3]; after_results
  exact e.trans ((W5_keep m c main_arg2 (by decide) (by decide) (by decide)).trans (W2_arg2 m c))
theorem W6_arg3 (c : Dev nD) : W6 m c (Proc.devRef .tc main_arg3) = m ((c : Thread nD τ).loc main_arg3) := by
  have e : W6 m c (Proc.devRef .tc main_arg3) = W5 m c (Proc.devRef .tc main_arg3) := by dsimp only [W6, hostOps3]; after_results
  -- the first index vector is region 0's first input window: a region leaves an input's array as it found it
  exact e.trans ((W5_of_ne m c main_arg3 (by decide)).trans ((W4_of_ne m c main_arg3 (by decide)).trans
    ((W3_arr m c 0).trans (((dat0 (V2 m) c).arrAt_in 0 rfl _).trans ((A_eq0 (V2 m) c 0).trans (W2_arg3 m c))))))
theorem W6_arg4 (c : Dev nD) : W6 m c (Proc.devRef .tc main_arg4) = m ((c : Thread nD τ).loc main_arg4) := by
  have e : W6 m c (Proc.devRef .tc main_arg4) = W5 m c (Proc.devRef .tc main_arg4) := by dsimp only [W6, hostOps3]; after_results
  -- the second index vector is region 1's first input window
  exact e.trans ((W5_of_ne m c main_arg4 (by decide)).trans
    ((W4_arr m c 0).trans (((dat1 (V3 m) c).arrAt_in 0 rfl _).trans ((A_eq1 (V3 m) c 0).trans ((W3_of_ne m c main_arg4 (by decide)).trans (W2_arg4 m c))))))

/-- THE FRAME, at any instance of the float operations. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_arg0 m c),
      (h c _ (mem_uc main_arg1 (by decide))).trans (W6_arg1 m c),
      (h c _ (mem_uc main_arg2 (by decide))).trans (W6_arg2 m c),
      (h c _ (mem_uc main_arg3 (by decide))).trans (W6_arg3 m c),
      (h c _ (mem_uc main_arg4 (by decide))).trans (W6_arg4 m c)⟩) (run_all m ρ)

end Cert.KernelIdeal.Hand

end
-- ==== Proof.PayloadsIdeal0.lean ====
import proofs.«100679_j35734127902881_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen

/-- The one-hot weight of two 32-bit words: the comparison bit, widened to a word and read as a signed
    integer, exactly. -/
def oh (a b : BitVec 32) : EReal :=
  FloatOps.sitofp (F := Ideal) .f32 ((IntOp.cmpi .eq a b).setWidth 32)

/-- It is `1` on equal words and `0` otherwise. -/
theorem oh_eq (a b : BitVec 32) : oh a b = if a = b then 1 else 0 := by
  show ((((IntOp.cmpi .eq a b).setWidth 32).toInt : ℝ) : EReal) = _
  by_cases h : a = b
  · simp [IntOp.cmpi, h]
  · have hb : (a == b) = false := by simp [h]
    simp [IntOp.cmpi, hb, h]

/-- The first call's reset payload is zero everywhere. -/
theorem pay1_0 (y : S512x2048.Idx) : k0_pay1 (F := Ideal) y = 0 := by
  unfold k0_pay1
  simp only [shapeCast_self]
  exact Ideal.ofBits_zero_f32

/-- The first call's write-back payload is the accumulator itself (a change of float format is the identity on extended reals). -/
theorem pay3_0 (v25 : Vec Ideal S512x2048 .f32) (y : S512x2048.Idx) : k0_pay3 (F := Ideal) v25 y = v25 y := rfl

section Layout
variable {α : Type}

/-- A vector `[a]` viewed as a column `[a, 1]` reads, at `(i, u)`, the entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The first call's contraction: rows of the left operand against rows of the right. -/
abbrev D0 : DotDims S512x1024 S1024x2048 S512x2048 := dot_S512x1024_S1024x2048_S512x2048_1_0_0_1_n_n

theorem D0_lhs_0 (j : S512x2048.Idx) (k : D0.contr.Idx) : (D0.lhsIdx j k 0).val = (j 0).val := by
  unfold DotDims.lhsIdx
  rw [dif_neg (show ¬(0 : Fin S512x1024.rank) ∈ D0.lhsBatch by decide), dif_pos (show (0 : Fin S512x1024.rank) ∈ D0.lhsNonContracting by decide)]
  rfl
theorem D0_lhs_1 (j : S512x2048.Idx) (k : D0.contr.Idx) : (D0.lhsIdx j k 1).val = (k ⟨0, by decide⟩).val :=
  D0.lhsIdx_val_of_single rfl j k
theorem D0_rhs_0 (j : S512x2048.Idx) (k : D0.contr.Idx) : (D0.rhsIdx j k 0).val = (k ⟨0, by decide⟩).val :=
  D0.rhsIdx_val_of_single rfl j k
theorem D0_rhs_1 (j : S512x2048.Idx) (k : D0.contr.Idx) : (D0.rhsIdx j k 1).val = (j 1).val := by
  unfold DotDims.rhsIdx
  rw [dif_neg (show ¬(1 : Fin S1024x2048.rank) ∈ D0.rhsBatch by decide), dif_pos (show (1 : Fin S1024x2048.rank) ∈ D0.rhsNonContracting by decide)]
  rfl

/-- A product into the zero accumulator, read at `(r, q)`: the sum over the contracted coordinate. -/
theorem matmul0_apply (x : FVec Ideal S512x1024 .bf16) (w : FVec Ideal S1024x2048 .bf16) (r : Fin 512) (q : Fin 2048) :
    matmul D0 none x w (constant S512x2048 .f32 0x00000000#32) (ix2 r q) = ∑ kk : Fin 1024, x (ix2 r kk) * w (ix2 kk q) := by
  simp only [matmul]
  rw [Ideal.matmul_constant_zero_apply, ← Equiv.sum_comp (contrEquiv1 D0 1024 rfl rfl).symm]
  refine Finset.sum_congr rfl fun kk _ => ?_
  have hk := contrEquiv1_symm_val D0 1024 rfl rfl kk
  have el : D0.lhsIdx (ix2 r q) ((contrEquiv1 D0 1024 rfl rfl).symm kk) = ix2 r kk := funext fun a => Fin.ext (by
    match a with
    | ⟨0, _⟩ => exact D0_lhs_0 _ _
    | ⟨1, _⟩ => exact (D0_lhs_1 _ _).trans hk)
  have er : D0.rhsIdx (ix2 r q) ((contrEquiv1 D0 1024 rfl rfl).symm kk) = ix2 kk q := funext fun a => Fin.ext (by
    match a with
    | ⟨0, _⟩ => exact (D0_rhs_0 _ _).trans hk
    | ⟨1, _⟩ => exact D0_rhs_1 _ _)
  rw [el, er]

/-- The word the kernel compares a row's index with: column `kk` of reduction step `k` is `kk + 1024·k`,
    as 32-bit words (the sum and product of words are those of the naturals, read modulo `2^32`). -/
theorem word0 (kk k : ℕ) : IntOp.addi (BitVec.ofNat 32 kk) (Scalar.muli (BitVec.ofNat 32 k) 1024#32) = BitVec.ofNat 32 (kk + 1024 * k) := by
  show BitVec.ofNat 32 kk + BitVec.ofNat 32 k * 1024#32 = _
  rw [BitVec.ofNat_add, BitVec.ofNat_mul, BitVec.mul_comm]

/-- The first call's accumulation step at `(r, q)`: the accumulator plus the one-hot row of `r` at reduction step `i 2`
    against column `q` of the table's block. -/
theorem pay2_0 (i : grid0.Coords) (v3 : Vec Ideal S512 .i32) (v14 : Vec Ideal S512x2048 .f32) (v15 : Vec Ideal S1024x2048 .bf16)
    (r : Fin 512) (q : Fin 2048) :
    k0_pay2 (F := Ideal) i v3 v14 v15 (ix2 r q)
      = v14 (ix2 r q) + ∑ kk : Fin 1024, oh (v3 (ix1 r)) (BitVec.ofNat 32 (kk.val + 1024 * (i 2).val)) * v15 (ix2 kk q) := by
  unfold k0_pay2
  simp only [shapeCast_self]
  refine (addf_apply _ _ _).trans (congrArg (v14 (ix2 r q) + ·) ?_)
  refine (matmul0_apply _ _ r q).trans (Finset.sum_congr rfl fun kk _ => congrArg (· * v15 (ix2 kk q)) ?_)
  have hA : broadcastTo S512x1024 (shapeCast S512x1 v3 shapeCasts_S512_S512x1) broadcasts_S512x1_S512x1024 (ix2 r kk) = v3 (ix1 r) :=
    (broadcastTo_a1_ab_apply _ _ r kk).trans (shapeCast_a_a1_apply v3 _ r 0)
  have hB : addi (iota Kind.tc S512x1024 32 [1] iota_S512x1024_d1_w32) (broadcast S512x1024 (Scalar.muli (BitVec.ofNat 32 (i 2).val) 1024#32)) (ix2 r kk)
      = BitVec.ofNat 32 (kk.val + 1024 * (i 2).val) :=
    (congrArg (IntOp.addi · _) (iota_single_apply .tc S512x1024 32 1 _ (ix2 r kk))).trans (word0 kk.val (i 2).val)
  exact congrArg₂ oh hA hB

end Cert.KernelIdeal.Pay
end
-- ==== Proof.RefSide.lean ====
/-
  The reference read in closed form at the exact (extended-real) instance.

  With E1 = the rows of the first embedding table selected by the first index vector, E2 = the rows of the
  second table selected by the second index vector, and Pg = the transport plan with its rows selected by the
  first index vector and its columns by the second, the reference's scalar result is

      0 + Σ_{(i, j)} ((|E1_i|² + |E2_j|²) − 2 · ⟨E1_i, E2_j⟩) · Pg(i, j),

  where |E_i|² = Σ_d E(i, d) · E(i, d) and ⟨E1_i, E2_j⟩ = Σ_d E1(i, d) · E2(j, d), d ranging over the 256
  embedding coordinates. The three gathered arrays stay opaque here: nothing below depends on which rows were
  selected. The only facts used are that a broadcast reads its operand at the broadcast index, that the float
  sums and the contraction are the exact finite sums, and that the zero word denotes 0.
-/
import proofs.«100679_j35734127902881_1_alg».proof.Proof.Gen.ReferenceIdeal.Read

noncomputable section

namespace Cert.ReferenceIdeal.RefSide

open Cert.ReferenceIdeal Cert.ReferenceIdeal.Gen Idealize.ShloMosaic Idealize.ShloMosaic.ValueIdx Idealize.SL.Sem
open scoped BigOperators

/-- The squared Euclidean norm of row i of an 8192 × 256 array: Σ_d E(i, d) · E(i, d). -/
def sq (E : S8192x256.Idx → EReal) (i : Fin 8192) : EReal :=
  ∑ d : Fin 256, E (ix2 i d) * E (ix2 i d)

/-- The inner product of row i of E1 with row j of E2: Σ_d E1(i, d) · E2(j, d). -/
def cross (E1 E2 : S8192x256.Idx → EReal) (i j : Fin 8192) : EReal :=
  ∑ d : Fin 256, E1 (ix2 i d) * E2 (ix2 j d)

/-- The float literal 2.0 as the reference carries it. -/
abbrev two : EReal := Ideal.ofBits .f32 0x40000000#32

/-- One term of the cost: the squared distance |E1_i − E2_j|², expanded as |E1_i|² + |E2_j|² − 2⟨E1_i, E2_j⟩,
    weighted by the plan's entry (i, j). -/
def term (E1 E2 : S8192x256.Idx → EReal) (Pg : S8192x8192.Idx → EReal) (i j : Fin 8192) : EReal :=
  ((sq E1 i + sq E2 j) - two * cross E1 E2 i j) * Pg (ix2 i j)

/-! ## The broadcasts' composed index maps, by coordinates -/

/-- Row norms of E1 are broadcast along the columns: entry (p, q) reads row p, coordinate k. -/
theorem idx_sq1 (p q : Fin 8192) (k : Fin 256) :
    Read.idx_main_v15 (Read.idx_main_v19 (Read.idx_main_v21 (ix2 p q))) k = ix2 p k := by
  funext a; match a with | ⟨0, _⟩ => rfl | ⟨1, _⟩ => rfl

/-- Row norms of E2 are broadcast along the rows: entry (p, q) reads row q, coordinate k. -/
theorem idx_sq2 (p q : Fin 8192) (k : Fin 256) :
    Read.idx_main_v17 (Read.idx_main_v20 (Read.idx_main_v22 (ix2 p q))) k = ix2 q k := by
  funext a; match a with | ⟨0, _⟩ => rfl | ⟨1, _⟩ => rfl

/-- The contraction's left operand at entry (p, q), coordinate k: row p. -/
theorem idx_crossL (p q : Fin 8192) (k : Fin 256) : Read.lidx_main_v18 (ix2 p q) k = ix2 p k := by
  funext a; match a with | ⟨0, _⟩ => rfl | ⟨1, _⟩ => rfl

/-- The contraction's right operand at entry (p, q), coordinate k: row q. -/
theorem idx_crossR (p q : Fin 8192) (k : Fin 256) : Read.ridx_main_v18 (ix2 p q) k = ix2 q k := by
  funext a; match a with | ⟨0, _⟩ => rfl | ⟨1, _⟩ => rfl

/-! ## One entry of the weighted distance matrix -/

/-- Entry (p, q) of the elementwise product the final sum runs over. -/
theorem weighted_apply (x0 x1 : (⟨S10000x256, .f32⟩ : BufTy).Contents (Elt Ideal))
    (x2 : (⟨S10000x10000, .f32⟩ : BufTy).Contents (Elt Ideal))
    (x3 x4 : (⟨S8192, .i32⟩ : BufTy).Contents (Elt Ideal)) (p q : Fin 8192) :
    Read.val_main_v41 (F := Ideal) x0 x1 x2 x3 x4 (ix2 p q)
      = term (Read.val_main_v6 (F := Ideal) x0 x3) (Read.val_main_v13 (F := Ideal) x1 x4)
          (Read.val_main_v40 (F := Ideal) x2 x3 x4) p q := by
  rw [Read.val_main_v41_apply, Read.val_main_v26_apply, Read.val_main_v23_apply, Read.val_main_v25_apply,
    Read.val_main_v21_apply, Read.val_main_v19_apply, Read.val_main_v15_apply,
    Read.val_main_v22_apply, Read.val_main_v20_apply, Read.val_main_v17_apply,
    Read.val_main_v24_apply, Read.val_main_cst_4_apply, Read.val_main_v18_apply]
  simp only [Read.val_main_v14_apply, Read.val_main_v16_apply, Read.val_main_cst_apply, Read.val_main_cst_3_apply,
    idx_sq1, idx_sq2, idx_crossL, idx_crossR,
    Ideal.mulf_def, Ideal.addf_def, Ideal.subf_def, Ideal.ofBits_def, Ideal.ofBits_zero_f32, zero_add]
  rfl

/-! ## The reference's result -/

/-- The reference's scalar result: the reduce's zero initial value plus the sum, over every index of the
    8192 × 8192 weighted distance matrix, of its entry. -/
theorem ref_closed_idx (x0 x1 : (⟨S10000x256, .f32⟩ : BufTy).Contents (Elt Ideal))
    (x2 : (⟨S10000x10000, .f32⟩ : BufTy).Contents (Elt Ideal))
    (x3 x4 : (⟨S8192, .i32⟩ : BufTy).Contents (Elt Ideal)) :
    Read.val_main_v42 (F := Ideal) x0 x1 x2 x3 x4 ix0
      = Ideal.ofBits .f32 0x00000000#32 + ∑ j : S8192x8192.Idx,
          term (Read.val_main_v6 (F := Ideal) x0 x3) (Read.val_main_v13 (F := Ideal) x1 x4)
            (Read.val_main_v40 (F := Ideal) x2 x3 x4) (j 0) (j 1) := by
  rw [Read.val_main_v42_apply]
  refine congrArg₂ (· + ·) rfl (Finset.sum_congr rfl fun j _ => ?_)
  obtain ⟨p, q, rfl⟩ : ∃ (p q : Fin 8192), j = ix2 p q := ⟨j 0, j 1, eq_ix2 j⟩
  exact weighted_apply x0 x1 x2 x3 x4 p q

/-- The same as a double sum over the row and the column, the zero initial value dropped. -/
theorem ref_closed (x0 x1 : (⟨S10000x256, .f32⟩ : BufTy).Contents (Elt Ideal))
    (x2 : (⟨S10000x10000, .f32⟩ : BufTy).Contents (Elt Ideal))
    (x3 x4 : (⟨S8192, .i32⟩ : BufTy).Contents (Elt Ideal)) :
    Read.val_main_v42 (F := Ideal) x0 x1 x2 x3 x4 ix0
      = ∑ i : Fin 8192, ∑ j : Fin 8192,
          term (Read.val_main_v6 (F := Ideal) x0 x3) (Read.val_main_v13 (F := Ideal) x1 x4)
            (Read.val_main_v40 (F := Ideal) x2 x3 x4) i j := by
  rw [ref_closed_idx, Ideal.ofBits_zero_f32, zero_add,
    sum_idx2 (fun j : S8192x8192.Idx => term (Read.val_main_v6 (F := Ideal) x0 x3)
      (Read.val_main_v13 (F := Ideal) x1 x4) (Read.val_main_v40 (F := Ideal) x2 x3 x4) (j 0) (j 1))]

/-- The literal's value: the word 0x40000000 is the float 2.0 (exponent field 128, zero fraction: 2^23 · 2^(128 − 127 − 23)). -/
theorem two_lit : two = (2 : EReal) := by
  show Ideal.ofBits .f32 0x40000000#32 = (2 : EReal)
  simp [Ideal.ofBits, Ideal.ieee]
  rw [← EReal.coe_mul]
  have : ((8388608 : ℝ) * (2 ^ 22)⁻¹) = 2 := by norm_num
  rw [this]; rfl

end Cert.ReferenceIdeal.RefSide

end
-- ==== Proof.Spec.lean ====
/-
  What the three kernels compute, as whole-array functions of their input arrays, over the extended reals.

  The first kernel selects rows of the (padded) plan by multiplying with a one-hot matrix: entry (i, l) is
  Σ_k [idx1 i = k] · P(k, l). The second selects columns of that result the same way: entry (i, j) is
  Σ_l B(i, l) · [idx2 j = l]. The third forms, for each row i, the sum over j of the squared distance
  |E1_i|² + |E2_j|² − 2⟨E1_i, E2_j⟩ weighted by the selected plan's entry (i, j). The scalar result is the zero
  initial value plus the sum of the 8192 row sums.
-/
import proofs.«100679_j35734127902881_1_alg».proof.Proof.PayloadsIdeal0
import proofs.«100679_j35734127902881_1_alg».proof.Proof.RefSide

noncomputable section

open scoped BigOperators

namespace Cert.Spec

open Idealize.ShloMosaic Idealize.ShloMosaic.ValueIdx Cert.KernelIdeal Cert.KernelIdeal.Pay

/-- The first coordinate of a rank-2 index, typed by the literal first extent. -/
abbrev c0 {n0 n1 : Nat} (y : (⟨2, ![n0, n1]⟩ : Shape).Idx) : Fin n0 := ⟨(y 0).val, idx2_lt0 y⟩
/-- The second coordinate of a rank-2 index, typed by the literal second extent. -/
abbrev c1 {n0 n1 : Nat} (y : (⟨2, ![n0, n1]⟩ : Shape).Idx) : Fin n1 := ⟨(y 1).val, idx2_lt1 y⟩
theorem c0_ix2 {n0 n1 : Nat} (a : Fin n0) (b : Fin n1) : c0 (ix2 a b) = a := rfl
theorem c1_ix2 {n0 n1 : Nat} (a : Fin n0) (b : Fin n1) : c1 (ix2 a b) = b := rfl

/-- Rows of the padded plan selected by a one-hot product: entry (i, l) = Σ_k [A0 i = k] · A1(k, l). -/
def G0 (A0 : S8192.Idx → BitVec 32) (A1 : S10240x10240.Idx → EReal) : S8192x10240.Idx → EReal :=
  fun y => ∑ k : Fin 10240, oh (A0 (ix1 (c0 y))) (BitVec.ofNat 32 k.val) * A1 (ix2 k (c1 y))

/-- Columns selected by a one-hot product: entry (i, j) = Σ_l B1(i, l) · [B0 j = l]. -/
def G1 (B0 : S8192.Idx → BitVec 32) (B1 : S8192x10240.Idx → EReal) : S8192x8192.Idx → EReal :=
  fun y => ∑ l : Fin 10240, B1 (ix2 (c0 y) l) * oh (B0 (ix1 (c1 y))) (BitVec.ofNat 32 l.val)

/-- The weighted squared distances summed along each row: entry (i, 0) = Σ_j term(i, j). -/
def G2 (E1 E2 : S8192x256.Idx → EReal) (Gm : S8192x8192.Idx → EReal) : S8192x1.Idx → EReal :=
  fun y => ∑ j : Fin 8192, Cert.ReferenceIdeal.RefSide.term E1 E2 Gm (c0 y) j

/-- The scalar result: the zero initial value plus the sum of the row sums. -/
def Kres (E1 E2 : S8192x256.Idx → EReal) (Pp : S10240x10240.Idx → EReal) (x3 x4 : S8192.Idx → BitVec 32) : EReal :=
  Ideal.ofBits .f32 0x00000000#32 + ∑ i : Fin 8192, G2 E1 E2 (G1 x4 (G0 x3 Pp)) (ix2 i (0 : Fin 1))

theorem G0_apply (A0 : S8192.Idx → BitVec 32) (A1 : S10240x10240.Idx → EReal) (i : Fin 8192) (l : Fin 10240) :
    G0 A0 A1 (ix2 i l) = ∑ k : Fin 10240, oh (A0 (ix1 i)) (BitVec.ofNat 32 k.val) * A1 (ix2 k l) := rfl

theorem G1_apply (B0 : S8192.Idx → BitVec 32) (B1 : S8192x10240.Idx → EReal) (i j : Fin 8192) :
    G1 B0 B1 (ix2 i j) = ∑ l : Fin 10240, B1 (ix2 i l) * oh (B0 (ix1 j)) (BitVec.ofNat 32 l.val) := rfl

theorem G2_apply (E1 E2 : S8192x256.Idx → EReal) (Gm : S8192x8192.Idx → EReal) (i : Fin 8192) (z : Fin 1) :
    G2 E1 E2 Gm (ix2 i z) = ∑ j : Fin 8192, Cert.ReferenceIdeal.RefSide.term E1 E2 Gm i j := rfl

end Cert.Spec

end
-- ==== Proof.KernelIdeal.Value.lean ====
/-
  The idealized kernel program's result as one term of its arguments. The last host stretch sums the per-row partial
  costs region 2 wrote; region 2's array is the weighted-distance row sums of the two gathered embedding arrays and of
  region 1's array; region 1's array is the column selection of region 0's array by the second index vector;
  region 0's array is the row selection of the zero-padded plan by the first index vector. The buffers a region does
  not write are read back through it unchanged, down to the host stretches that computed them from the arguments.
-/
import proofs.«100679_j35734127902881_1_alg».proof.Proof.KernelIdeal.Args
import proofs.«100679_j35734127902881_1_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-! ## What the host stretches before the regions compute -/

/-- An index vector wrapped as numpy indexing wraps a negative index, as a column of start indices. -/
def wrapIdx (a : IVec S8192 32) : IVec S8192x1 32 :=
  broadcastInDim S8192x1 ![0] bcast_S8192_S8192x1_0
    (select (cmpi CmpIPredicate.slt a (broadcastInDim S8192 ![] bcast_S_S8192 (constantI S_ 32 0#32)))
      (addi a (broadcastInDim S8192 ![] bcast_S_S8192 (constantI S_ 32 10000#32))) a)
/-- A gathered embedding array: the rows of `x` at the wrapped indices. -/
def embRows (x : FVec Ideal S10000x256 .f32) (a : IVec S8192 32) : FVec Ideal S8192x256 .f32 :=
  Host.gather gather_S10000x256_S8192x1_S8192x256_1_0_n_n_0_1_1256 x (wrapIdx a)
/-- The plan rounded to the kernels' input format and zero-padded to 10240 × 10240. -/
def planPadded (x : FVec Ideal S10000x10000 .f32) : FVec Ideal S10240x10240 .bf16 :=
  pad S10240x10240 ![0, 0] ![240, 240] ![0, 0] (truncf FTy.bf16 x bitsLt_bf16_f32) (sitofp FTy.bf16 (constantI S_ 32 0#32))
    pads_S10000x10000_S10240x10240_02400_02400 h_S_

theorem W2_v6 (c : Dev nD) : W2 m c (Proc.devRef .tc main_v6) = embRows (m ((c : Thread nD τ).loc main_arg0)) (m ((c : Thread nD τ).loc main_arg3)) := by
  dsimp only [W2, W1, hostOps0_1, hostOps0]
  after_results
  rfl
theorem W2_v13 (c : Dev nD) : W2 m c (Proc.devRef .tc main_v13) = embRows (m ((c : Thread nD τ).loc main_arg1)) (m ((c : Thread nD τ).loc main_arg4)) := by
  dsimp only [W2, W1, hostOps0_1, hostOps0]
  after_results
  rfl
theorem W2_v15 (c : Dev nD) : W2 m c (Proc.devRef .tc main_v15) = planPadded (m ((c : Thread nD τ).loc main_arg2)) := by
  dsimp only [W2, W1, hostOps0_1, hostOps0]
  after_results
  rfl

/-! ## The regions' arrays, one after the other -/

section
variable (harr0 : ∀ (V : (c : Dev nD) → (b : Ref sig .tc) → Buf (Elt Ideal) ((c : Thread nD τ).loc b)) (c : Dev nD),
    (dat0 (F := Ideal) V c).arrAt 2 cfg0.N = Cert.Spec.G0 (V c (Pipeline.arrRef spec0 0)) (V c (Pipeline.arrRef spec0 1)))
  (harr1 : ∀ (V : (c : Dev nD) → (b : Ref sig .tc) → Buf (Elt Ideal) ((c : Thread nD τ).loc b)) (c : Dev nD),
    (dat1 (F := Ideal) V c).arrAt 2 cfg1.N = Cert.Spec.G1 (V c (Pipeline.arrRef spec1 0)) (V c (Pipeline.arrRef spec1 1)))
  (harr2 : ∀ (V : (c : Dev nD) → (b : Ref sig .tc) → Buf (Elt Ideal) ((c : Thread nD τ).loc b)) (c : Dev nD),
    (dat2 (F := Ideal) V c).arrAt 3 cfg2.N = Cert.Spec.G2 (V c (Pipeline.arrRef spec2 0)) (V c (Pipeline.arrRef spec2 1)) (V c (Pipeline.arrRef spec2 2)))

include harr0 in
/-- Region 0 leaves the rows of the padded plan the first index vector selects. -/
theorem V3_v16 (c : Dev nD) : V3 m c (Pipeline.arrRef spec1 1)
    = Cert.Spec.G0 (m ((c : Thread nD τ).loc main_arg3)) (planPadded (m ((c : Thread nD τ).loc main_arg2))) := by
  refine (W3_arr m c 2).trans ((harr0 (V2 m) c).trans ?_)
  rw [show V2 m c (Pipeline.arrRef spec0 0) = m ((c : Thread nD τ).loc main_arg3) from W2_arg3 m c,
    show V2 m c (Pipeline.arrRef spec0 1) = planPadded (m ((c : Thread nD τ).loc main_arg2)) from W2_v15 m c]

theorem V3_arg4 (c : Dev nD) : V3 m c (Pipeline.arrRef spec1 0) = m ((c : Thread nD τ).loc main_arg4) :=
  (W3_of_ne m c _ (by decide)).trans (W2_arg4 m c)

include harr0 harr1 in
/-- Region 1 leaves, of those rows, the columns the second index vector selects. -/
theorem V4_v17 (c : Dev nD) : V4 m c (Pipeline.arrRef spec2 2)
    = Cert.Spec.G1 (m ((c : Thread nD τ).loc main_arg4)) (Cert.Spec.G0 (m ((c : Thread nD τ).loc main_arg3)) (planPadded (m ((c : Thread nD τ).loc main_arg2)))) := by
  refine (W4_arr m c 2).trans ((harr1 (V3 m) c).trans ?_)
  rw [V3_arg4 m c, V3_v16 m harr0 c]

theorem V4_v6 (c : Dev nD) : V4 m c (Pipeline.arrRef spec2 0) = embRows (m ((c : Thread nD τ).loc main_arg0)) (m ((c : Thread nD τ).loc main_arg3)) :=
  (W4_of_ne m c _ (by decide)).trans ((W3_of_ne m c _ (by decide)).trans (W2_v6 m c))
theorem V4_v13 (c : Dev nD) : V4 m c (Pipeline.arrRef spec2 1) = embRows (m ((c : Thread nD τ).loc main_arg1)) (m ((c : Thread nD τ).loc main_arg4)) :=
  (W4_of_ne m c _ (by decide)).trans ((W3_of_ne m c _ (by decide)).trans (W2_v13 m c))

/-- The per-row partial costs, as a function of the five arguments. -/
def partials (a0 a1 : FVec Ideal S10000x256 .f32) (a2 : FVec Ideal S10000x10000 .f32) (a3 a4 : IVec S8192 32) : FVec Ideal S8192x1 .f32 :=
  Cert.Spec.G2 (embRows a0 a3) (embRows a1 a4) (Cert.Spec.G1 a4 (Cert.Spec.G0 a3 (planPadded a2)))

include harr0 harr1 harr2 in
/-- Region 2 leaves the per-row partial costs. -/
theorem W5_v18 (c : Dev nD) : W5 m c (Proc.devRef .tc (Pipeline.arrRef spec2 3))
    = partials (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m c 3).trans ((harr2 (V4 m) c).trans ?_)
  rw [V4_v6 m c, V4_v13 m c, V4_v17 m harr0 harr1 c]
  rfl

/-- The program's result: the partial costs summed from zero. -/
def result (a0 a1 : FVec Ideal S10000x256 .f32) (a2 : FVec Ideal S10000x10000 .f32) (a3 a4 : IVec S8192 32) : FVec Ideal S_ .f32 :=
  Host.reduceAdd (F := Ideal) (partials a0 a1 a2 a3 a4) (constant S_ FTy.f32 0#32) reducesTo_S8192x1_S_d0_1 h_S_

include harr0 harr1 harr2 in
theorem W6_v19 (c : Dev nD) : W6 m c (Proc.devRef .tc main_v19)
    = result (m ((c : Thread nD τ).loc main_arg0)) (m ((c : Thread nD τ).loc main_arg1)) (m ((c : Thread nD τ).loc main_arg2)) (m ((c : Thread nD τ).loc main_arg3)) (m ((c : Thread nD τ).loc main_arg4)) := by
  have e : W6 m c (Proc.devRef .tc main_v19)
      = Host.reduceAdd (F := Ideal) (W5 m c (Proc.devRef .tc main_v18)) (constant S_ FTy.f32 0#32) reducesTo_S8192x1_S_d0_1 h_S_ := by
    dsimp only [W6, hostOps3]; after_results
  rw [e, show W5 m c (Proc.devRef .tc main_v18) = W5 m c (Proc.devRef .tc (Pipeline.arrRef spec2 3)) from rfl, W5_v18 m harr0 harr1 harr2 c]
  rfl

include harr0 harr1 harr2 in
/-- THE KERNEL PROGRAM'S RUN WITH ITS RESULT NAMED: it terminates, nothing faulting, with the result buffer at
    `result` of the launch contents of the five arguments, and the arguments unchanged. -/
theorem run_result (ρ : Dev nD → PrngReg) : θ_run defs (onTc (τ := τ) (main (F := Ideal))) ⟨m, fun _ => 0, ρ⟩ (fun r => ∀ c : Dev nD,
      r.2.mem ((c.tc : Thread nD τ).loc main_v19) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v19 (by decide))).trans (W6_v19 m harr0 harr1 harr2 c),
      (h c _ (mem_uc main_arg0 (by decide))).trans (W6_arg0 m c),
      (h c _ (mem_uc main_arg1 (by decide))).trans (W6_arg1 m c),
      (h c _ (mem_uc main_arg2 (by decide))).trans (W6_arg2 m c),
      (h c _ (mem_uc main_arg3 (by decide))).trans (W6_arg3 m c),
      (h c _ (mem_uc main_arg4 (by decide))).trans (W6_arg4 m c)⟩) (run_all m ρ)
end

end Cert.KernelIdeal.Hand

end
-- ==== Proof.KernelIdeal.Pieces2.lean ====
/-
  Call 2: what each case's found pieces are, as the body's named payloads of the blocks it loaded. The first
  step's accumulator is the step's payload over the zeroed accumulator; a later step's is the payload over the
  accumulator the step before left; the last step's output block is that accumulator itself.
-/
import proofs.«100679_j35734127902881_1_alg».proof.Proof.KernelIdeal.R2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem sout2_A_0_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond2_0 i) (hc1 : ¬cond2_1 i) (x0 : Vec F S512x256 .f32) (x1 : Vec F S512x256 .f32) (x2 : Vec F S512x512 .bf16) :
    sout2_A_0 c i arg2 harg2 arg3 harg3 arg4 harg4 arg5 harg5 arg6 harg6 hc0 hc1 x0 x1 x2 = k2_pay2 x0 x1 x2 (k2_pay1 (F := F)) := by
  have hz2 : (![0, 0] : Fin 2 → ℕ) = fun _ => 0 := by funext a; fin_cases a <;> rfl
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  refine (View.canon_cons_unit_zero (S := S512x1) hz2 _ _ _).trans ?_
  rw [View.readCov_unit_zero (S := S512x1) _ hz2]
  simp only [View.readAt_eq_ld, harg2.read_unread, harg3.read_unread, harg4.read_unread, harg6.read_unread]
  simp only [View.ld_unit_zero (S := S512x256) hz2, View.ld_unit_zero (S := S512x512) hz2, View.ld_unit_zero (S := S512x1) hz2]

theorem sout2_B_0_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : ¬cond2_1 i) (x0 : Vec F S512x256 .f32) (x1 : Vec F S512x256 .f32) (x2 : Vec F S512x512 .bf16) (xs0 : Vec F S512x1 .f32) :
    sout2_B_0 c i arg2 harg2 arg3 harg3 arg4 harg4 arg5 harg5 arg6 harg6 hc0 hc1 x0 x1 x2 xs0 = k2_pay2 x0 x1 x2 xs0 := by
  have hz2 : (![0, 0] : Fin 2 → ℕ) = fun _ => 0 := by funext a; fin_cases a <;> rfl
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  sl_unfold_words
  refine (View.canon_cons_unit_zero (S := S512x1) hz2 _ _ _).trans ?_
  simp only [View.readAt_eq_ld, harg2.read_unread, harg3.read_unread, harg4.read_unread, harg6.read_unread]
  simp only [View.ld_unit_zero (S := S512x256) hz2, View.ld_unit_zero (S := S512x512) hz2, View.ld_unit_zero (S := S512x1) hz2]

theorem sout2_C_0_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) :
    sout2_C_0 c i arg2 harg2 arg3 harg3 arg4 harg4 arg5 harg5 arg6 harg6 hc0 hc1 x0 x1 x2 xs0 = k2_pay2 x0 x1 x2 xs0 := by
  have hz2 : (![0, 0] : Fin 2 → ℕ) = fun _ => 0 := by funext a; fin_cases a <;> rfl
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  refine (View.canon_cons_unit_zero (S := S512x1) hz2 _ _ _).trans ?_
  simp only [View.readAt_eq_ld, harg2.read_unread, harg3.read_unread, harg4.read_unread, harg6.read_unread]
  simp only [View.ld_unit_zero (S := S512x256) hz2, View.ld_unit_zero (S := S512x512) hz2, View.ld_unit_zero (S := S512x1) hz2]

theorem out2_C_3_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond2_0 i) (hc1 : cond2_1 i) (x0 : Vec F S512x256 .f32) (x1 : Vec F S512x256 .f32) (x2 : Vec F S512x512 .bf16) (xs0 : Vec F S512x1 .f32) :
    out2_C_3 c i arg2 harg2 arg3 harg3 arg4 harg4 arg5 harg5 arg6 harg6 hc0 hc1 x0 x1 x2 xs0 = k2_pay2 x0 x1 x2 xs0 := by
  have hz2 : (![0, 0] : Fin 2 → ℕ) = fun _ => 0 := by funext a; fin_cases a <;> rfl
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  refine (View.canon_cons_unit_zero (S := S512x1) hz2 _ _ _).trans ?_
  rw [View.readCov_unit_zero (S := S512x1) _ hz2]
  simp only [View.readAt_eq_ld, harg2.read_unread, harg3.read_unread, harg4.read_unread, harg6.read_unread]
  simp only [View.ld_unit_zero (S := S512x256) hz2, View.ld_unit_zero (S := S512x512) hz2, View.ld_unit_zero (S := S512x1) hz2]

end Cert.KernelIdeal.Hand

end
-- ==== Proof.KernelIdeal.Blocks.lean ====
/-
  Each window's block, read at an index, as an index of its array; and the grid coordinates in closed form.
  A pipelined call visits its grid row-major, last axis fastest; window `w`'s block at point `t` is the rectangle of
  its array at block index × block size on each axis. Here the printed index maps are decided once over each grid, and
  every block element is placed in its array by coordinates: an input block read through its window is the array at
  the shifted index (`blkK_W`), an output block's element sits at the shifted index (`embK_W`), the reduction
  coordinate is the point modulo the last axis's bound (`coordK_A`), and every index of an output array lies in the
  block of a point that writes back (`coverK_W`, at the explicit point `ptK`).
-/
import proofs.«100679_j35734127902881_1_alg».proof.Proof.Gen.KernelIdeal.Points
import Idealize.ShloMosaic.Lib.Pipeline.Value
import Idealize.ShloMosaic.Lib.ValueIdx

noncomputable section

namespace Cert.KernelIdeal.Blocks

open Idealize.ShloMosaic Idealize.ShloMosaic.ValueIdx Idealize.ShloMosaic.TcCoe Cert.KernelIdeal Cert.KernelIdeal.Gen

variable {F : FTy → Type} [FloatOps F]

/-! ## Call 0: grid 16 × 5 × 10, point `t` ↦ (t / 50, t / 10 % 5, t % 10) -/

theorem N0 : cfg0.N = 800 := by decide
theorem lt0 (t : Fin cfg0.N) : t.val < 800 := lt_of_lt_of_eq t.isLt N0

/-- The printed index maps of call 0 and its reduction coordinate, in closed form, decided over the grid. -/
theorem idx0 : ∀ t : Fin cfg0.N, win0_0.index t (0 : Fin 1) = t.val / 50
    ∧ win0_1.index t (0 : Fin 2) = t.val % 10 ∧ win0_1.index t (1 : Fin 2) = t.val / 10 % 5
    ∧ win0_2.index t (0 : Fin 2) = t.val / 50 ∧ win0_2.index t (1 : Fin 2) = t.val / 10 % 5
    ∧ ((grid0.coords t) 2).val = t.val % 10 :=
  (by decide +kernel : ∀ t : Fin grid0.N, _)

theorem coord0_2 (t : Fin cfg0.N) : ((grid0.coords t) 2).val = t.val % 10 := (idx0 t).2.2.2.2.2

/-- The index tile of call 0 at point `t`: rows `512·(t/50) + r` of the index vector. -/
theorem blk0_0 (A : S8192.Idx → BitVec 32) (t : Fin cfg0.N) (r : Fin 512) :
    ((cfg0.win 0).blk t).view.read (Elt F) A (ix1 r)
      = A (ix1 ⟨512 * (t.val / 50) + r.val, by have := lt0 t; have := r.isLt; omega⟩) := by
  rw [View.read_apply]
  show A (((cfg0.win 0).blk t).view.emb (ix1 r)) = _
  refine congrArg A (funext fun a => Fin.ext ?_)
  match a with
  | ⟨0, _⟩ =>
    show win0_0.index t (0 : Fin 1) * 512 + 1 * r.val = 512 * (t.val / 50) + r.val
    rw [(idx0 t).1]; omega

/-- The table tile of call 0 at point `t`: rows `1024·(t%10) + kk`, columns `2048·(t/10%5) + q` of the padded table. -/
theorem blk0_1 (A : Vec F S10240x10240 .bf16) (t : Fin cfg0.N) (kk : Fin 1024) (q : Fin 2048) :
    ((cfg0.win 1).blk t).view.read (Elt F) A (ix2 kk q)
      = A (ix2 ⟨1024 * (t.val % 10) + kk.val, by have := kk.isLt; omega⟩ ⟨2048 * (t.val / 10 % 5) + q.val, by have := q.isLt; omega⟩) := by
  rw [View.read_apply]
  show A (((cfg0.win 1).blk t).view.emb (ix2 kk q)) = _
  refine congrArg A (funext fun a => Fin.ext ?_)
  obtain ⟨-, e0, e1, -⟩ := idx0 t
  match a with
  | ⟨0, _⟩ =>
    show win0_1.index t (0 : Fin 2) * 1024 + 1 * kk.val = 1024 * (t.val % 10) + kk.val
    rw [e0]; omega
  | ⟨1, _⟩ =>
    show win0_1.index t (1 : Fin 2) * 2048 + 1 * q.val = 2048 * (t.val / 10 % 5) + q.val
    rw [e1]; omega

/-- The output tile of call 0 at point `t` sits at rows `512·(t/50) + r`, columns `2048·(t/10%5) + q` of its array. -/
theorem emb0_2 (t : Fin cfg0.N) (r : Fin 512) (q : Fin 2048) :
    ((cfg0.win 2).blk t).view.emb (ix2 r q)
      = ix2 ⟨512 * (t.val / 50) + r.val, by have := lt0 t; have := r.isLt; omega⟩ ⟨2048 * (t.val / 10 % 5) + q.val, by have := q.isLt; omega⟩ := by
  funext a
  apply Fin.ext
  obtain ⟨-, -, -, e0, e1, -⟩ := idx0 t
  match a with
  | ⟨0, _⟩ =>
    show win0_2.index t (0 : Fin 2) * 512 + 1 * r.val = 512 * (t.val / 50) + r.val
    rw [e0]; omega
  | ⟨1, _⟩ =>
    show win0_2.index t (1 : Fin 2) * 2048 + 1 * q.val = 2048 * (t.val / 10 % 5) + q.val
    rw [e1]; omega

/-- An index of call 0's output array is in point `t`'s block iff each coordinate is in the block's range on its axis. -/
theorem mem_blk0_2 (t : Fin cfg0.N) (y : S8192x10240.Idx) :
    y ∈ ((cfg0.win 2).blk t).view.set ↔ ∀ a : Fin 2, win0_2.index t a * S512x2048.size a ≤ (y a).val
      ∧ (y a).val < win0_2.index t a * S512x2048.size a + S512x2048.size a := by
  show y ∈ ((View.whole main_v16).slice (win0_2.rect t)).set ↔ _
  rw [View.set_slice_whole, Rect.mem_set_unit]
  exact Iff.rfl

/-- The point of call 0 that writes back the block holding `y`: row block `y₀/512`, column block `y₁/2048`, last reduction step. -/
def pt0 (y : S8192x10240.Idx) : Fin cfg0.N :=
  ⟨((y 0).val / 512 * 5 + (y 1).val / 2048) * 10 + 9, by
    have h0 : (y 0).val < 8192 := idx2_lt0 y
    have h1 : (y 1).val < 10240 := idx2_lt1 y
    rw [N0]; omega⟩

/-- Every index of call 0's output array is in the block of a point that writes back. -/
theorem cover0_2 (y : S8192x10240.Idx) : (cfg0.win 2).flush (pt0 y) = true ∧ y ∈ ((cfg0.win 2).blk (pt0 y)).view.set := by
  have h0 : (y 0).val < 8192 := idx2_lt0 y
  have h1 : (y 1).val < 10240 := idx2_lt1 y
  have hv : (pt0 y).val = ((y 0).val / 512 * 5 + (y 1).val / 2048) * 10 + 9 := rfl
  refine ⟨(flush0_2 _).mpr (by rw [hv]; omega), ?_⟩
  rw [mem_blk0_2]
  obtain ⟨-, -, -, e0, e1, -⟩ := idx0 (pt0 y)
  intro a
  match a with
  | ⟨0, _⟩ =>
    show win0_2.index (pt0 y) (0 : Fin 2) * 512 ≤ (y 0).val ∧ (y 0).val < win0_2.index (pt0 y) (0 : Fin 2) * 512 + 512
    rw [e0, hv]; omega
  | ⟨1, _⟩ =>
    show win0_2.index (pt0 y) (1 : Fin 2) * 2048 ≤ (y 1).val ∧ (y 1).val < win0_2.index (pt0 y) (1 : Fin 2) * 2048 + 2048
    rw [e1, hv]; omega

/-! ## Call 1: grid 16 × 16 × 5, point `t` ↦ (t / 80, t / 5 % 16, t % 5) -/

theorem N1 : cfg1.N = 1280 := by decide
theorem lt1 (t : Fin cfg1.N) : t.val < 1280 := lt_of_lt_of_eq t.isLt N1

/-- The printed index maps of call 1 and its reduction coordinate, in closed form, decided over the grid. -/
theorem idx1 : ∀ t : Fin cfg1.N, win1_0.index t (0 : Fin 1) = t.val / 5 % 16
    ∧ win1_1.index t (0 : Fin 2) = t.val / 80 ∧ win1_1.index t (1 : Fin 2) = t.val % 5
    ∧ win1_2.index t (0 : Fin 2) = t.val / 80 ∧ win1_2.index t (1 : Fin 2) = t.val / 5 % 16
    ∧ ((grid1.coords t) 2).val = t.val % 5 :=
  (by decide +kernel : ∀ t : Fin grid1.N, _)

theorem coord1_2 (t : Fin cfg1.N) : ((grid1.coords t) 2).val = t.val % 5 := (idx1 t).2.2.2.2.2

/-- The index tile of call 1 at point `t`: rows `512·(t/5%16) + r` of the index vector. -/
theorem blk1_0 (A : S8192.Idx → BitVec 32) (t : Fin cfg1.N) (r : Fin 512) :
    ((cfg1.win 0).blk t).view.read (Elt F) A (ix1 r)
      = A (ix1 ⟨512 * (t.val / 5 % 16) + r.val, by have := r.isLt; omega⟩) := by
  rw [View.read_apply]
  show A (((cfg1.win 0).blk t).view.emb (ix1 r)) = _
  refine congrArg A (funext fun a => Fin.ext ?_)
  match a with
  | ⟨0, _⟩ =>
    show win1_0.index t (0 : Fin 1) * 512 + 1 * r.val = 512 * (t.val / 5 % 16) + r.val
    rw [(idx1 t).1]; omega

/-- The gathered-rows tile of call 1 at point `t`: rows `512·(t/80) + r`, columns `2048·(t%5) + ll`. -/
theorem blk1_1 (A : Vec F S8192x10240 .bf16) (t : Fin cfg1.N) (r : Fin 512) (ll : Fin 2048) :
    ((cfg1.win 1).blk t).view.read (Elt F) A (ix2 r ll)
      = A (ix2 ⟨512 * (t.val / 80) + r.val, by have := lt1 t; have := r.isLt; omega⟩ ⟨2048 * (t.val % 5) + ll.val, by have := ll.isLt; omega⟩) := by
  rw [View.read_apply]
  show A (((cfg1.win 1).blk t).view.emb (ix2 r ll)) = _
  refine congrArg A (funext fun a => Fin.ext ?_)
  obtain ⟨-, e0, e1, -⟩ := idx1 t
  match a with
  | ⟨0, _⟩ =>
    show win1_1.index t (0 : Fin 2) * 512 + 1 * r.val = 512 * (t.val / 80) + r.val
    rw [e0]; omega
  | ⟨1, _⟩ =>
    show win1_1.index t (1 : Fin 2) * 2048 + 1 * ll.val = 2048 * (t.val % 5) + ll.val
    rw [e1]; omega

/-- The output tile of call 1 at point `t` sits at rows `512·(t/80) + r`, columns `512·(t/5%16) + jj` of its array. -/
theorem emb1_2 (t : Fin cfg1.N) (r jj : Fin 512) :
    ((cfg1.win 2).blk t).view.emb (ix2 r jj)
      = ix2 ⟨512 * (t.val / 80) + r.val, by have := lt1 t; have := r.isLt; omega⟩ ⟨512 * (t.val / 5 % 16) + jj.val, by have := jj.isLt; omega⟩ := by
  funext a
  apply Fin.ext
  obtain ⟨-, -, -, e0, e1, -⟩ := idx1 t
  match a with
  | ⟨0, _⟩ =>
    show win1_2.index t (0 : Fin 2) * 512 + 1 * r.val = 512 * (t.val / 80) + r.val
    rw [e0]; omega
  | ⟨1, _⟩ =>
    show win1_2.index t (1 : Fin 2) * 512 + 1 * jj.val = 512 * (t.val / 5 % 16) + jj.val
    rw [e1]; omega

/-- An index of call 1's output array is in point `t`'s block iff each coordinate is in the block's range on its axis. -/
theorem mem_blk1_2 (t : Fin cfg1.N) (y : S8192x8192.Idx) :
    y ∈ ((cfg1.win 2).blk t).view.set ↔ ∀ a : Fin 2, win1_2.index t a * S512x512.size a ≤ (y a).val
      ∧ (y a).val < win1_2.index t a * S512x512.size a + S512x512.size a := by
  show y ∈ ((View.whole main_v17).slice (win1_2.rect t)).set ↔ _
  rw [View.set_slice_whole, Rect.mem_set_unit]
  exact Iff.rfl

/-- The point of call 1 that writes back the block holding `y`: row block `y₀/512`, column block `y₁/512`, last reduction step. -/
def pt1 (y : S8192x8192.Idx) : Fin cfg1.N :=
  ⟨((y 0).val / 512 * 16 + (y 1).val / 512) * 5 + 4, by
    have h0 : (y 0).val < 8192 := idx2_lt0 y
    have h1 : (y 1).val < 8192 := idx2_lt1 y
    rw [N1]; omega⟩

/-- Every index of call 1's output array is in the block of a point that writes back. -/
theorem cover1_2 (y : S8192x8192.Idx) : (cfg1.win 2).flush (pt1 y) = true ∧ y ∈ ((cfg1.win 2).blk (pt1 y)).view.set := by
  have h0 : (y 0).val < 8192 := idx2_lt0 y
  have h1 : (y 1).val < 8192 := idx2_lt1 y
  have hv : (pt1 y).val = ((y 0).val / 512 * 16 + (y 1).val / 512) * 5 + 4 := rfl
  refine ⟨(flush1_2 _).mpr (by rw [hv]; omega), ?_⟩
  rw [mem_blk1_2]
  obtain ⟨-, -, -, e0, e1, -⟩ := idx1 (pt1 y)
  intro a
  match a with
  | ⟨0, _⟩ =>
    show win1_2.index (pt1 y) (0 : Fin 2) * 512 ≤ (y 0).val ∧ (y 0).val < win1_2.index (pt1 y) (0 : Fin 2) * 512 + 512
    rw [e0, hv]; omega
  | ⟨1, _⟩ =>
    show win1_2.index (pt1 y) (1 : Fin 2) * 512 ≤ (y 1).val ∧ (y 1).val < win1_2.index (pt1 y) (1 : Fin 2) * 512 + 512
    rw [e1, hv]; omega

/-! ## Call 2: grid 16 × 16, point `t` ↦ (t / 16, t % 16) -/

theorem N2 : cfg2.N = 256 := by decide
theorem lt2 (t : Fin cfg2.N) : t.val < 256 := lt_of_lt_of_eq t.isLt N2

/-- The printed index maps of call 2 and its reduction coordinate, in closed form, decided over the grid. -/
theorem idx2 : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = t.val % 16
    ∧ win2_3.index t (0 : Fin 2) = t.val / 16 ∧ win2_3.index t (1 : Fin 2) = 0
    ∧ ((grid2.coords t) 1).val = t.val % 16 :=
  (by decide +kernel : ∀ t : Fin grid2.N, _)

theorem coord2_1 (t : Fin cfg2.N) : ((grid2.coords t) 1).val = t.val % 16 := (idx2 t).2.2.2.2.2.2.2.2

/-- The first operand's tile of call 2 at point `t`: rows `512·(t/16) + r`, every column. -/
theorem blk2_0 (A : Vec F S8192x256 .f32) (t : Fin cfg2.N) (r : Fin 512) (d : Fin 256) :
    ((cfg2.win 0).blk t).view.read (Elt F) A (ix2 r d)
      = A (ix2 ⟨512 * (t.val / 16) + r.val, by have := lt2 t; have := r.isLt; omega⟩ d) := by
  rw [View.read_apply]
  show A (((cfg2.win 0).blk t).view.emb (ix2 r d)) = _
  refine congrArg A (funext fun a => Fin.ext ?_)
  obtain ⟨e0, e1, -⟩ := idx2 t
  match a with
  | ⟨0, _⟩ =>
    show win2_0.index t (0 : Fin 2) * 512 + 1 * r.val = 512 * (t.val / 16) + r.val
    rw [e0]; omega
  | ⟨1, _⟩ =>
    show win2_0.index t (1 : Fin 2) * 256 + 1 * d.val = d.val
    rw [e1]; omega

/-- The second operand's tile of call 2 at point `t`: rows `512·(t%16) + r`, every column. -/
theorem blk2_1 (A : Vec F S8192x256 .f32) (t : Fin cfg2.N) (r : Fin 512) (d : Fin 256) :
    ((cfg2.win 1).blk t).view.read (Elt F) A (ix2 r d)
      = A (ix2 ⟨512 * (t.val % 16) + r.val, by have := r.isLt; omega⟩ d) := by
  rw [View.read_apply]
  show A (((cfg2.win 1).blk t).view.emb (ix2 r d)) = _
  refine congrArg A (funext fun a => Fin.ext ?_)
  obtain ⟨-, -, e0, e1, -⟩ := idx2 t
  match a with
  | ⟨0, _⟩ =>
    show win2_1.index t (0 : Fin 2) * 512 + 1 * r.val = 512 * (t.val % 16) + r.val
    rw [e0]; omega
  | ⟨1, _⟩ =>
    show win2_1.index t (1 : Fin 2) * 256 + 1 * d.val = d.val
    rw [e1]; omega

/-- The weights' tile of call 2 at point `t`: rows `512·(t/16) + r`, columns `512·(t%16) + jj`. -/
theorem blk2_2 (A : Vec F S8192x8192 .bf16) (t : Fin cfg2.N) (r jj : Fin 512) :
    ((cfg2.win 2).blk t).view.read (Elt F) A (ix2 r jj)
      = A (ix2 ⟨512 * (t.val / 16) + r.val, by have := lt2 t; have := r.isLt; omega⟩ ⟨512 * (t.val % 16) + jj.val, by have := jj.isLt; omega⟩) := by
  rw [View.read_apply]
  show A (((cfg2.win 2).blk t).view.emb (ix2 r jj)) = _
  refine congrArg A (funext fun a => Fin.ext ?_)
  obtain ⟨-, -, -, -, e0, e1, -⟩ := idx2 t
  match a with
  | ⟨0, _⟩ =>
    show win2_2.index t (0 : Fin 2) * 512 + 1 * r.val = 512 * (t.val / 16) + r.val
    rw [e0]; omega
  | ⟨1, _⟩ =>
    show win2_2.index t (1 : Fin 2) * 512 + 1 * jj.val = 512 * (t.val % 16) + jj.val
    rw [e1]; omega

/-- The output tile of call 2 at point `t` sits at rows `512·(t/16) + r` of its one-column array. -/
theorem emb2_3 (t : Fin cfg2.N) (r : Fin 512) (u : Fin 1) :
    ((cfg2.win 3).blk t).view.emb (ix2 r u)
      = ix2 ⟨512 * (t.val / 16) + r.val, by have := lt2 t; have := r.isLt; omega⟩ u := by
  funext a
  apply Fin.ext
  obtain ⟨-, -, -, -, -, -, e0, e1, -⟩ := idx2 t
  match a with
  | ⟨0, _⟩ =>
    show win2_3.index t (0 : Fin 2) * 512 + 1 * r.val = 512 * (t.val / 16) + r.val
    rw [e0]; omega
  | ⟨1, _⟩ =>
    show win2_3.index t (1 : Fin 2) * 1 + 1 * u.val = u.val
    rw [e1]; omega

/-- An index of call 2's output array is in point `t`'s block iff each coordinate is in the block's range on its axis. -/
theorem mem_blk2_3 (t : Fin cfg2.N) (y : S8192x1.Idx) :
    y ∈ ((cfg2.win 3).blk t).view.set ↔ ∀ a : Fin 2, win2_3.index t a * S512x1.size a ≤ (y a).val
      ∧ (y a).val < win2_3.index t a * S512x1.size a + S512x1.size a := by
  show y ∈ ((View.whole main_v18).slice (win2_3.rect t)).set ↔ _
  rw [View.set_slice_whole, Rect.mem_set_unit]
  exact Iff.rfl

/-- The point of call 2 that writes back the block holding `y`: row block `y₀/512`, last column block. -/
def pt2 (y : S8192x1.Idx) : Fin cfg2.N :=
  ⟨(y 0).val / 512 * 16 + 15, by
    have h0 : (y 0).val < 8192 := idx2_lt0 y
    rw [N2]; omega⟩

/-- Every index of call 2's output array is in the block of a point that writes back. -/
theorem cover2_3 (y : S8192x1.Idx) : (cfg2.win 3).flush (pt2 y) = true ∧ y ∈ ((cfg2.win 3).blk (pt2 y)).view.set := by
  have h0 : (y 0).val < 8192 := idx2_lt0 y
  have h1 : (y 1).val < 1 := idx2_lt1 y
  have hv : (pt2 y).val = (y 0).val / 512 * 16 + 15 := rfl
  refine ⟨(flush2_3 _).mpr (by rw [hv]; omega), ?_⟩
  rw [mem_blk2_3]
  obtain ⟨-, -, -, -, -, -, e0, e1, -⟩ := idx2 (pt2 y)
  intro a
  match a with
  | ⟨0, _⟩ =>
    show win2_3.index (pt2 y) (0 : Fin 2) * 512 ≤ (y 0).val ∧ (y 0).val < win2_3.index (pt2 y) (0 : Fin 2) * 512 + 512
    rw [e0, hv]; omega
  | ⟨1, _⟩ =>
    show win2_3.index (pt2 y) (1 : Fin 2) * 1 ≤ (y 1).val ∧ (y 1).val < win2_3.index (pt2 y) (1 : Fin 2) * 1 + 1
    rw [e1]; omega

end Cert.KernelIdeal.Blocks
end
-- ==== Proof.PayloadsIdeal2.lean ====
import proofs.«100679_j35734127902881_1_alg».proof.Proof.PayloadsIdeal0

noncomputable section

open scoped BigOperators

namespace Cert.KernelIdeal.Pay

open Idealize.ShloMosaic Idealize.ShloMosaic.ValueIdx Cert.KernelIdeal Cert.KernelIdeal.Gen

/-- The third call's reset payload is zero everywhere. -/
theorem pay1_2 (y : S512x1.Idx) : k2_pay1 (F := Ideal) y = 0 := by
  unfold k2_pay1
  simp only [shapeCast_self]
  exact Ideal.ofBits_zero_f32

/-- The word `0x40000000` is the single-precision `2`. -/
theorem ofBits_two : Ideal.ofBits .f32 0x40000000#32 = 2 := by
  simp [Ideal.ofBits, Ideal.ieee, -EReal.coe_mul]
  norm_num
  rfl

/-- A sum along the second axis of an `[a, n]` array, read at row `r`: the sum of the row's entries. -/
theorem rowsum_apply {a n : ℕ} (src : FVec Ideal ⟨2, ![a, n]⟩ .f32) (h : (⟨2, ![a, n]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  refine Finset.sum_congr rfl fun k _ => congrArg src ?_
  funext b
  apply Fin.ext
  match b with
  | ⟨0, _⟩ => rfl
  | ⟨1, _⟩ => rfl

/-- The third call's contraction: rows of the left operand against rows of the right (both contract their second axis). -/
abbrev D2 : DotDims S512x256 S512x256 S512x512 := dot_S512x256_S512x256_S512x512_1_1_0_0_n_n

theorem D2_lhs_0 (j : S512x512.Idx) (k : D2.contr.Idx) : (D2.lhsIdx j k 0).val = (j 0).val := by
  unfold DotDims.lhsIdx
  rw [dif_neg (show ¬(0 : Fin S512x256.rank) ∈ D2.lhsBatch by decide), dif_pos (show (0 : Fin S512x256.rank) ∈ D2.lhsNonContracting by decide)]
  rfl
theorem D2_lhs_1 (j : S512x512.Idx) (k : D2.contr.Idx) : (D2.lhsIdx j k 1).val = (k ⟨0, by decide⟩).val :=
  D2.lhsIdx_val_of_single rfl j k
theorem D2_rhs_0 (j : S512x512.Idx) (k : D2.contr.Idx) : (D2.rhsIdx j k 0).val = (j 1).val := by
  unfold DotDims.rhsIdx
  rw [dif_neg (show ¬(0 : Fin S512x256.rank) ∈ D2.rhsBatch by decide), dif_pos (show (0 : Fin S512x256.rank) ∈ D2.rhsNonContracting by decide)]
  rfl
theorem D2_rhs_1 (j : S512x512.Idx) (k : D2.contr.Idx) : (D2.rhsIdx j k 1).val = (k ⟨0, by decide⟩).val :=
  D2.rhsIdx_val_of_single rfl j k

/-- A product of `x` with the transpose of `w` into the zero accumulator, read at `(r, j)`: the inner product of row `r` of `x` and row `j` of `w`. -/
theorem matmul2_apply (x : FVec Ideal S512x256 .bf16) (w : FVec Ideal S512x256 .bf16) (r j : Fin 512) :
    matmul D2 none x w (constant S512x512 .f32 0x00000000#32) (ix2 r j) = ∑ d : Fin 256, x (ix2 r d) * w (ix2 j d) := by
  simp only [matmul]
  rw [Ideal.matmul_constant_zero_apply, ← Equiv.sum_comp (contrEquiv1 D2 256 rfl rfl).symm]
  refine Finset.sum_congr rfl fun d _ => ?_
  have hk := contrEquiv1_symm_val D2 256 rfl rfl d
  have el : D2.lhsIdx (ix2 r j) ((contrEquiv1 D2 256 rfl rfl).symm d) = ix2 r d := funext fun a => Fin.ext (by
    match a with
    | ⟨0, _⟩ => exact D2_lhs_0 _ _
    | ⟨1, _⟩ => exact (D2_lhs_1 _ _).trans hk)
  have er : D2.rhsIdx (ix2 r j) ((contrEquiv1 D2 256 rfl rfl).symm d) = ix2 j d := funext fun a => Fin.ext (by
    match a with
    | ⟨0, _⟩ => exact D2_rhs_0 _ _
    | ⟨1, _⟩ => exact (D2_rhs_1 _ _).trans hk)
  rw [el, er]

/-- The third call's accumulation step at row `r`: the accumulator plus, summed over the block's columns `j`, the squared
    distance `|x_r|² + |y_j|² − 2·x_r·y_j` of row `r` of the first operand and row `j` of the second, times the weight at `(r, j)`. -/
theorem pay2_2 (v3 v5 : Vec Ideal S512x256 .f32) (v23 : Vec Ideal S512x512 .bf16) (v29 : Vec Ideal S512x1 .f32) (r : Fin 512) :
    k2_pay2 (F := Ideal) v3 v5 v23 v29 (ix2 r (0 : Fin 1))
      = v29 (ix2 r (0 : Fin 1)) + ∑ j : Fin 512,
          (((∑ d : Fin 256, v3 (ix2 r d) * v3 (ix2 r d)) + (∑ d : Fin 256, v5 (ix2 j d) * v5 (ix2 j d)))
            - Ideal.ofBits .f32 0x40000000#32 * (∑ d : Fin 256, v3 (ix2 r d) * v5 (ix2 j d))) * v23 (ix2 r j) := by
  unfold k2_pay2
  simp only [shapeCast_self]
  refine (addf_apply _ _ _).trans (congrArg (v29 (ix2 r (0 : Fin 1)) + ·) ?_)
  refine (shapeCast_a_a1_apply _ _ r 0).trans ?_
  refine (rowsum_apply _ _ _ _ r).trans (Finset.sum_congr rfl fun j _ => ?_)
  refine (mulf_apply _ _ _).trans (congrArg₂ (· * ·) ?_ rfl)
  refine (subf_apply _ _ _).trans (congrArg₂ (· - ·) ?_ ?_)
  · refine (addf_apply _ _ _).trans (congrArg₂ (· + ·) ?_ ?_)
    · refine (broadcastTo_a1_ab_apply _ _ r j).trans ((shapeCast_a_a1_apply _ _ r 0).trans ?_)
      exact (rowsum_apply _ _ _ _ r).trans (Finset.sum_congr rfl fun d _ => mulf_apply _ _ _)
    · refine (broadcastTo_1b_ab_apply _ _ r j).trans ((transpose_ix2_apply _ _ 0 j).trans ((shapeCast_a_a1_apply _ _ j 0).trans ?_))
      exact (rowsum_apply _ _ _ _ j).trans (Finset.sum_congr rfl fun d _ => mulf_apply _ _ _)
  · refine (mulf_apply _ _ _).trans (congrArg₂ (· * ·) rfl ?_)
    exact matmul2_apply _ _ r j

/-- The same with the literal read: `0x40000000` is `2`. -/
theorem pay2_2_two (v3 v5 : Vec Ideal S512x256 .f32) (v23 : Vec Ideal S512x512 .bf16) (v29 : Vec Ideal S512x1 .f32) (r : Fin 512) :
    k2_pay2 (F := Ideal) v3 v5 v23 v29 (ix2 r (0 : Fin 1))
      = v29 (ix2 r (0 : Fin 1)) + ∑ j : Fin 512,
          (((∑ d : Fin 256, v3 (ix2 r d) * v3 (ix2 r d)) + (∑ d : Fin 256, v5 (ix2 j d) * v5 (ix2 j d)))
            - 2 * (∑ d : Fin 256, v3 (ix2 r d) * v5 (ix2 j d))) * v23 (ix2 r j) := by
  rw [pay2_2, ofBits_two]

end Cert.KernelIdeal.Pay
end
-- ==== Proof.KernelIdeal.Val2.lean ====
/-
  The value of call 2. Its grid is 16 × 16: point `t` works on row block `t / 16` and column block `t % 16`, and a
  VMEM accumulator carries each row's partial sum across the sixteen column blocks of a row block. Row `i`'s sum is cut into
  sixteen runs of 512 consecutive columns (`rowPart2`: the sum over the first `m` runs, as a sum over a range of
  naturals, so that one more run is `Finset.sum_range_add`); the accumulation payload, read at an index, adds exactly the
  next run; so after point `n` the accumulator holds the sum through column block `n % 16` (by induction on the point).
  At the last column block the output block is stored with the accumulator, which is then the whole row's sum, and the
  sixteen write-backs tile the output array.
-/
import proofs.«100679_j35734127902881_1_alg».proof.Proof.KernelIdeal.Pieces2
import proofs.«100679_j35734127902881_1_alg».proof.Proof.KernelIdeal.Blocks
import proofs.«100679_j35734127902881_1_alg».proof.Proof.PayloadsIdeal2
import proofs.«100679_j35734127902881_1_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## Row sums of the weighted squared distances, one column block at a time -/

section Math
variable (E1 E2 : S8192x256.Idx → EReal) (Gm : S8192x8192.Idx → EReal)

/-- One term of row `i`, column `n`, with the row and the column as naturals: zero outside the array. -/
def termN2 (i n : ℕ) : EReal := if h : i < 8192 ∧ n < 8192 then Cert.ReferenceIdeal.RefSide.term E1 E2 Gm ⟨i, h.1⟩ ⟨n, h.2⟩ else 0

/-- Row `i`'s sum over its first `m` column blocks of 512. -/
def rowPart2 (i m : ℕ) : EReal := ∑ n ∈ Finset.range (512 * m), termN2 E1 E2 Gm i n

theorem rowPart2_zero (i : ℕ) : rowPart2 E1 E2 Gm i 0 = 0 := by
  unfold rowPart2; rw [Nat.mul_zero, Finset.range_zero, Finset.sum_empty]

/-- One more column block: the sum so far plus the block's 512 terms. -/
theorem rowPart2_succ (i m : ℕ) :
    rowPart2 E1 E2 Gm i (m + 1) = rowPart2 E1 E2 Gm i m + ∑ jj : Fin 512, termN2 E1 E2 Gm i (512 * m + jj.val) := by
  unfold rowPart2
  rw [show 512 * (m + 1) = 512 * m + 512 from by omega, Finset.sum_range_add,
    Finset.sum_range (fun x => termN2 E1 E2 Gm i (512 * m + x))]

/-- All sixteen column blocks: the whole row. -/
theorem rowPart2_full (i : Fin 8192) : rowPart2 E1 E2 Gm i.val 16 = ∑ j : Fin 8192, Cert.ReferenceIdeal.RefSide.term E1 E2 Gm i j := by
  unfold rowPart2
  rw [show 512 * 16 = 8192 from rfl, Finset.sum_range (fun x => termN2 E1 E2 Gm i.val x)]
  refine Finset.sum_congr rfl fun j _ => ?_
  unfold termN2
  rw [dif_pos ⟨i.isLt, j.isLt⟩]

/-- The accumulation step of call 2 on blocks of the three arrays: with the row block `ib` of the first array, the column
    block `jb` of the second and the matching block of the weights loaded, an accumulator holding row `512·ib + r`'s sum over
    the column blocks before `jb` ends holding the sum through `jb`. -/
theorem pay2_rowPart (ib jb : ℕ) (hib : ib < 16) (hjb : jb < 16)
    (x0 x1 : Vec Ideal S512x256 .f32) (x2 : Vec Ideal S512x512 .bf16) (acc : Vec Ideal S512x1 .f32)
    (h0 : ∀ (r : Fin 512) (d : Fin 256) (h : 512 * ib + r.val < 8192), x0 (ix2 r d) = E1 (ix2 ⟨512 * ib + r.val, h⟩ d))
    (h1 : ∀ (r : Fin 512) (d : Fin 256) (h : 512 * jb + r.val < 8192), x1 (ix2 r d) = E2 (ix2 ⟨512 * jb + r.val, h⟩ d))
    (h2 : ∀ (r jj : Fin 512) (h : 512 * ib + r.val < 8192) (h' : 512 * jb + jj.val < 8192),
      x2 (ix2 r jj) = Gm (ix2 ⟨512 * ib + r.val, h⟩ ⟨512 * jb + jj.val, h'⟩))
    (r : Fin 512) (hacc : acc (ix2 r (0 : Fin 1)) = rowPart2 E1 E2 Gm (512 * ib + r.val) jb) :
    k2_pay2 (F := Ideal) x0 x1 x2 acc (ix2 r (0 : Fin 1)) = rowPart2 E1 E2 Gm (512 * ib + r.val) (jb + 1) := by
  have hr : 512 * ib + r.val < 8192 := by have := r.isLt; omega
  rw [Pay.pay2_2, rowPart2_succ, hacc]
  refine congrArg (rowPart2 E1 E2 Gm (512 * ib + r.val) jb + ·) (Finset.sum_congr rfl fun jj _ => ?_)
  have hj : 512 * jb + jj.val < 8192 := by have := jj.isLt; omega
  unfold termN2
  rw [dif_pos ⟨hr, hj⟩]
  unfold Cert.ReferenceIdeal.RefSide.term Cert.ReferenceIdeal.RefSide.sq Cert.ReferenceIdeal.RefSide.cross
  rw [h2 r jj hr hj]
  simp only [h0 r _ hr, h1 jj _ hj]

end Math

/-! ## The accumulator after each point -/

section AnyF
variable {F : FTy → Type} [FloatOps F]
variable (V : (c : Dev nD) → (b : Ref sig .tc) → Buf (Elt F) ((c : Thread nD τ).loc b))

/-- First step of a row block: the accumulator is the step's payload over the zeroed accumulator. -/
theorem acc2_A (c : Dev nD) (t : Fin cfg2.N) (h0 : t.val % 16 = 0) (h1 : ¬t.val % 16 = 15) :
    (outsAt2 V c t.val t.isLt).2 = k2_pay2 (iblk2 V c 0 t) (iblk2 V c 1 t) (iblk2 V c 2 t) (k2_pay1 (F := F)) :=
  (congrArg Prod.snd (outsAt2_A V c t h0 h1)).trans
    (sout2_A_0_eq c (grid2.coords t) (ms2_0 t) (hs2_0 t) (ms2_1 t) (hs2_1 t) (ms2_2 t) (hs2_2 t) (ms2_3 t) (hs2_3 t) scM2_0
      (Memref.isWhole_whole _) ((hcond2_0 t).mpr h0) (fun h => h1 ((hcond2_1 t).mp h)) (iblk2 V c 0 t) (iblk2 V c 1 t) (iblk2 V c 2 t))

/-- A middle step: the payload over the accumulator the step before left. -/
theorem acc2_B (c : Dev nD) (t : Fin cfg2.N) (h0 : ¬t.val % 16 = 0) (h1 : ¬t.val % 16 = 15) :
    (outsAt2 V c t.val t.isLt).2 = k2_pay2 (iblk2 V c 0 t) (iblk2 V c 1 t) (iblk2 V c 2 t)
      (outsAt2 V c (t.val - 1) (Nat.lt_of_le_of_lt (Nat.sub_le _ _) t.isLt)).2 :=
  (congrArg Prod.snd (outsAt2_B V c t h0 h1)).trans
    (sout2_B_0_eq c (grid2.coords t) (ms2_0 t) (hs2_0 t) (ms2_1 t) (hs2_1 t) (ms2_2 t) (hs2_2 t) (ms2_3 t) (hs2_3 t) scM2_0
      (Memref.isWhole_whole _) (fun h => h0 ((hcond2_0 t).mp h)) (fun h => h1 ((hcond2_1 t).mp h)) (iblk2 V c 0 t) (iblk2 V c 1 t) (iblk2 V c 2 t)
      (outsAt2 V c (t.val - 1) (Nat.lt_of_le_of_lt (Nat.sub_le _ _) t.isLt)).2)

/-- The last step: the same for the accumulator, -/
theorem acc2_C (c : Dev nD) (t : Fin cfg2.N) (h0 : ¬t.val % 16 = 0) (h1 : t.val % 16 = 15) :
    (outsAt2 V c t.val t.isLt).2 = k2_pay2 (iblk2 V c 0 t) (iblk2 V c 1 t) (iblk2 V c 2 t)
      (outsAt2 V c (t.val - 1) (Nat.lt_of_le_of_lt (Nat.sub_le _ _) t.isLt)).2 :=
  (congrArg Prod.snd (outsAt2_C V c t h0 h1)).trans
    (sout2_C_0_eq c (grid2.coords t) (ms2_0 t) (hs2_0 t) (ms2_1 t) (hs2_1 t) (ms2_2 t) (hs2_2 t) (ms2_3 t) (hs2_3 t) scM2_0
      (Memref.isWhole_whole _) (fun h => h0 ((hcond2_0 t).mp h)) ((hcond2_1 t).mpr h1) (iblk2 V c 0 t) (iblk2 V c 1 t) (iblk2 V c 2 t)
      (outsAt2 V c (t.val - 1) (Nat.lt_of_le_of_lt (Nat.sub_le _ _) t.isLt)).2)

/-- and the output block is stored with that same value. -/
theorem out2_C (c : Dev nD) (t : Fin cfg2.N) (h0 : ¬t.val % 16 = 0) (h1 : t.val % 16 = 15) :
    (outsAt2 V c t.val t.isLt).1 = (outsAt2 V c t.val t.isLt).2 :=
  ((congrArg Prod.fst (outsAt2_C V c t h0 h1)).trans
    (out2_C_3_eq c (grid2.coords t) (ms2_0 t) (hs2_0 t) (ms2_1 t) (hs2_1 t) (ms2_2 t) (hs2_2 t) (ms2_3 t) (hs2_3 t) scM2_0
      (Memref.isWhole_whole _) (fun h => h0 ((hcond2_0 t).mp h)) ((hcond2_1 t).mpr h1) (iblk2 V c 0 t) (iblk2 V c 1 t) (iblk2 V c 2 t)
      (outsAt2 V c (t.val - 1) (Nat.lt_of_le_of_lt (Nat.sub_le _ _) t.isLt)).2)).trans (acc2_C V c t h0 h1).symm

end AnyF

/-! ## The accumulator's invariant, the write-back and the output array, over the extended reals -/

section AtIdeal
variable (V : (c : Dev nD) → (b : Ref sig .tc) → Buf (Elt Ideal) ((c : Thread nD τ).loc b))

/-- One step at point `t` = (row block `t / 16`, column block `t % 16`) on the windows' blocks. -/
theorem step2 (c : Dev nD) (t : Fin cfg2.N) (acc : Vec Ideal S512x1 .f32) (r : Fin 512)
    (hacc : acc (ix2 r (0 : Fin 1)) = rowPart2 (V c (Pipeline.arrRef spec2 0)) (V c (Pipeline.arrRef spec2 1)) (V c (Pipeline.arrRef spec2 2))
      (512 * (t.val / 16) + r.val) (t.val % 16)) :
    k2_pay2 (F := Ideal) (iblk2 V c 0 t) (iblk2 V c 1 t) (iblk2 V c 2 t) acc (ix2 r (0 : Fin 1))
      = rowPart2 (V c (Pipeline.arrRef spec2 0)) (V c (Pipeline.arrRef spec2 1)) (V c (Pipeline.arrRef spec2 2))
          (512 * (t.val / 16) + r.val) (t.val % 16 + 1) :=
  pay2_rowPart (V c (Pipeline.arrRef spec2 0)) (V c (Pipeline.arrRef spec2 1)) (V c (Pipeline.arrRef spec2 2))
    (t.val / 16) (t.val % 16) (by have := Blocks.lt2 t; omega) (by omega)
    (iblk2 V c 0 t) (iblk2 V c 1 t) (iblk2 V c 2 t) acc
    (fun r d _ => Blocks.blk2_0 (F := Ideal) (V c (Pipeline.arrRef spec2 0)) t r d)
    (fun r d _ => Blocks.blk2_1 (F := Ideal) (V c (Pipeline.arrRef spec2 1)) t r d)
    (fun r jj _ _ => Blocks.blk2_2 (F := Ideal) (V c (Pipeline.arrRef spec2 2)) t r jj)
    r hacc

/-- One point: the accumulator goes from row `512·(t/16) + r`'s sum over the column blocks before `t % 16` to the sum through it. -/
theorem acc2_step (c : Dev nD) (t : Fin cfg2.N) (r : Fin 512)
    (ih : ¬t.val % 16 = 0 → (outsAt2 V c (t.val - 1) (Nat.lt_of_le_of_lt (Nat.sub_le _ _) t.isLt)).2 (ix2 r (0 : Fin 1))
      = rowPart2 (V c (Pipeline.arrRef spec2 0)) (V c (Pipeline.arrRef spec2 1)) (V c (Pipeline.arrRef spec2 2))
          (512 * (t.val / 16) + r.val) (t.val % 16)) :
    (outsAt2 V c t.val t.isLt).2 (ix2 r (0 : Fin 1))
      = rowPart2 (V c (Pipeline.arrRef spec2 0)) (V c (Pipeline.arrRef spec2 1)) (V c (Pipeline.arrRef spec2 2))
          (512 * (t.val / 16) + r.val) (t.val % 16 + 1) := by
  by_cases h0 : t.val % 16 = 0
  · have h1 : ¬t.val % 16 = 15 := by omega
    refine (congrFun (acc2_A V c t h0 h1) (ix2 r (0 : Fin 1))).trans (step2 V c t (k2_pay1 (F := Ideal)) r ?_)
    rw [Pay.pay1_2, h0, rowPart2_zero]
  · by_cases h1 : t.val % 16 = 15
    · exact (congrFun (acc2_C V c t h0 h1) (ix2 r (0 : Fin 1))).trans (step2 V c t _ r (ih h0))
    · exact (congrFun (acc2_B V c t h0 h1) (ix2 r (0 : Fin 1))).trans (step2 V c t _ r (ih h0))

/-- THE INVARIANT: after point `n` the accumulator's row `r` holds row `512·(n/16) + r`'s sum over the column blocks `0 … n % 16`. -/
theorem acc2_inv (c : Dev nD) : ∀ (n : ℕ) (hn : n < cfg2.N) (r : Fin 512),
    (outsAt2 V c n hn).2 (ix2 r (0 : Fin 1))
      = rowPart2 (V c (Pipeline.arrRef spec2 0)) (V c (Pipeline.arrRef spec2 1)) (V c (Pipeline.arrRef spec2 2))
          (512 * (n / 16) + r.val) (n % 16 + 1)
  | 0, hn, r => acc2_step V c ⟨0, hn⟩ r (fun h => absurd rfl h)
  | n + 1, hn, r => acc2_step V c ⟨n + 1, hn⟩ r (fun h => by
      have ih := acc2_inv c n (Nat.lt_of_succ_lt hn) r
      have h' : ¬(n + 1) % 16 = 0 := h
      show (outsAt2 V c n _).2 (ix2 r (0 : Fin 1)) = rowPart2 _ _ _ (512 * ((n + 1) / 16) + r.val) ((n + 1) % 16)
      rw [ih, show (n + 1) / 16 = n / 16 from by omega, show (n + 1) % 16 = n % 16 + 1 from by omega])

/-- WHAT A WRITING-BACK POINT WRITES: its block of the row sums. -/
theorem flushed2_3 (c : Dev nD) (t : Fin cfg2.N) (hf : (cfg2.win 3).flush t = true) :
    (dat2 V c).flushed 3 t = ((cfg2.win 3).blk t).view.read (Elt Ideal)
      (Cert.Spec.G2 (V c (Pipeline.arrRef spec2 0)) (V c (Pipeline.arrRef spec2 1)) (V c (Pipeline.arrRef spec2 2))) := by
  have h1 : t.val % 16 = 15 := (flush2_3 t).mp hf
  have h0 : ¬t.val % 16 = 0 := by omega
  have ht := Blocks.lt2 t
  show (cfg2.win 3).cut (grid2.coords t) ((dat2 V c).after 3 t) = _
  rw [after2_3]
  funext y
  obtain ⟨r, u, rfl⟩ : ∃ (r : Fin 512) (u : Fin 1), y = ix2 r u := ⟨y 0, y 1, eq_ix2 (n0 := 512) (n1 := 1) y⟩
  obtain rfl : u = (0 : Fin 1) := Subsingleton.elim _ _
  show (outsAt2 V c t.val t.isLt).1 (ix2 r (0 : Fin 1)) = _
  rw [out2_C V c t h0 h1, acc2_inv V c t.val t.isLt r, h1, View.read_apply]
  show _ = Cert.Spec.G2 _ _ _ (((cfg2.win 3).blk t).view.emb (ix2 r (0 : Fin 1)))
  rw [Blocks.emb2_3 t r 0, Cert.Spec.G2_apply]
  exact rowPart2_full _ _ _ ⟨512 * (t.val / 16) + r.val, by have := r.isLt; omega⟩

/-- THE OUTPUT ARRAY of call 2 after its run: every row's weighted squared-distance sum. -/
theorem arr2 (c : Dev nD) : (dat2 (F := Ideal) V c).arrAt 3 cfg2.N
    = Cert.Spec.G2 (V c (Pipeline.arrRef spec2 0)) (V c (Pipeline.arrRef spec2 1)) (V c (Pipeline.arrRef spec2 2)) :=
  (dat2 V c).arrAt_eq_of_cover 3 _ (fun t hf => flushed2_3 V c t hf) (fun y => ⟨Blocks.pt2 y, Blocks.cover2_3 y⟩)

end AtIdeal

end Cert.KernelIdeal.Hand
end
-- ==== Proof.KernelIdeal.Pieces0.lean ====
/-
  Call 0: what each case's found pieces are, as the body's named payloads of the blocks it loaded. The first
  step's accumulator is the step's payload over the zeroed accumulator; a later step's is the payload over the
  accumulator the step before left; the last step's output block is that, rounded to the output's format.
-/
import proofs.«100679_j35734127902881_1_alg».proof.Proof.KernelIdeal.R0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem sout0_A_0_eq (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : cond0_0 i) (hc1 : ¬cond0_1 i) (x0 : Vec F S512 .i32) (x1 : Vec F S1024x2048 .bf16) :
    sout0_A_0 c i arg3 harg3 arg4 harg4 arg5 harg5 arg6 harg6 hc0 hc1 x0 x1 = k0_pay2 i x0 (k0_pay1 (F := F)) x1 := by
  have hz1 : (![0] : Fin 1 → ℕ) = fun _ => 0 := by funext a; fin_cases a; rfl
  have hz2 : (![0, 0] : Fin 2 → ℕ) = fun _ => 0 := by funext a; fin_cases a <;> rfl
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  refine (View.canon_cons_unit_zero (S := S512x2048) hz2 _ _ _).trans ?_
  rw [View.readCov_unit_zero (S := S512x2048) _ hz2]
  simp only [View.readAt_eq_ld, harg3.read_unread, harg4.read_unread, harg6.read_unread]
  simp only [View.ld_unit_zero (S := S512) hz1, View.ld_unit_zero (S := S1024x2048) hz2, View.ld_unit_zero (S := S512x2048) hz2]

theorem sout0_B_0_eq (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : ¬cond0_1 i) (x0 : Vec F S512 .i32) (x1 : Vec F S1024x2048 .bf16) (xs0 : Vec F S512x2048 .f32) :
    sout0_B_0 c i arg3 harg3 arg4 harg4 arg5 harg5 arg6 harg6 hc0 hc1 x0 x1 xs0 = k0_pay2 i x0 xs0 x1 := by
  have hz1 : (![0] : Fin 1 → ℕ) = fun _ => 0 := by funext a; fin_cases a; rfl
  have hz2 : (![0, 0] : Fin 2 → ℕ) = fun _ => 0 := by funext a; fin_cases a <;> rfl
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  refine (View.canon_cons_unit_zero (S := S512x2048) hz2 _ _ _).trans ?_
  simp only [View.readAt_eq_ld, harg3.read_unread, harg4.read_unread, harg6.read_unread]
  simp only [View.ld_unit_zero (S := S512) hz1, View.ld_unit_zero (S := S1024x2048) hz2, View.ld_unit_zero (S := S512x2048) hz2]

theorem sout0_C_0_eq (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) :
    sout0_C_0 c i arg3 harg3 arg4 harg4 arg5 harg5 arg6 harg6 hc0 hc1 x0 x1 xs0 = k0_pay2 i x0 xs0 x1 := by
  have hz1 : (![0] : Fin 1 → ℕ) = fun _ => 0 := by funext a; fin_cases a; rfl
  have hz2 : (![0, 0] : Fin 2 → ℕ) = fun _ => 0 := by funext a; fin_cases a <;> rfl
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  refine (View.canon_cons_unit_zero (S := S512x2048) hz2 _ _ _).trans ?_
  simp only [View.readAt_eq_ld, harg3.read_unread, harg4.read_unread, harg6.read_unread]
  simp only [View.ld_unit_zero (S := S512) hz1, View.ld_unit_zero (S := S1024x2048) hz2, View.ld_unit_zero (S := S512x2048) hz2]

theorem out0_C_2_eq (c : Dev nD) (i : grid0.Coords) (arg3 : Memref sig .tc .vmem S512 .i32) (harg3 : arg3.IsWhole) (arg4 : Memref sig .tc .vmem S1024x2048 .bf16) (harg4 : arg4.IsWhole) (arg5 : Memref sig .tc .vmem S512x2048 .bf16) (harg5 : arg5.IsWhole) (arg6 : Memref sig .tc .vmem S512x2048 .f32) (harg6 : arg6.IsWhole) (hc0 : ¬cond0_0 i) (hc1 : cond0_1 i) (x0 : Vec F S512 .i32) (x1 : Vec F S1024x2048 .bf16) (xs0 : Vec F S512x2048 .f32) :
    out0_C_2 c i arg3 harg3 arg4 harg4 arg5 harg5 arg6 harg6 hc0 hc1 x0 x1 xs0 = k0_pay3 (k0_pay2 i x0 xs0 x1) := by
  have hz1 : (![0] : Fin 1 → ℕ) = fun _ => 0 := by funext a; fin_cases a; rfl
  have hz2 : (![0, 0] : Fin 2 → ℕ) = fun _ => 0 := by funext a; fin_cases a <;> rfl
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  refine (View.canon_cons_unit_zero (S := S512x2048) hz2 _ _ _).trans ?_
  rw [View.readCov_unit_zero (S := S512x2048) _ hz2]
  simp only [View.readAt_eq_ld, harg3.read_unread, harg4.read_unread, harg6.read_unread]
  simp only [View.ld_unit_zero (S := S512) hz1, View.ld_unit_zero (S := S1024x2048) hz2, View.ld_unit_zero (S := S512x2048) hz2]

end Cert.KernelIdeal.Hand

end
-- ==== Proof.KernelIdeal.Val0.lean ====
/-
  The value of the first call: the array it writes is the one-hot row selection of its table.

  The grid is 16 row blocks × 5 column blocks × 10 reduction steps, the reduction step fastest. At each point
  the body adds to its accumulator the product of a 512 × 1024 one-hot block (row r is the indicator of
  "index word of row r = 1024·step + column") with a 1024 × 2048 block of the table; the accumulator is zeroed at
  step 0 and written to the output block at step 9. So after step s the accumulator's entry (r, q) is the sum,
  over the first s + 1 blocks of 1024 table rows k, of [idx(512·R + r) = k] · table(k, 2048·Q + q) — by induction
  on the point, since within one (R, Q) the block coordinates do not move. Ten blocks of 1024 are the 10240 table
  rows, so what is written back at step 9 is Σ_{k < 10240} [idx = k] · table(k, ·): the specification's entry.
  The output blocks of the points at step 9 tile the output array.
-/
import proofs.«100679_j35734127902881_1_alg».proof.Proof.KernelIdeal.Pieces0
import proofs.«100679_j35734127902881_1_alg».proof.Proof.KernelIdeal.Blocks
import proofs.«100679_j35734127902881_1_alg».proof.Proof.PayloadsIdeal0
import proofs.«100679_j35734127902881_1_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Blocks Cert.KernelIdeal.Pay

/-! ## Sums in blocks -/

section Blocks
variable {M : Type} [AddCommMonoid M]

/-- A sum over the first s blocks of b consecutive naturals. -/
def blockSum (b : ℕ) (f : ℕ → M) (s : ℕ) : M :=
  ∑ st ∈ Finset.range s, ∑ kk : Fin b, f (b * st + kk.val)

theorem blockSum_zero (b : ℕ) (f : ℕ → M) : blockSum b f 0 = 0 := by
  unfold blockSum; rw [Finset.range_zero, Finset.sum_empty]

/-- One more block. -/
theorem blockSum_succ (b : ℕ) (f : ℕ → M) (s : ℕ) :
    blockSum b f (s + 1) = blockSum b f s + ∑ kk : Fin b, f (b * s + kk.val) := by
  unfold blockSum; rw [Finset.sum_range_succ]

/-- The first a blocks of b are the first a · b naturals. -/
theorem blockSum_eq_range (b : ℕ) (f : ℕ → M) : ∀ a : ℕ, blockSum b f a = ∑ k ∈ Finset.range (a * b), f k
  | 0 => by rw [blockSum_zero, Nat.zero_mul, Finset.range_zero, Finset.sum_empty]
  | a + 1 => by
    rw [blockSum_succ, blockSum_eq_range b f a, Nat.succ_mul, Finset.sum_range_add, Nat.mul_comm a b,
      Fin.sum_univ_eq_sum_range (fun kk => f (b * a + kk)) b]

end Blocks

/-! ## Total reads, and one term of the one-hot product -/

/-- The index vector read at a natural number (0 past its end, which is never read). -/
def idxAt (A0 : S8192.Idx → BitVec 32) (k : ℕ) : BitVec 32 := if h : k < 8192 then A0 (ix1 ⟨k, h⟩) else 0

/-- The table read at two natural numbers (0 outside, which is never read). -/
def tabAt (A1 : S10240x10240.Idx → EReal) (k l : ℕ) : EReal :=
  if h : k < 10240 ∧ l < 10240 then A1 (ix2 ⟨k, h.1⟩ ⟨l, h.2⟩) else 0

/-- [a = k] · g(k). -/
def ohTerm (a : BitVec 32) (g : ℕ → EReal) (k : ℕ) : EReal := oh a (BitVec.ofNat 32 k) * g k

/-- Ten blocks of 1024 table rows are all 10240: the full one-hot product. -/
theorem blockSum_full0 (A0 : S8192.Idx → BitVec 32) (A1 : S10240x10240.Idx → EReal) (R : ℕ) (hR : R < 8192)
    (Q : ℕ) (hQ : Q < 10240) :
    blockSum 1024 (ohTerm (idxAt A0 R) (fun k => tabAt A1 k Q)) 10
      = ∑ k : Fin 10240, oh (A0 (ix1 ⟨R, hR⟩)) (BitVec.ofNat 32 k.val) * A1 (ix2 k ⟨Q, hQ⟩) := by
  rw [blockSum_eq_range, show 10 * 1024 = 10240 from rfl,
    ← Fin.sum_univ_eq_sum_range (fun k => ohTerm (idxAt A0 R) (fun k => tabAt A1 k Q) k) 10240]
  refine Finset.sum_congr rfl fun k _ => ?_
  dsimp only [ohTerm, idxAt, tabAt]
  rw [dif_pos hR, dif_pos ⟨k.isLt, hQ⟩]

/-! ## The blocks of the two inputs and of the output at a point -/

theorem blk0_0_at (A0 : S8192.Idx → BitVec 32) (t : Fin cfg0.N) (r : Fin 512) :
    ((cfg0.win 0).blk t).view.read (Elt Ideal) A0 (ix1 r) = idxAt A0 (512 * (t.val / 50) + r.val) := by
  have hb : 512 * (t.val / 50) + r.val < 8192 := by have := lt0 t; have := r.isLt; omega
  rw [blk0_0 (F := Ideal) A0 t r]
  unfold idxAt
  rw [dif_pos hb]

theorem blk0_1_at (A1 : Vec Ideal S10240x10240 .bf16) (t : Fin cfg0.N) (kk : Fin 1024) (q : Fin 2048) :
    ((cfg0.win 1).blk t).view.read (Elt Ideal) A1 (ix2 kk q)
      = tabAt A1 (1024 * (t.val % 10) + kk.val) (2048 * (t.val / 10 % 5) + q.val) := by
  have hb : 1024 * (t.val % 10) + kk.val < 10240 ∧ 2048 * (t.val / 10 % 5) + q.val < 10240 := by
    have := kk.isLt; have := q.isLt; omega
  rw [blk0_1 (F := Ideal) A1 t kk q]
  unfold tabAt
  rw [dif_pos hb]

/-- The output block of a point, read off any array of the output's shape. -/
theorem blk0_2_read (G : Vec Ideal S8192x10240 .bf16) (t : Fin cfg0.N) (r : Fin 512) (q : Fin 2048) :
    ((cfg0.win 2).blk t).view.read (Elt Ideal) G (ix2 r q)
      = G (ix2 ⟨512 * (t.val / 50) + r.val, by have := lt0 t; have := r.isLt; omega⟩
          ⟨2048 * (t.val / 10 % 5) + q.val, by have := q.isLt; omega⟩) := by
  rw [View.read_apply]
  show G (((cfg0.win 2).blk t).view.emb (ix2 r q)) = _
  rw [emb0_2]

/-! ## One step of the accumulation, over variables -/

/-- The accumulation payload at (r, q), given what its three operands hold there. -/
theorem acc_step0 (i : grid0.Coords) (x0 : Vec Ideal S512 .i32) (xs : Vec Ideal S512x2048 .f32)
    (x1 : Vec Ideal S1024x2048 .bf16) (r : Fin 512) (q : Fin 2048) (a : BitVec 32) (g : ℕ → EReal) (st : ℕ) (S : EReal)
    (hi : (i 2).val = st) (h0 : x0 (ix1 r) = a) (h1 : ∀ kk : Fin 1024, x1 (ix2 kk q) = g (1024 * st + kk.val))
    (hs : xs (ix2 r q) = S) :
    k0_pay2 (F := Ideal) i x0 xs x1 (ix2 r q) = S + ∑ kk : Fin 1024, ohTerm a g (1024 * st + kk.val) := by
  rw [pay2_0, hs, h0, hi]
  refine congrArg (S + ·) (Finset.sum_congr rfl fun kk _ => ?_)
  unfold ohTerm
  rw [h1 kk, Nat.add_comm]

section Region0
variable (V : (c : Dev nD) → (b : Ref sig .tc) → Buf (Elt Ideal) ((c : Thread nD τ).loc b))

/-- The index vector and the table as the region finds them. -/
abbrev arr0_0 (c : Dev nD) : S8192.Idx → BitVec 32 := V c (Pipeline.arrRef spec0 0)
abbrev arr0_1 (c : Dev nD) : Vec Ideal S10240x10240 .bf16 := V c (Pipeline.arrRef spec0 1)

/-- The partial one-hot product the accumulator holds at entry (r, q) after point n. -/
abbrev partial0 (c : Dev nD) (n : ℕ) (r : Fin 512) (q : Fin 2048) (s : ℕ) : EReal :=
  blockSum 1024 (ohTerm (idxAt (arr0_0 V c) (512 * (n / 50) + r.val))
    (fun k => tabAt (arr0_1 V c) k (2048 * (n / 10 % 5) + q.val))) s

/-- A first reduction step: the accumulator is the first block's product. -/
theorem acc0_A (c : Dev nD) (t : Fin cfg0.N) (h0 : t.val % 10 = 0) (r : Fin 512) (q : Fin 2048) :
    (outsAt0 V c t.val t.isLt).2 (ix2 r q) = partial0 V c t.val r q (t.val % 10 + 1) := by
  have h1 : ¬t.val % 10 = 9 := by omega
  rw [outsAt0_A V c t h0 h1]
  dsimp only
  rw [sout0_A_0_eq]
  refine (acc_step0 (grid0.coords t) (iblk0 V c 0 t) (k0_pay1 (F := Ideal)) (iblk0 V c 1 t) r q
    (idxAt (arr0_0 V c) (512 * (t.val / 50) + r.val)) (fun k => tabAt (arr0_1 V c) k (2048 * (t.val / 10 % 5) + q.val))
    (t.val % 10) 0 (coord0_2 t) (blk0_0_at (arr0_0 V c) t r) (fun kk => blk0_1_at (arr0_1 V c) t kk q)
    (pay1_0 (ix2 r q))).trans ?_
  dsimp only [partial0]
  rw [h0, blockSum_succ, blockSum_zero]

/-- A later reduction step: the accumulator of the point before plus this step's block. -/
theorem acc0_BC (c : Dev nD) (t : Fin cfg0.N) (h0 : ¬t.val % 10 = 0) (r : Fin 512) (q : Fin 2048)
    (ih : ∀ hp, (outsAt0 V c (t.val - 1) hp).2 (ix2 r q) = partial0 V c (t.val - 1) r q ((t.val - 1) % 10 + 1)) :
    (outsAt0 V c t.val t.isLt).2 (ix2 r q) = partial0 V c t.val r q (t.val % 10 + 1) := by
  have e50 : (t.val - 1) / 50 = t.val / 50 := by omega
  have e10 : (t.val - 1) / 10 % 5 = t.val / 10 % 5 := by omega
  have em : (t.val - 1) % 10 + 1 = t.val % 10 := by omega
  have ih' := ih (Nat.lt_of_le_of_lt (Nat.sub_le _ _) t.isLt)
  dsimp only [partial0] at ih' ⊢
  rw [e50, e10, em] at ih'
  by_cases h1 : t.val % 10 = 9
  · rw [outsAt0_C V c t h0 h1]
    dsimp only
    rw [sout0_C_0_eq]
    refine (acc_step0 (grid0.coords t) (iblk0 V c 0 t) (outsAt0 V c (t.val - 1) (Nat.lt_of_le_of_lt (Nat.sub_le _ _) t.isLt)).2
      (iblk0 V c 1 t) r q
      (idxAt (arr0_0 V c) (512 * (t.val / 50) + r.val)) (fun k => tabAt (arr0_1 V c) k (2048 * (t.val / 10 % 5) + q.val))
      (t.val % 10) _ (coord0_2 t) (blk0_0_at (arr0_0 V c) t r) (fun kk => blk0_1_at (arr0_1 V c) t kk q) ih').trans ?_
    rw [blockSum_succ]
  · rw [outsAt0_B V c t h0 h1]
    dsimp only
    rw [sout0_B_0_eq]
    refine (acc_step0 (grid0.coords t) (iblk0 V c 0 t) (outsAt0 V c (t.val - 1) (Nat.lt_of_le_of_lt (Nat.sub_le _ _) t.isLt)).2
      (iblk0 V c 1 t) r q
      (idxAt (arr0_0 V c) (512 * (t.val / 50) + r.val)) (fun k => tabAt (arr0_1 V c) k (2048 * (t.val / 10 % 5) + q.val))
      (t.val % 10) _ (coord0_2 t) (blk0_0_at (arr0_0 V c) t r) (fun kk => blk0_1_at (arr0_1 V c) t kk q) ih').trans ?_
    rw [blockSum_succ]

/-- THE ACCUMULATOR after every point: the partial one-hot product over the reduction steps so far. -/
theorem acc0_eq (c : Dev nD) (n : ℕ) : ∀ (hn : n < cfg0.N) (r : Fin 512) (q : Fin 2048),
    (outsAt0 V c n hn).2 (ix2 r q) = partial0 V c n r q (n % 10 + 1) := by
  induction n using Nat.strong_induction_on with
  | _ n ih =>
    intro hn r q
    by_cases h0 : n % 10 = 0
    · exact acc0_A V c ⟨n, hn⟩ h0 r q
    · exact acc0_BC V c ⟨n, hn⟩ h0 r q (fun hp => ih (n - 1) (by omega) hp r q)

/-- At a last reduction step the output block is the accumulator (the change of format is the identity). -/
theorem out0_eq_acc (c : Dev nD) (t : Fin cfg0.N) (h0 : ¬t.val % 10 = 0) (h1 : t.val % 10 = 9) (y : S512x2048.Idx) :
    (outsAt0 V c t.val t.isLt).1 y = (outsAt0 V c t.val t.isLt).2 y := by
  rw [outsAt0_C V c t h0 h1]
  dsimp only
  rw [out0_C_2_eq, sout0_C_0_eq]
  exact pay3_0 _ y

/-- WHAT A WRITING POINT WRITES BACK is its block of the one-hot row selection. -/
theorem flushed0_eq (c : Dev nD) (t : Fin cfg0.N) (hf : (cfg0.win 2).flush t = true) :
    (dat0 V c).flushed 2 t
      = ((cfg0.win 2).blk t).view.read (Elt Ideal) (Cert.Spec.G0 (arr0_0 V c) (arr0_1 V c)) := by
  have h1 : t.val % 10 = 9 := (flush0_2 t).mp hf
  have h0 : ¬t.val % 10 = 0 := by omega
  show (cfg0.win 2).cut (grid0.coords t) ((dat0 V c).after 2 t) = _
  rw [after0_2]
  funext j
  obtain ⟨r, q, rfl⟩ : ∃ (r : Fin 512) (q : Fin 2048), j = ix2 r q := ⟨j 0, j 1, eq_ix2 j⟩
  refine Eq.trans ?_ (blk0_2_read (Cert.Spec.G0 (arr0_0 V c) (arr0_1 V c)) t r q).symm
  show (outsAt0 V c t.val t.isLt).1 (ix2 r q) = _
  rw [out0_eq_acc V c t h0 h1, acc0_eq V c t.val t.isLt r q, h1, Cert.Spec.G0_apply]
  exact blockSum_full0 (arr0_0 V c) (arr0_1 V c) _ _ _ _

/-- THE ARRAY the first call writes: the one-hot row selection of the table by the index vector. -/
theorem arr0 (c : Dev nD) :
    (dat0 (F := Ideal) V c).arrAt 2 cfg0.N
      = Cert.Spec.G0 (V c (Pipeline.arrRef spec0 0)) (V c (Pipeline.arrRef spec0 1)) :=
  (dat0 V c).arrAt_eq_of_cover 2 (Cert.Spec.G0 (arr0_0 V c) (arr0_1 V c)) (fun t hf => flushed0_eq V c t hf)
    (fun y => ⟨pt0 y, cover0_2 y⟩)

end Region0

end Cert.KernelIdeal.Hand

end
-- ==== Proof.KernelIdeal.Pieces1.lean ====
/-
  Call 1: what each case's found pieces are, as the body's named payloads of the blocks it loaded. The first
  step's accumulator is the step's payload over the zeroed accumulator; a later step's is the payload over the
  accumulator the step before left; the last step's output block is that, rounded to the output's format.
-/
import proofs.«100679_j35734127902881_1_alg».proof.Proof.KernelIdeal.R1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem sout1_A_0_eq (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : cond1_0 i) (hc1 : ¬cond1_1 i) (x0 : Vec F S512 .i32) (x1 : Vec F S512x2048 .bf16) :
    sout1_A_0 c i arg3 harg3 arg4 harg4 arg5 harg5 arg6 harg6 hc0 hc1 x0 x1 = k1_pay2 i x0 x1 (k1_pay1 (F := F)) := by
  have hz1 : (![0] : Fin 1 → ℕ) = fun _ => 0 := by funext a; fin_cases a; rfl
  have hz2 : (![0, 0] : Fin 2 → ℕ) = fun _ => 0 := by funext a; fin_cases a <;> rfl
  unfold sout1_A_0
  rw [View.read_writes_eq_canon _ _ _ (scover1_A_0 c i arg3 harg3 arg4 harg4 arg5 harg5 arg6 harg6 hc0 hc1 x0 x1)]
  unfold kernelRun1_A
  dsimp only
  sl_unfold_words
  refine (View.canon_cons_unit_zero (S := S512x512) hz2 _ _ _).trans ?_
  rw [View.readCov_unit_zero (S := S512x512) _ hz2]
  simp only [View.readAt_eq_ld, harg3.read_unread, harg4.read_unread, harg6.read_unread]
  simp only [View.ld_unit_zero (S := S512) hz1, View.ld_unit_zero (S := S512x2048) hz2, View.ld_unit_zero (S := S512x512) hz2]

theorem sout1_B_0_eq (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : ¬cond1_1 i) (x0 : Vec F S512 .i32) (x1 : Vec F S512x2048 .bf16) (xs0 : Vec F S512x512 .f32) :
    sout1_B_0 c i arg3 harg3 arg4 harg4 arg5 harg5 arg6 harg6 hc0 hc1 x0 x1 xs0 = k1_pay2 i x0 x1 xs0 := by
  have hz1 : (![0] : Fin 1 → ℕ) = fun _ => 0 := by funext a; fin_cases a; rfl
  have hz2 : (![0, 0] : Fin 2 → ℕ) = fun _ => 0 := by funext a; fin_cases a <;> rfl
  unfold sout1_B_0
  rw [View.read_writes_eq_canon _ _ _ (scover1_B_0 c i arg3 harg3 arg4 harg4 arg5 harg5 arg6 harg6 hc0 hc1 x0 x1 xs0)]
  unfold kernelRun1_B
  dsimp only
  sl_unfold_words
  refine (View.canon_cons_unit_zero (S := S512x512) hz2 _ _ _).trans ?_
  simp only [View.readAt_eq_ld, harg3.read_unread, harg4.read_unread, harg6.read_unread]
  simp only [View.ld_unit_zero (S := S512) hz1, View.ld_unit_zero (S := S512x2048) hz2, View.ld_unit_zero (S := S512x512) hz2]

theorem sout1_C_0_eq (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) :
    sout1_C_0 c i arg3 harg3 arg4 harg4 arg5 harg5 arg6 harg6 hc0 hc1 x0 x1 xs0 = k1_pay2 i x0 x1 xs0 := by
  have hz1 : (![0] : Fin 1 → ℕ) = fun _ => 0 := by funext a; fin_cases a; rfl
  have hz2 : (![0, 0] : Fin 2 → ℕ) = fun _ => 0 := by funext a; fin_cases a <;> rfl
  unfold sout1_C_0
  rw [View.read_writes_eq_canon _ _ _ (scover1_C_0 c i arg3 harg3 arg4 harg4 arg5 harg5 arg6 harg6 hc0 hc1 x0 x1 xs0)]
  unfold kernelRun1_C
  dsimp only
  sl_unfold_words
  refine (View.canon_cons_unit_zero (S := S512x512) hz2 _ _ _).trans ?_
  simp only [View.readAt_eq_ld, harg3.read_unread, harg4.read_unread, harg6.read_unread]
  simp only [View.ld_unit_zero (S := S512) hz1, View.ld_unit_zero (S := S512x2048) hz2, View.ld_unit_zero (S := S512x512) hz2]

theorem out1_C_2_eq (c : Dev nD) (i : grid1.Coords) (arg3 : Memref sig .tc .vmem S512 .i32) (harg3 : arg3.IsWhole) (arg4 : Memref sig .tc .vmem S512x2048 .bf16) (harg4 : arg4.IsWhole) (arg5 : Memref sig .tc .vmem S512x512 .bf16) (harg5 : arg5.IsWhole) (arg6 : Memref sig .tc .vmem S512x512 .f32) (harg6 : arg6.IsWhole) (hc0 : ¬cond1_0 i) (hc1 : cond1_1 i) (x0 : Vec F S512 .i32) (x1 : Vec F S512x2048 .bf16) (xs0 : Vec F S512x512 .f32) :
    out1_C_2 c i arg3 harg3 arg4 harg4 arg5 harg5 arg6 harg6 hc0 hc1 x0 x1 xs0 = k1_pay3 (k1_pay2 i x0 x1 xs0) := by
  have hz1 : (![0] : Fin 1 → ℕ) = fun _ => 0 := by funext a; fin_cases a; rfl
  have hz2 : (![0, 0] : Fin 2 → ℕ) = fun _ => 0 := by funext a; fin_cases a <;> rfl
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  refine (View.canon_cons_unit_zero (S := S512x512) hz2 _ _ _).trans ?_
  rw [View.readCov_unit_zero (S := S512x512) _ hz2]
  simp only [View.readAt_eq_ld, harg3.read_unread, harg4.read_unread, harg6.read_unread]
  simp only [View.ld_unit_zero (S := S512) hz1, View.ld_unit_zero (S := S512x2048) hz2, View.ld_unit_zero (S := S512x512) hz2]

end Cert.KernelIdeal.Hand

end
-- ==== Proof.PayloadsIdeal1.lean ====
import proofs.«100679_j35734127902881_1_alg».proof.Proof.PayloadsIdeal0

noncomputable section

open scoped BigOperators

namespace Cert.KernelIdeal.Pay

open Idealize.ShloMosaic Idealize.ShloMosaic.ValueIdx Cert.KernelIdeal Cert.KernelIdeal.Gen

/-- The second call's reset payload is zero everywhere. -/
theorem pay1_1 (y : S512x512.Idx) : k1_pay1 (F := Ideal) y = 0 := by
  unfold k1_pay1
  simp only [shapeCast_self]
  exact Ideal.ofBits_zero_f32

/-- The second call's write-back payload is the accumulator itself. -/
theorem pay3_1 (v25 : Vec Ideal S512x512 .f32) (y : S512x512.Idx) : k1_pay3 (F := Ideal) v25 y = v25 y := rfl

/-- The second call's contraction: rows of the left operand against rows of the right (both contract their second axis). -/
abbrev D1 : DotDims S512x2048 S512x2048 S512x512 := dot_S512x2048_S512x2048_S512x512_1_1_0_0_n_n

theorem D1_lhs_0 (j : S512x512.Idx) (k : D1.contr.Idx) : (D1.lhsIdx j k 0).val = (j 0).val := by
  unfold DotDims.lhsIdx
  rw [dif_neg (show ¬(0 : Fin S512x2048.rank) ∈ D1.lhsBatch by decide), dif_pos (show (0 : Fin S512x2048.rank) ∈ D1.lhsNonContracting by decide)]
  rfl
theorem D1_lhs_1 (j : S512x512.Idx) (k : D1.contr.Idx) : (D1.lhsIdx j k 1).val = (k ⟨0, by decide⟩).val :=
  D1.lhsIdx_val_of_single rfl j k
theorem D1_rhs_0 (j : S512x512.Idx) (k : D1.contr.Idx) : (D1.rhsIdx j k 0).val = (j 1).val := by
  unfold DotDims.rhsIdx
  rw [dif_neg (show ¬(0 : Fin S512x2048.rank) ∈ D1.rhsBatch by decide), dif_pos (show (0 : Fin S512x2048.rank) ∈ D1.rhsNonContracting by decide)]
  rfl
theorem D1_rhs_1 (j : S512x512.Idx) (k : D1.contr.Idx) : (D1.rhsIdx j k 1).val = (k ⟨0, by decide⟩).val :=
  D1.rhsIdx_val_of_single rfl j k

/-- A product of `x` with the transpose of `w` into the zero accumulator, read at `(r, j)`: the sum over the shared second coordinate. -/
theorem matmul1_apply (x : FVec Ideal S512x2048 .bf16) (w : FVec Ideal S512x2048 .bf16) (r j : Fin 512) :
    matmul D1 none x w (constant S512x512 .f32 0x00000000#32) (ix2 r j) = ∑ ll : Fin 2048, x (ix2 r ll) * w (ix2 j ll) := by
  simp only [matmul]
  rw [Ideal.matmul_constant_zero_apply, ← Equiv.sum_comp (contrEquiv1 D1 2048 rfl rfl).symm]
  refine Finset.sum_congr rfl fun ll _ => ?_
  have hk := contrEquiv1_symm_val D1 2048 rfl rfl ll
  have el : D1.lhsIdx (ix2 r j) ((contrEquiv1 D1 2048 rfl rfl).symm ll) = ix2 r ll := funext fun a => Fin.ext (by
    match a with
    | ⟨0, _⟩ => exact D1_lhs_0 _ _
    | ⟨1, _⟩ => exact (D1_lhs_1 _ _).trans hk)
  have er : D1.rhsIdx (ix2 r j) ((contrEquiv1 D1 2048 rfl rfl).symm ll) = ix2 j ll := funext fun a => Fin.ext (by
    match a with
    | ⟨0, _⟩ => exact D1_rhs_0 _ _
    | ⟨1, _⟩ => exact (D1_rhs_1 _ _).trans hk)
  rw [el, er]

/-- The word the kernel compares a column's index with: lane `ll` of reduction step `k` is `ll + 2048·k`, as 32-bit words. -/
theorem word1 (ll k : ℕ) : IntOp.addi (BitVec.ofNat 32 ll) (Scalar.muli (BitVec.ofNat 32 k) 2048#32) = BitVec.ofNat 32 (ll + 2048 * k) := by
  show BitVec.ofNat 32 ll + BitVec.ofNat 32 k * 2048#32 = _
  rw [BitVec.ofNat_add, BitVec.ofNat_mul, BitVec.mul_comm]

/-- The second call's accumulation step at `(r, j)`: the accumulator plus row `r` of the gathered-rows block against the
    one-hot row of column `j` at reduction step `i 2`. -/
theorem pay2_1 (i : grid1.Coords) (v3 : Vec Ideal S512 .i32) (v14 : Vec Ideal S512x2048 .bf16) (v16 : Vec Ideal S512x512 .f32)
    (r j : Fin 512) :
    k1_pay2 (F := Ideal) i v3 v14 v16 (ix2 r j)
      = v16 (ix2 r j) + ∑ ll : Fin 2048, v14 (ix2 r ll) * oh (v3 (ix1 j)) (BitVec.ofNat 32 (ll.val + 2048 * (i 2).val)) := by
  unfold k1_pay2
  simp only [shapeCast_self]
  refine (addf_apply _ _ _).trans (congrArg (v16 (ix2 r j) + ·) ?_)
  refine (matmul1_apply _ _ r j).trans (Finset.sum_congr rfl fun ll _ => congrArg (v14 (ix2 r ll) * ·) ?_)
  have hA : broadcastTo S512x2048 (shapeCast S512x1 v3 shapeCasts_S512_S512x1) broadcasts_S512x1_S512x2048 (ix2 j ll) = v3 (ix1 j) :=
    (broadcastTo_a1_ab_apply _ _ j ll).trans (shapeCast_a_a1_apply v3 _ j 0)
  have hB : addi (iota Kind.tc S512x2048 32 [1] iota_S512x2048_d1_w32) (broadcast S512x2048 (Scalar.muli (BitVec.ofNat 32 (i 2).val) 2048#32)) (ix2 j ll)
      = BitVec.ofNat 32 (ll.val + 2048 * (i 2).val) :=
    (congrArg (IntOp.addi · _) (iota_single_apply .tc S512x2048 32 1 _ (ix2 j ll))).trans (word1 ll.val (i 2).val)
  exact congrArg₂ oh hA hB

end Cert.KernelIdeal.Pay
end
-- ==== Proof.KernelIdeal.Val1.lean ====
/-
  The value of call 1. Its grid is 16 × 16 × 5: point `t` works on row block `t / 80`, column block `t / 5 % 16` and run
  `t % 5` of 2048 table columns, and a VMEM accumulator carries each entry's partial contraction across the five runs. An
  entry's contraction over the 10240 table columns is cut into five runs (`part1`: the sum over the first `m` runs, as a
  sum over a range of naturals, so that one more run is `Finset.sum_range_add`); the accumulation payload, read at an
  index, adds exactly the next run, the one-hot weight comparing the column's index with the column number `2048·(t % 5) + ll`;
  so after point `n` the accumulator holds the sum through run `n % 5` (by induction on the point). At the last run the
  output block is stored with the accumulator, which is then the whole contraction, and the write-backs tile the output array.
-/
import proofs.«100679_j35734127902881_1_alg».proof.Proof.KernelIdeal.Pieces1
import proofs.«100679_j35734127902881_1_alg».proof.Proof.KernelIdeal.Blocks
import proofs.«100679_j35734127902881_1_alg».proof.Proof.PayloadsIdeal1
import proofs.«100679_j35734127902881_1_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## Column selection by a one-hot product, one run of 2048 table columns at a time -/

section Math
variable (B0 : S8192.Idx → BitVec 32) (B1 : S8192x10240.Idx → EReal)

/-- One term of entry `(i, j)`: table column `l` of row `i` against the one-hot weight of `j`'s index at `l`, with the three
    positions as naturals: zero outside the arrays. -/
def termN1 (i j l : ℕ) : EReal :=
  if h : i < 8192 ∧ j < 8192 ∧ l < 10240 then
    B1 (ix2 ⟨i, h.1⟩ ⟨l, h.2.2⟩) * Pay.oh (B0 (ix1 ⟨j, h.2.1⟩)) (BitVec.ofNat 32 l)
  else 0

/-- Entry `(i, j)`'s sum over the first `m` runs of 2048 table columns. -/
def part1 (i j m : ℕ) : EReal := ∑ l ∈ Finset.range (2048 * m), termN1 B0 B1 i j l

theorem part1_zero (i j : ℕ) : part1 B0 B1 i j 0 = 0 := by
  unfold part1; rw [Nat.mul_zero, Finset.range_zero, Finset.sum_empty]

/-- One more run: the sum so far plus the run's 2048 terms. -/
theorem part1_succ (i j m : ℕ) :
    part1 B0 B1 i j (m + 1) = part1 B0 B1 i j m + ∑ ll : Fin 2048, termN1 B0 B1 i j (2048 * m + ll.val) := by
  unfold part1
  rw [show 2048 * (m + 1) = 2048 * m + 2048 from by omega, Finset.sum_range_add,
    Finset.sum_range (fun x => termN1 B0 B1 i j (2048 * m + x))]

/-- All five runs: the whole contraction. -/
theorem part1_full (i j : Fin 8192) :
    part1 B0 B1 i.val j.val 5 = ∑ l : Fin 10240, B1 (ix2 i l) * Pay.oh (B0 (ix1 j)) (BitVec.ofNat 32 l.val) := by
  unfold part1
  rw [show 2048 * 5 = 10240 from rfl, Finset.sum_range (fun x => termN1 B0 B1 i.val j.val x)]
  refine Finset.sum_congr rfl fun l _ => ?_
  unfold termN1
  rw [dif_pos ⟨i.isLt, j.isLt, l.isLt⟩]

/-- The accumulation step of call 1 on blocks of the two arrays: with the index tile of column block `jb` and the tile
    (row block `ib`, run `kb`) of the table loaded at reduction step `kb`, an accumulator holding entry
    `(512·ib + r, 512·jb + jj)`'s sum over the runs before `kb` ends holding the sum through `kb`. -/
theorem pay1_part (ib jb kb : ℕ) (hib : ib < 16) (hjb : jb < 16) (hkb : kb < 5)
    (i : grid1.Coords) (hi : (i 2).val = kb)
    (x0 : Vec Ideal S512 .i32) (x1 : Vec Ideal S512x2048 .bf16) (acc : Vec Ideal S512x512 .f32)
    (h0 : ∀ (jj : Fin 512) (h : 512 * jb + jj.val < 8192), x0 (ix1 jj) = B0 (ix1 ⟨512 * jb + jj.val, h⟩))
    (h1 : ∀ (r : Fin 512) (ll : Fin 2048) (h : 512 * ib + r.val < 8192) (h' : 2048 * kb + ll.val < 10240),
      x1 (ix2 r ll) = B1 (ix2 ⟨512 * ib + r.val, h⟩ ⟨2048 * kb + ll.val, h'⟩))
    (r jj : Fin 512) (hacc : acc (ix2 r jj) = part1 B0 B1 (512 * ib + r.val) (512 * jb + jj.val) kb) :
    k1_pay2 (F := Ideal) i x0 x1 acc (ix2 r jj) = part1 B0 B1 (512 * ib + r.val) (512 * jb + jj.val) (kb + 1) := by
  have hr : 512 * ib + r.val < 8192 := by have := r.isLt; omega
  have hj : 512 * jb + jj.val < 8192 := by have := jj.isLt; omega
  rw [Pay.pay2_1, part1_succ, hacc, hi]
  refine congrArg (part1 B0 B1 (512 * ib + r.val) (512 * jb + jj.val) kb + ·) (Finset.sum_congr rfl fun ll _ => ?_)
  have hl : 2048 * kb + ll.val < 10240 := by have := ll.isLt; omega
  unfold termN1
  rw [dif_pos ⟨hr, hj, hl⟩, h1 r ll hr hl, h0 jj hj, Nat.add_comm ll.val (2048 * kb)]

end Math

/-! ## The accumulator after each point -/

section AnyF
variable {F : FTy → Type} [FloatOps F]
variable (V : (c : Dev nD) → (b : Ref sig .tc) → Buf (Elt F) ((c : Thread nD τ).loc b))

/-- First step of an output block: the accumulator is the step's payload over the zeroed accumulator. -/
theorem acc1_A (c : Dev nD) (t : Fin cfg1.N) (h0 : t.val % 5 = 0) (h1 : ¬t.val % 5 = 4) :
    (outsAt1 V c t.val t.isLt).2 = k1_pay2 (grid1.coords t) (iblk1 V c 0 t) (iblk1 V c 1 t) (k1_pay1 (F := F)) :=
by
  have e := congrArg Prod.snd (outsAt1_A V c t h0 h1)
  dsimp only at e
  exact e.trans (sout1_A_0_eq c (grid1.coords t) (ms1_0 t) (hs1_0 t) (ms1_1 t) (hs1_1 t) (ms1_2 t) (hs1_2 t) scM1_0
      (Memref.isWhole_whole _) ((hcond1_0 t).mpr h0) (fun h => h1 ((hcond1_1 t).mp h)) (iblk1 V c 0 t) (iblk1 V c 1 t))

/-- A middle step: the payload over the accumulator the step before left. -/
theorem acc1_B (c : Dev nD) (t : Fin cfg1.N) (h0 : ¬t.val % 5 = 0) (h1 : ¬t.val % 5 = 4) :
    (outsAt1 V c t.val t.isLt).2 = k1_pay2 (grid1.coords t) (iblk1 V c 0 t) (iblk1 V c 1 t)
      (outsAt1 V c (t.val - 1) (Nat.lt_of_le_of_lt (Nat.sub_le _ _) t.isLt)).2 :=
by
  have e := congrArg Prod.snd (outsAt1_B V c t h0 h1)
  dsimp only at e
  exact e.trans (sout1_B_0_eq c (grid1.coords t) (ms1_0 t) (hs1_0 t) (ms1_1 t) (hs1_1 t) (ms1_2 t) (hs1_2 t) scM1_0
      (Memref.isWhole_whole _) (fun h => h0 ((hcond1_0 t).mp h)) (fun h => h1 ((hcond1_1 t).mp h)) (iblk1 V c 0 t) (iblk1 V c 1 t)
      (outsAt1 V c (t.val - 1) (Nat.lt_of_le_of_lt (Nat.sub_le _ _) t.isLt)).2)

/-- The last step: the same for the accumulator, -/
theorem acc1_C (c : Dev nD) (t : Fin cfg1.N) (h0 : ¬t.val % 5 = 0) (h1 : t.val % 5 = 4) :
    (outsAt1 V c t.val t.isLt).2 = k1_pay2 (grid1.coords t) (iblk1 V c 0 t) (iblk1 V c 1 t)
      (outsAt1 V c (t.val - 1) (Nat.lt_of_le_of_lt (Nat.sub_le _ _) t.isLt)).2 :=
by
  have e := congrArg Prod.snd (outsAt1_C V c t h0 h1)
  dsimp only at e
  exact e.trans (sout1_C_0_eq c (grid1.coords t) (ms1_0 t) (hs1_0 t) (ms1_1 t) (hs1_1 t) (ms1_2 t) (hs1_2 t) scM1_0
      (Memref.isWhole_whole _) (fun h => h0 ((hcond1_0 t).mp h)) ((hcond1_1 t).mpr h1) (iblk1 V c 0 t) (iblk1 V c 1 t)
      (outsAt1 V c (t.val - 1) (Nat.lt_of_le_of_lt (Nat.sub_le _ _) t.isLt)).2)

/-- and the output block is stored with that same value, in the output's float format. -/
theorem out1_C (c : Dev nD) (t : Fin cfg1.N) (h0 : ¬t.val % 5 = 0) (h1 : t.val % 5 = 4) :
    (outsAt1 V c t.val t.isLt).1 = k1_pay3 (outsAt1 V c t.val t.isLt).2 :=
by
  have e := congrArg Prod.fst (outsAt1_C V c t h0 h1)
  dsimp only at e
  exact (e.trans (out1_C_2_eq c (grid1.coords t) (ms1_0 t) (hs1_0 t) (ms1_1 t) (hs1_1 t) (ms1_2 t) (hs1_2 t) scM1_0
      (Memref.isWhole_whole _) (fun h => h0 ((hcond1_0 t).mp h)) ((hcond1_1 t).mpr h1) (iblk1 V c 0 t) (iblk1 V c 1 t)
      (outsAt1 V c (t.val - 1) (Nat.lt_of_le_of_lt (Nat.sub_le _ _) t.isLt)).2)).trans (congrArg k1_pay3 (acc1_C V c t h0 h1).symm)

end AnyF

/-! ## The accumulator's invariant, the write-back and the output array, over the extended reals -/

section AtIdeal
variable (V : (c : Dev nD) → (b : Ref sig .tc) → Buf (Elt Ideal) ((c : Thread nD τ).loc b))

/-- One step at point `t` = (row block `t / 80`, column block `t / 5 % 16`, run `t % 5`) on the windows' blocks. -/
theorem step1 (c : Dev nD) (t : Fin cfg1.N) (acc : Vec Ideal S512x512 .f32) (r jj : Fin 512)
    (hacc : acc (ix2 r jj) = part1 (V c (Pipeline.arrRef spec1 0)) (V c (Pipeline.arrRef spec1 1))
      (512 * (t.val / 80) + r.val) (512 * (t.val / 5 % 16) + jj.val) (t.val % 5)) :
    k1_pay2 (F := Ideal) (grid1.coords t) (iblk1 V c 0 t) (iblk1 V c 1 t) acc (ix2 r jj)
      = part1 (V c (Pipeline.arrRef spec1 0)) (V c (Pipeline.arrRef spec1 1))
          (512 * (t.val / 80) + r.val) (512 * (t.val / 5 % 16) + jj.val) (t.val % 5 + 1) :=
  pay1_part (V c (Pipeline.arrRef spec1 0)) (V c (Pipeline.arrRef spec1 1))
    (t.val / 80) (t.val / 5 % 16) (t.val % 5) (by have := Blocks.lt1 t; omega) (by omega) (by omega)
    (grid1.coords t) (Blocks.coord1_2 t)
    (iblk1 V c 0 t) (iblk1 V c 1 t) acc
    (fun jj _ => Blocks.blk1_0 (F := Ideal) (V c (Pipeline.arrRef spec1 0)) t jj)
    (fun r ll _ _ => Blocks.blk1_1 (F := Ideal) (V c (Pipeline.arrRef spec1 1)) t r ll)
    r jj hacc

/-- One point: the accumulator's entry goes from its sum over the runs before `t % 5` to the sum through it. -/
theorem acc1_step (c : Dev nD) (t : Fin cfg1.N) (r jj : Fin 512)
    (ih : ¬t.val % 5 = 0 → (outsAt1 V c (t.val - 1) (Nat.lt_of_le_of_lt (Nat.sub_le _ _) t.isLt)).2 (ix2 r jj)
      = part1 (V c (Pipeline.arrRef spec1 0)) (V c (Pipeline.arrRef spec1 1))
          (512 * (t.val / 80) + r.val) (512 * (t.val / 5 % 16) + jj.val) (t.val % 5)) :
    (outsAt1 V c t.val t.isLt).2 (ix2 r jj)
      = part1 (V c (Pipeline.arrRef spec1 0)) (V c (Pipeline.arrRef spec1 1))
          (512 * (t.val / 80) + r.val) (512 * (t.val / 5 % 16) + jj.val) (t.val % 5 + 1) := by
  by_cases h0 : t.val % 5 = 0
  · have h1 : ¬t.val % 5 = 4 := by omega
    refine (congrFun (acc1_A V c t h0 h1) (ix2 r jj)).trans (step1 V c t (k1_pay1 (F := Ideal)) r jj ?_)
    rw [Pay.pay1_1, h0, part1_zero]
  · by_cases h1 : t.val % 5 = 4
    · exact (congrFun (acc1_C V c t h0 h1) (ix2 r jj)).trans (step1 V c t _ r jj (ih h0))
    · exact (congrFun (acc1_B V c t h0 h1) (ix2 r jj)).trans (step1 V c t _ r jj (ih h0))

/-- THE INVARIANT: after point `n` the accumulator's entry `(r, jj)` holds entry `(512·(n/80) + r, 512·(n/5%16) + jj)`'s sum
    over the runs `0 … n % 5` of table columns. -/
theorem acc1_inv (c : Dev nD) : ∀ (n : ℕ) (hn : n < cfg1.N) (r jj : Fin 512),
    (outsAt1 V c n hn).2 (ix2 r jj)
      = part1 (V c (Pipeline.arrRef spec1 0)) (V c (Pipeline.arrRef spec1 1))
          (512 * (n / 80) + r.val) (512 * (n / 5 % 16) + jj.val) (n % 5 + 1)
  | 0, hn, r, jj => acc1_step V c ⟨0, hn⟩ r jj (fun h => absurd rfl h)
  | n + 1, hn, r, jj => acc1_step V c ⟨n + 1, hn⟩ r jj (fun h => by
      have ih := acc1_inv c n (Nat.lt_of_succ_lt hn) r jj
      have h' : ¬(n + 1) % 5 = 0 := h
      show (outsAt1 V c n _).2 (ix2 r jj) = part1 _ _ (512 * ((n + 1) / 80) + r.val) (512 * ((n + 1) / 5 % 16) + jj.val) ((n + 1) % 5)
      rw [ih, show (n + 1) / 80 = n / 80 from by omega, show (n + 1) / 5 = n / 5 from by omega,
        show (n + 1) % 5 = n % 5 + 1 from by omega])

/-- WHAT A WRITING-BACK POINT WRITES: its block of the column-selected array. -/
theorem flushed1_2 (c : Dev nD) (t : Fin cfg1.N) (hf : (cfg1.win 2).flush t = true) :
    (dat1 V c).flushed 2 t = ((cfg1.win 2).blk t).view.read (Elt Ideal)
      (Cert.Spec.G1 (V c (Pipeline.arrRef spec1 0)) (V c (Pipeline.arrRef spec1 1))) := by
  have h1 : t.val % 5 = 4 := (flush1_2 t).mp hf
  have h0 : ¬t.val % 5 = 0 := by omega
  have ht := Blocks.lt1 t
  show (cfg1.win 2).cut (grid1.coords t) ((dat1 V c).after 2 t) = _
  rw [after1_2]
  funext y
  obtain ⟨r, jj, rfl⟩ : ∃ (r jj : Fin 512), y = ix2 r jj := ⟨y 0, y 1, eq_ix2 (n0 := 512) (n1 := 512) y⟩
  show (outsAt1 V c t.val t.isLt).1 (ix2 r jj) = _
  rw [out1_C V c t h0 h1, Pay.pay3_1, acc1_inv V c t.val t.isLt r jj, h1, View.read_apply]
  show _ = Cert.Spec.G1 _ _ (((cfg1.win 2).blk t).view.emb (ix2 r jj))
  rw [Blocks.emb1_2 t r jj, Cert.Spec.G1_apply]
  exact part1_full _ _ ⟨512 * (t.val / 80) + r.val, by have := r.isLt; omega⟩ ⟨512 * (t.val / 5 % 16) + jj.val, by have := jj.isLt; omega⟩

/-- THE OUTPUT ARRAY of call 1 after its run: the columns of its second operand selected by the index vector. -/
theorem arr1 (c : Dev nD) : (dat1 (F := Ideal) V c).arrAt 2 cfg1.N
    = Cert.Spec.G1 (V c (Pipeline.arrRef spec1 0)) (V c (Pipeline.arrRef spec1 1)) :=
  (dat1 V c).arrAt_eq_of_cover 2 _ (fun t hf => flushed1_2 V c t hf) (fun y => ⟨Blocks.pt1 y, Blocks.cover1_2 y⟩)

end AtIdeal

end Cert.KernelIdeal.Hand
end
-- ==== Proof.RefGather.lean ====
/-
  The transport plan gathered twice — rows by the first index vector, then columns by the second — read at an
  index, for index vectors whose entries lie in [0, 10000).

  A gather reads, on each operand axis, a clamped start index plus an offset coordinate. The row gather takes
  whole rows of the 10000 × 10000 plan: on axis 0 the start index is the index word read signed and clamped
  into [0, 9999], on axis 1 the offset is the column. The column gather takes whole columns of the resulting
  8192 × 10000 array: on axis 0 the offset is the row, on axis 1 the start index is the word clamped as before.
  The index words are first normalised the way negative indices are (a negative word has 10000 added); on a
  nonnegative word that is the identity, and a word in [0, 10000) is its own clamp. So entry (i, j) of the
  doubly gathered plan is the plan's entry (idx1 i, idx2 j).
-/
import proofs.«100679_j35734127902881_1_alg».proof.Proof.Gen.ReferenceIdeal.Read

noncomputable section

namespace Cert.ReferenceIdeal.RefGather

open Cert.ReferenceIdeal Cert.ReferenceIdeal.Gen Idealize.ShloMosaic Idealize.ShloMosaic.ValueIdx Idealize.SL.Sem

/-! ## Words in range -/

/-- A 32-bit word whose signed value lies in [0, 10000) has that value as its unsigned value. -/
theorem toNat_of_range (w : BitVec 32) (h : 0 ≤ w.toInt ∧ w.toInt < 10000) :
    w.toInt.toNat = w.toNat ∧ w.toNat < 10000 := by
  have hc := BitVec.toInt_eq_toNat_cond w
  have hlt := w.isLt
  split at hc <;> omega

/-- Such a word is its own clamp into [0, 9999]. -/
theorem clamp_of_range (w : BitVec 32) (h : 0 ≤ w.toInt ∧ w.toInt < 10000) :
    min w.toInt.toNat 9999 = w.toNat := by
  have := toNat_of_range w h; omega

/-! ## The two gathers at an index, for any operand and any start indices -/

section Gathers
variable {α : Type}

/-- Rows of a 10000 × 10000 array selected by an 8192 × 1 array of start indices: entry (i, c) is the operand's
    entry (clamped start index i, c). -/
theorem rowGather_apply (x : S10000x10000.Idx → α) (idx : IVec S8192x1 32) (i : Fin 8192) (c : Fin 10000) :
    Host.gather gather_S10000x10000_S8192x1_S8192x10000_1_0_n_n_0_1_110000 x idx (ix2 i c)
      = x (ix2 (⟨min (idx (ix2 i (0 : Fin 1))).toInt.toNat 9999, by omega⟩ : Fin 10000) c) := by
  unfold Host.gather
  refine congrArg x ?_
  funext a
  refine Fin.ext ?_
  match a with
  | ⟨0, _⟩ =>
    show gather_S10000x10000_S8192x1_S8192x10000_1_0_n_n_0_1_110000.start (ix2 i c) idx 0
        + gather_S10000x10000_S8192x1_S8192x10000_1_0_n_n_0_1_110000.batchCoord (ix2 i c) 0
        + gather_S10000x10000_S8192x1_S8192x10000_1_0_n_n_0_1_110000.offCoord (ix2 i c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x10000_S8192x1_S8192x10000_1_0_n_n_0_1_110000.startIndexMap from
      List.mem_singleton.mpr rfl)]
    have hsi : gather_S10000x10000_S8192x1_S8192x10000_1_0_n_n_0_1_110000.siIdx (ix2 i c)
        ⟨List.idxOf (0 : Fin 2) gather_S10000x10000_S8192x1_S8192x10000_1_0_n_n_0_1_110000.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show gather_S10000x10000_S8192x1_S8192x10000_1_0_n_n_0_1_110000.start (ix2 i c) idx 1
        + gather_S10000x10000_S8192x1_S8192x10000_1_0_n_n_0_1_110000.batchCoord (ix2 i c) 1
        + gather_S10000x10000_S8192x1_S8192x10000_1_0_n_n_0_1_110000.offCoord (ix2 i c) 1 = c.val
    rw [GatherDims.batchCoord_eq_zero _ _ _ List.not_mem_nil]
    unfold GatherDims.start
    rw [dif_neg (show ¬ (1 : Fin 2) ∈ gather_S10000x10000_S8192x1_S8192x10000_1_0_n_n_0_1_110000.startIndexMap by decide)]
    unfold GatherDims.offCoord
    rw [dif_pos (show (1 : Fin 2) ∈ gather_S10000x10000_S8192x1_S8192x10000_1_0_n_n_0_1_110000.sKept by decide)]
    simp only [Nat.zero_add, Nat.add_zero]
    rfl

/-- Columns of an 8192 × 10000 array selected by an 8192 × 1 array of start indices: entry (r, c) is the
    operand's entry (r, clamped start index c). -/
theorem colGather_apply (x : S8192x10000.Idx → α) (idx : IVec S8192x1 32) (r c : Fin 8192) :
    Host.gather gather_S8192x10000_S8192x1_S8192x8192_0_1_n_n_1_1_81921 x idx (ix2 r c)
      = x (ix2 r (⟨min (idx (ix2 c (0 : Fin 1))).toInt.toNat 9999, by omega⟩ : Fin 10000)) := by
  unfold Host.gather
  refine congrArg x ?_
  funext a
  refine Fin.ext ?_
  match a with
  | ⟨0, _⟩ =>
    show gather_S8192x10000_S8192x1_S8192x8192_0_1_n_n_1_1_81921.start (ix2 r c) idx 0
        + gather_S8192x10000_S8192x1_S8192x8192_0_1_n_n_1_1_81921.batchCoord (ix2 r c) 0
        + gather_S8192x10000_S8192x1_S8192x8192_0_1_n_n_1_1_81921.offCoord (ix2 r c) 0 = r.val
    rw [GatherDims.batchCoord_eq_zero _ _ _ List.not_mem_nil]
    unfold GatherDims.start
    rw [dif_neg (show ¬ (0 : Fin 2) ∈ gather_S8192x10000_S8192x1_S8192x8192_0_1_n_n_1_1_81921.startIndexMap by decide)]
    unfold GatherDims.offCoord
    rw [dif_pos (show (0 : Fin 2) ∈ gather_S8192x10000_S8192x1_S8192x8192_0_1_n_n_1_1_81921.sKept by decide)]
    simp only [Nat.zero_add, Nat.add_zero]
    rfl
  | ⟨1, _⟩ =>
    show gather_S8192x10000_S8192x1_S8192x8192_0_1_n_n_1_1_81921.start (ix2 r c) idx 1
        + gather_S8192x10000_S8192x1_S8192x8192_0_1_n_n_1_1_81921.batchCoord (ix2 r c) 1
        + gather_S8192x10000_S8192x1_S8192x8192_0_1_n_n_1_1_81921.offCoord (ix2 r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x10000_S8192x1_S8192x8192_0_1_n_n_1_1_81921.startIndexMap from
      List.mem_singleton.mpr rfl)]
    have hsi : gather_S8192x10000_S8192x1_S8192x8192_0_1_n_n_1_1_81921.siIdx (ix2 r c)
        ⟨List.idxOf (1 : Fin 2) gather_S8192x10000_S8192x1_S8192x8192_0_1_n_n_1_1_81921.startIndexMap,
          List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

end Gathers

/-! ## The normalised index words -/

/-- A nonnegative index word is left as it is (first index vector), then laid out as a column. -/
theorem rowIdx_apply (x3 : (⟨S8192, .i32⟩ : BufTy).Contents (Elt Ideal)) (i : Fin 8192)
    (h : 0 ≤ (x3 (ix1 i)).toInt) :
    Read.val_main_v32 (F := Ideal) x3 (ix2 i (0 : Fin 1)) = x3 (ix1 i) := by
  have e : Read.idx_main_v32 (ix2 i (0 : Fin 1)) = ix1 i := by
    funext a; match a with | ⟨0, _⟩ => rfl
  have hc : IntOp.cmpi .slt (x3 (ix1 i)) 0#32 = 0#1 :=
    eq_zero_of_ne_one fun h1 => by
      have := IntOp.cmpi_slt.mp h1
      simp only [BitVec.toInt_zero] at this
      omega
  rw [Read.val_main_v32_apply, Read.val_main_v31_apply, Read.val_main_v28_apply, Read.val_main_v27_apply,
    Read.val_main_c_5_apply, e, hc, select_zero]

/-- The same for the second index vector. -/
theorem colIdx_apply (x4 : (⟨S8192, .i32⟩ : BufTy).Contents (Elt Ideal)) (j : Fin 8192)
    (h : 0 ≤ (x4 (ix1 j)).toInt) :
    Read.val_main_v39 (F := Ideal) x4 (ix2 j (0 : Fin 1)) = x4 (ix1 j) := by
  have e : Read.idx_main_v39 (ix2 j (0 : Fin 1)) = ix1 j := by
    funext a; match a with | ⟨0, _⟩ => rfl
  have hc : IntOp.cmpi .slt (x4 (ix1 j)) 0#32 = 0#1 :=
    eq_zero_of_ne_one fun h1 => by
      have := IntOp.cmpi_slt.mp h1
      simp only [BitVec.toInt_zero] at this
      omega
  rw [Read.val_main_v39_apply, Read.val_main_v38_apply, Read.val_main_v35_apply, Read.val_main_v34_apply,
    Read.val_main_c_7_apply, e, hc, select_zero]

/-! ## The doubly gathered plan -/

/-- Entry (i, j) of the plan with rows selected by the first index vector and columns by the second, both in
    range: the plan's entry (idx1 i, idx2 j). -/
theorem pg_apply (x2 : (⟨S10000x10000, .f32⟩ : BufTy).Contents (Elt Ideal))
    (x3 x4 : (⟨S8192, .i32⟩ : BufTy).Contents (Elt Ideal))
    (h3 : ∀ i : Fin 8192, 0 ≤ (x3 (ix1 i)).toInt ∧ (x3 (ix1 i)).toInt < 10000)
    (h4 : ∀ i : Fin 8192, 0 ≤ (x4 (ix1 i)).toInt ∧ (x4 (ix1 i)).toInt < 10000) (i j : Fin 8192) :
    Read.val_main_v40 (F := Ideal) x2 x3 x4 (ix2 i j)
      = x2 (ix2 (⟨(x3 (ix1 i)).toNat, (toNat_of_range _ (h3 i)).2⟩ : Fin 10000)
          (⟨(x4 (ix1 j)).toNat, (toNat_of_range _ (h4 j)).2⟩ : Fin 10000)) := by
  unfold Read.val_main_v40
  rw [colGather_apply]
  unfold Read.val_main_v33
  rw [rowGather_apply]
  refine congrArg x2 ?_
  funext a
  refine Fin.ext ?_
  match a with
  | ⟨0, _⟩ =>
    show min (Read.val_main_v32 (F := Ideal) x3 (ix2 i (0 : Fin 1))).toInt.toNat 9999 = (x3 (ix1 i)).toNat
    rw [rowIdx_apply x3 i (h3 i).1, clamp_of_range _ (h3 i)]
  | ⟨1, _⟩ =>
    show min (Read.val_main_v39 (F := Ideal) x4 (ix2 j (0 : Fin 1))).toInt.toNat 9999 = (x4 (ix1 j)).toNat
    rw [colIdx_apply x4 j (h4 j).1, clamp_of_range _ (h4 j)]

/-! ## The two embedding tables gathered by rows

The same reading for the embedding gathers: rows of a 10000 × 256 table selected by an index vector in range. -/

section EmbGathers
variable {α : Type}

/-- Rows of a 10000 × 256 array selected by an 8192 × 1 array of start indices: entry (i, d) is the operand's
    entry (clamped start index i, d). -/
theorem embGather_apply (x : S10000x256.Idx → α) (idx : IVec S8192x1 32) (i : Fin 8192) (d : Fin 256) :
    Host.gather gather_S10000x256_S8192x1_S8192x256_1_0_n_n_0_1_1256 x idx (ix2 i d)
      = x (ix2 (⟨min (idx (ix2 i (0 : Fin 1))).toInt.toNat 9999, by omega⟩ : Fin 10000) d) := by
  unfold Host.gather
  refine congrArg x ?_
  funext a
  refine Fin.ext ?_
  match a with
  | ⟨0, _⟩ =>
    show gather_S10000x256_S8192x1_S8192x256_1_0_n_n_0_1_1256.start (ix2 i d) idx 0
        + gather_S10000x256_S8192x1_S8192x256_1_0_n_n_0_1_1256.batchCoord (ix2 i d) 0
        + gather_S10000x256_S8192x1_S8192x256_1_0_n_n_0_1_1256.offCoord (ix2 i d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x256_S8192x1_S8192x256_1_0_n_n_0_1_1256.startIndexMap from
      List.mem_singleton.mpr rfl)]
    have hsi : gather_S10000x256_S8192x1_S8192x256_1_0_n_n_0_1_1256.siIdx (ix2 i d)
        ⟨List.idxOf (0 : Fin 2) gather_S10000x256_S8192x1_S8192x256_1_0_n_n_0_1_1256.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show gather_S10000x256_S8192x1_S8192x256_1_0_n_n_0_1_1256.start (ix2 i d) idx 1
        + gather_S10000x256_S8192x1_S8192x256_1_0_n_n_0_1_1256.batchCoord (ix2 i d) 1
        + gather_S10000x256_S8192x1_S8192x256_1_0_n_n_0_1_1256.offCoord (ix2 i d) 1 = d.val
    rw [GatherDims.batchCoord_eq_zero _ _ _ List.not_mem_nil]
    unfold GatherDims.start
    rw [dif_neg (show ¬ (1 : Fin 2) ∈ gather_S10000x256_S8192x1_S8192x256_1_0_n_n_0_1_1256.startIndexMap by decide)]
    unfold GatherDims.offCoord
    rw [dif_pos (show (1 : Fin 2) ∈ gather_S10000x256_S8192x1_S8192x256_1_0_n_n_0_1_1256.sKept by decide)]
    simp only [Nat.zero_add, Nat.add_zero]
    rfl

end EmbGathers

/-- A nonnegative index word is left as it is (first index vector, the embedding gather's copy of the chain). -/
theorem embIdx1_apply (x3 : (⟨S8192, .i32⟩ : BufTy).Contents (Elt Ideal)) (i : Fin 8192)
    (h : 0 ≤ (x3 (ix1 i)).toInt) :
    Read.val_main_v5 (F := Ideal) x3 (ix2 i (0 : Fin 1)) = x3 (ix1 i) := by
  have e : Read.idx_main_v5 (ix2 i (0 : Fin 1)) = ix1 i := by
    funext a; match a with | ⟨0, _⟩ => rfl
  have hc : IntOp.cmpi .slt (x3 (ix1 i)) 0#32 = 0#1 :=
    eq_zero_of_ne_one fun h1 => by
      have := IntOp.cmpi_slt.mp h1
      simp only [BitVec.toInt_zero] at this
      omega
  rw [Read.val_main_v5_apply, Read.val_main_v4_apply, Read.val_main_v1_apply, Read.val_main_v0_apply,
    Read.val_main_c_apply, e, hc, select_zero]

/-- The same for the second index vector. -/
theorem embIdx2_apply (x4 : (⟨S8192, .i32⟩ : BufTy).Contents (Elt Ideal)) (j : Fin 8192)
    (h : 0 ≤ (x4 (ix1 j)).toInt) :
    Read.val_main_v12 (F := Ideal) x4 (ix2 j (0 : Fin 1)) = x4 (ix1 j) := by
  have e : Read.idx_main_v12 (ix2 j (0 : Fin 1)) = ix1 j := by
    funext a; match a with | ⟨0, _⟩ => rfl
  have hc : IntOp.cmpi .slt (x4 (ix1 j)) 0#32 = 0#1 :=
    eq_zero_of_ne_one fun h1 => by
      have := IntOp.cmpi_slt.mp h1
      simp only [BitVec.toInt_zero] at this
      omega
  rw [Read.val_main_v12_apply, Read.val_main_v11_apply, Read.val_main_v8_apply, Read.val_main_v7_apply,
    Read.val_main_c_1_apply, e, hc, select_zero]

/-- Row i of the first gathered embedding array is row idx1 i of the first table. -/
theorem e1_apply (x0 : (⟨S10000x256, .f32⟩ : BufTy).Contents (Elt Ideal))
    (x3 : (⟨S8192, .i32⟩ : BufTy).Contents (Elt Ideal))
    (h3 : ∀ i : Fin 8192, 0 ≤ (x3 (ix1 i)).toInt ∧ (x3 (ix1 i)).toInt < 10000) (i : Fin 8192) (d : Fin 256) :
    Read.val_main_v6 (F := Ideal) x0 x3 (ix2 i d)
      = x0 (ix2 (⟨(x3 (ix1 i)).toNat, (toNat_of_range _ (h3 i)).2⟩ : Fin 10000) d) := by
  unfold Read.val_main_v6
  rw [embGather_apply]
  refine congrArg x0 ?_
  funext a
  refine Fin.ext ?_
  match a with
  | ⟨0, _⟩ =>
    show min (Read.val_main_v5 (F := Ideal) x3 (ix2 i (0 : Fin 1))).toInt.toNat 9999 = (x3 (ix1 i)).toNat
    rw [embIdx1_apply x3 i (h3 i).1, clamp_of_range _ (h3 i)]
  | ⟨1, _⟩ => rfl

/-- Row j of the second gathered embedding array is row idx2 j of the second table. -/
theorem e2_apply (x1 : (⟨S10000x256, .f32⟩ : BufTy).Contents (Elt Ideal))
    (x4 : (⟨S8192, .i32⟩ : BufTy).Contents (Elt Ideal))
    (h4 : ∀ i : Fin 8192, 0 ≤ (x4 (ix1 i)).toInt ∧ (x4 (ix1 i)).toInt < 10000) (j : Fin 8192) (d : Fin 256) :
    Read.val_main_v13 (F := Ideal) x1 x4 (ix2 j d)
      = x1 (ix2 (⟨(x4 (ix1 j)).toNat, (toNat_of_range _ (h4 j)).2⟩ : Fin 10000) d) := by
  unfold Read.val_main_v13
  rw [embGather_apply]
  refine congrArg x1 ?_
  funext a
  refine Fin.ext ?_
  match a with
  | ⟨0, _⟩ =>
    show min (Read.val_main_v12 (F := Ideal) x4 (ix2 j (0 : Fin 1))).toInt.toNat 9999 = (x4 (ix1 j)).toNat
    rw [embIdx2_apply x4 j (h4 j).1, clamp_of_range _ (h4 j)]
  | ⟨1, _⟩ => rfl

end Cert.ReferenceIdeal.RefGather

end
-- ==== Proof.Bridge.lean ====
/-
  The pure mathematics joining the kernels' result to the reference's.

  A one-hot row picks one term of a sum: Σ_k [a = k] · g(k) = g(a) when a is one of the k. So multiplying by the
  one-hot matrix of an index vector selects rows (or, from the right, columns), and the plan selected twice by
  one-hot products is the plan gathered twice. The padded plan agrees with the plan on the first 10000 rows and
  columns, which is all an index below 10000 ever reads. With equal plan entries the weighted squared distances
  are equal term by term, and both results are the same double sum over (i, j).
-/
import proofs.«100679_j35734127902881_1_alg».proof.Proof.Spec
import proofs.«100679_j35734127902881_1_alg».proof.Proof.RefGather
import proofs.«100679_j35734127902881_1_alg».proof.Proof.RefSide

noncomputable section

open scoped BigOperators

namespace Cert.Bridge

open Idealize.ShloMosaic Idealize.ShloMosaic.ValueIdx Cert.KernelIdeal Cert.KernelIdeal.Pay Cert.Spec
open Cert.ReferenceIdeal.RefSide Cert.ReferenceIdeal.RefGather

/-! ## A one-hot row picks one term -/

/-- The word of a natural number below 2³² is a given word exactly when the number is that word's value. -/
theorem ofNat_eq_iff (a : BitVec 32) (k : Nat) (hk : k < 2 ^ 32) : a = BitVec.ofNat 32 k ↔ k = a.toNat := by
  constructor
  · intro h; rw [h, BitVec.toNat_ofNat, Nat.mod_eq_of_lt hk]
  · intro h; rw [h, BitVec.ofNat_toNat, BitVec.setWidth_eq]

/-- Σ_k [a = k] · g(k) = g(a), for a word a whose value is one of the k. -/
theorem oh_sum_left (n : Nat) (hn : n ≤ 2 ^ 32) (a : BitVec 32) (ha : a.toNat < n) (g : Fin n → EReal) :
    ∑ k : Fin n, oh a (BitVec.ofNat 32 k.val) * g k = g ⟨a.toNat, ha⟩ := by
  rw [Finset.sum_eq_single (⟨a.toNat, ha⟩ : Fin n)]
  · rw [oh_eq, if_pos ((ofNat_eq_iff a a.toNat (by omega)).mpr rfl), one_mul]
  · intro k _ hk
    rw [oh_eq, if_neg (fun h => hk (Fin.ext ((ofNat_eq_iff a k.val (by have := k.isLt; omega)).mp h))), zero_mul]
  · intro h; exact absurd (Finset.mem_univ _) h

/-- The mirror image: Σ_k g(k) · [a = k] = g(a). -/
theorem oh_sum_right (n : Nat) (hn : n ≤ 2 ^ 32) (a : BitVec 32) (ha : a.toNat < n) (g : Fin n → EReal) :
    ∑ k : Fin n, g k * oh a (BitVec.ofNat 32 k.val) = g ⟨a.toNat, ha⟩ := by
  rw [Finset.sum_eq_single (⟨a.toNat, ha⟩ : Fin n)]
  · rw [oh_eq, if_pos ((ofNat_eq_iff a a.toNat (by omega)).mpr rfl), mul_one]
  · intro k _ hk
    rw [oh_eq, if_neg (fun h => hk (Fin.ext ((ofNat_eq_iff a k.val (by have := k.isLt; omega)).mp h))), mul_zero]
  · intro h; exact absurd (Finset.mem_univ _) h

/-! ## The one-hot products select rows and columns -/

/-- A word in [0, 10000) signed is below 10240 unsigned. -/
theorem lt_padded (w : BitVec 32) (h : 0 ≤ w.toInt ∧ w.toInt < 10000) : w.toNat < 10240 := by
  have := (toNat_of_range w h).2; omega

/-- The one-hot product from the left selects row idx1 i. -/
theorem G0_select (x3 : S8192.Idx → BitVec 32) (Pp : S10240x10240.Idx → EReal)
    (h3 : ∀ i : Fin 8192, 0 ≤ (x3 (ix1 i)).toInt ∧ (x3 (ix1 i)).toInt < 10000) (i : Fin 8192) (l : Fin 10240) :
    G0 x3 Pp (ix2 i l) = Pp (ix2 (⟨(x3 (ix1 i)).toNat, lt_padded _ (h3 i)⟩ : Fin 10240) l) := by
  rw [G0_apply]
  exact oh_sum_left 10240 (by norm_num) (x3 (ix1 i)) (lt_padded _ (h3 i)) (fun k => Pp (ix2 k l))

/-- The one-hot product from the right selects column idx2 j. -/
theorem G1_select (x4 : S8192.Idx → BitVec 32) (B : S8192x10240.Idx → EReal)
    (h4 : ∀ i : Fin 8192, 0 ≤ (x4 (ix1 i)).toInt ∧ (x4 (ix1 i)).toInt < 10000) (i j : Fin 8192) :
    G1 x4 B (ix2 i j) = B (ix2 i (⟨(x4 (ix1 j)).toNat, lt_padded _ (h4 j)⟩ : Fin 10240)) := by
  rw [G1_apply]
  exact oh_sum_right 10240 (by norm_num) (x4 (ix1 j)) (lt_padded _ (h4 j)) (fun l => B (ix2 i l))

/-- The padded plan selected twice is the padded plan's entry (idx1 i, idx2 j). -/
theorem G1_G0_select (x3 x4 : S8192.Idx → BitVec 32) (Pp : S10240x10240.Idx → EReal)
    (h3 : ∀ i : Fin 8192, 0 ≤ (x3 (ix1 i)).toInt ∧ (x3 (ix1 i)).toInt < 10000)
    (h4 : ∀ i : Fin 8192, 0 ≤ (x4 (ix1 i)).toInt ∧ (x4 (ix1 i)).toInt < 10000) (i j : Fin 8192) :
    G1 x4 (G0 x3 Pp) (ix2 i j)
      = Pp (ix2 (⟨(x3 (ix1 i)).toNat, lt_padded _ (h3 i)⟩ : Fin 10240)
          (⟨(x4 (ix1 j)).toNat, lt_padded _ (h4 j)⟩ : Fin 10240)) := by
  rw [G1_select x4 _ h4, G0_select x3 Pp h3]

/-! ## The weighted distance depends on the plan only through its entry -/

/-- Two plans with the same entry (i, j) give the same term (i, j). -/
theorem term_congr (E1 E2 : S8192x256.Idx → EReal) (P Q : S8192x8192.Idx → EReal) (i j : Fin 8192)
    (h : P (ix2 i j) = Q (ix2 i j)) : term E1 E2 P i j = term E1 E2 Q i j := by
  unfold term; rw [h]

/-! ## The bridge -/

/-- The kernels' result, on the gathered embeddings and a padded plan that agrees with the plan on its first
    10000 rows and columns, is the reference's result. -/
theorem bridge (x0 x1 : (⟨Cert.ReferenceIdeal.S10000x256, .f32⟩ : BufTy).Contents (Elt Ideal))
    (x2 : (⟨Cert.ReferenceIdeal.S10000x10000, .f32⟩ : BufTy).Contents (Elt Ideal))
    (x3 x4 : (⟨Cert.ReferenceIdeal.S8192, .i32⟩ : BufTy).Contents (Elt Ideal))
    (h3 : ∀ i : Fin 8192, 0 ≤ (x3 (ix1 i)).toInt ∧ (x3 (ix1 i)).toInt < 10000)
    (h4 : ∀ i : Fin 8192, 0 ≤ (x4 (ix1 i)).toInt ∧ (x4 (ix1 i)).toInt < 10000)
    (Pp : S10240x10240.Idx → EReal)
    (hPp : ∀ a b : Fin 10000, Pp (ix2 (⟨a.val, by omega⟩ : Fin 10240) (⟨b.val, by omega⟩ : Fin 10240)) = x2 (ix2 a b)) :
    Kres (Cert.ReferenceIdeal.Read.val_main_v6 (F := Ideal) x0 x3) (Cert.ReferenceIdeal.Read.val_main_v13 (F := Ideal) x1 x4)
        Pp x3 x4
      = Cert.ReferenceIdeal.Read.val_main_v42 (F := Ideal) x0 x1 x2 x3 x4 ix0 := by
  rw [ref_closed]
  unfold Kres
  rw [Ideal.ofBits_zero_f32, zero_add]
  refine Finset.sum_congr rfl fun i _ => ?_
  rw [G2_apply]
  refine Finset.sum_congr rfl fun j _ => ?_
  refine term_congr _ _ _ _ i j ?_
  rw [G1_G0_select x3 x4 Pp h3 h4 i j, pg_apply x2 x3 x4 h3 h4 i j]
  exact hPp ⟨(x3 (ix1 i)).toNat, (toNat_of_range _ (h3 i)).2⟩ ⟨(x4 (ix1 j)).toNat, (toNat_of_range _ (h4 j)).2⟩

end Cert.Bridge

end
-- ==== Proof.HostReads.lean ====
/-
  The kernel program's host operations that the reference does not share, read at an index over the extended
  reals: the plan is narrowed to a shorter float format (the identity on extended reals), padded with 240 rows
  and 240 columns after its own 10000 (so an index inside the first 10000 × 10000 reads the plan itself), and at
  the end the column of 8192 row sums is summed into the scalar result. Each lemma takes the operation's side
  condition as a hypothesis, so it applies to the operation whichever proof of that condition it carries.
-/
import proofs.«100679_j35734127902881_1_alg».proof.KernelIdeal
import Idealize.ShloMosaic.Lib.KernelVsHost
import Idealize.ShloMosaic.Lib.ValueIdx
import Idealize.ShloMosaic.PureOps.Ideal.Laws

noncomputable section

open scoped BigOperators

namespace Cert.HostReads

open Idealize.ShloMosaic Idealize.ShloMosaic.ValueIdx Cert.KernelIdeal

/-- Narrowing the float format is the identity on extended reals. -/
theorem trunc_read (x : FVec Ideal S10000x10000 .f32) (h : FTy.bits .bf16 < FTy.bits .f32) :
    truncf (F := Ideal) .bf16 x h = x := rfl

/-- The plan padded to 10240 × 10240 (no low padding, 240 high, no interior), read inside the first
    10000 × 10000: the plan's own entry. -/
theorem pad_read {α : Type} (x : S10000x10000.Idx → α) (v : S_.Idx → α)
    (hp : S10000x10000.Pads (![0, 0] : Fin 2 → Nat) ![240, 240] ![0, 0] S10240x10240) (hu : 0 < S_.numel)
    (a b : Fin 10000) :
    pad S10240x10240 ![0, 0] ![240, 240] ![0, 0] x v hp hu
        (ix2 (⟨a.val, by omega⟩ : Fin 10240) (⟨b.val, by omega⟩ : Fin 10240))
      = x (ix2 a b) :=
  pad_apply_of_inside _ _ _ x v hp hu _ (ix2 a b) (fun c => match c with
    | ⟨0, _⟩ => by show a.val = 0 + a.val * (0 + 1); omega
    | ⟨1, _⟩ => by show b.val = 0 + b.val * (0 + 1); omega)

/-- The final sum: the initial value plus the sum of the 8192 entries of the column. -/
theorem tail_read (x : FVec Ideal S8192x1 .f32) (v : FVec Ideal S_ .f32)
    (h : S8192x1.ReducesTo [0, 1] S_) (hu : 0 < S_.numel) :
    Host.reduceAdd (F := Ideal) x v h hu ix0 = v ix0 + ∑ i : Fin 8192, x (ix2 i (0 : Fin 1)) := by
  have e : Host.reduceAdd (F := Ideal) x v h hu ix0 = v (Shape.Idx.first hu) + ∑ j : S8192x1.Idx, x j := by
    simp only [Host.reduceAdd, Ideal.hostReduceAdd_def]
    exact Ideal.hostReduceAdd_total h (fun b => b.elim0) x _ ix0
  rw [e, sum_idx2]
  refine congrArg₂ (· + ·) (congrArg v (eq_ix0 _)) (Finset.sum_congr rfl fun i _ => ?_)
  exact Fin.sum_univ_one _

end Cert.HostReads

end
-- ==== Proof.PreRange.lean ====
/-
  From the precondition to the range of the two index vectors.

  The precondition is one bit: the conjunction of seven "all elements satisfy …" tests — every entry of the three
  float arrays finite, and for each of the two index vectors every entry ≥ 0 and every entry < 10000, compared as
  signed 32-bit integers. A conjunction of bits is 1 exactly when each is; an and-reduction over a whole array from
  the bit 1 is 1 only if every element's bit is 1; and a signed comparison's bit being 1 says the inequality of
  the signed values. So the precondition being the all-ones word gives 0 ≤ idx < 10000 elementwise. The three
  finiteness tests are not opened.
-/
import proofs.«100679_j35734127902881_1_alg».proof.Defs
import proofs.«100679_j35734127902881_1_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx Idealize.SL.Sem
open Cert.Pre_finite_inputs Cert.Pre_finite_inputs.Facts

/-- The scalar shape has one index. -/
instance subsingleton_scalar : Subsingleton Cert.Pre_finite_inputs.S_.Idx := ⟨fun a b => funext fun d => d.elim0⟩

/-- The signed value of the word 0. -/
theorem toInt_zero32 : (0#32 : BitVec 32).toInt = 0 := by decide
/-- The signed value of the word 10000. -/
theorem toInt_10000 : (10000#32 : BitVec 32).toInt = 10000 := by decide

/-- The precondition gives the range of both index vectors: 0 ≤ idx < 10000 elementwise, signed. -/
theorem idx_range {F : FTy → Type} [FloatOps F] [Cert.Pre_finite_inputs.Facts]
    (a0 a1 : FVec F Cert.Pre_finite_inputs.S10000x256 .f32) (a2 : FVec F Cert.Pre_finite_inputs.S10000x10000 .f32)
    (a3 a4 : IVec Cert.Pre_finite_inputs.S8192 32)
    (h : Cert.Pre_finite_inputs.fn (F := F) a0 a1 a2 a3 a4 = fun _ => 1#1) :
    (∀ i : Fin 8192, 0 ≤ (a3 (ix1 i)).toInt ∧ (a3 (ix1 i)).toInt < 10000)
      ∧ (∀ i : Fin 8192, 0 ≤ (a4 (ix1 i)).toInt ∧ (a4 (ix1 i)).toInt < 10000) := by
  have e := congrFun h ix0
  dsimp only [Cert.Pre_finite_inputs.fn, Cert.Pre_finite_inputs.fn_part1] at e
  simp only [andi, IntOp.andi_eq_one] at e
  obtain ⟨⟨⟨⟨-, h3lo⟩, h3hi⟩, h4lo⟩, h4hi⟩ := e
  refine ⟨fun i => ⟨?_, ?_⟩, fun i => ⟨?_, ?_⟩⟩
  · have := IntOp.cmpi_sge.mp (Host.reduce_andi_all _ _ _ _ _ h3lo (ix1 i))
    exact toInt_zero32 ▸ this
  · have := IntOp.cmpi_slt.mp (Host.reduce_andi_all _ _ _ _ _ h3hi (ix1 i))
    exact toInt_10000 ▸ this
  · have := IntOp.cmpi_sge.mp (Host.reduce_andi_all _ _ _ _ _ h4lo (ix1 i))
    exact toInt_zero32 ▸ this
  · have := IntOp.cmpi_slt.mp (Host.reduce_andi_all _ _ _ _ _ h4hi (ix1 i))
    exact toInt_10000 ▸ this

end Cert.PreRange

end
-- ==== Proof.Join.lean ====
/-
  The two idealized programs compute one function. The kernel program's result is the sum over the rows i of the
  sum over the columns j of (|e1_i|² + |e2_j|² − 2 e1_i·e2_j) times the entry of the padded plan the two one-hot
  products select; with both index vectors inside [0, 10000) that entry is P[idx1_i, idx2_j], which is what the
  reference's two gathers read (a nonnegative index is not wrapped and an index below the extent is not clamped),
  and the reference sums the same terms over all pairs at once. Sums of extended reals commute and regroup freely.
-/
import proofs.«100679_j35734127902881_1_alg».proof.Proof.KernelIdeal.Value
import proofs.«100679_j35734127902881_1_alg».proof.Proof.Bridge
import proofs.«100679_j35734127902881_1_alg».proof.Proof.HostReads
import proofs.«100679_j35734127902881_1_alg».proof.Proof.PreRange

set_option maxRecDepth 16384

noncomputable section

namespace Cert.Proof.Join

open Idealize.ShloMosaic Idealize.ShloMosaic.ValueIdx Idealize.SL.Sem
open Cert.KernelIdeal Cert.KernelIdeal.Hand

/-- The kernel program's gathered embedding rows are the reference's: the same gather of the same wrapped indices. -/
theorem embRows_eq6 (x : FVec Ideal S10000x256 .f32) (a : IVec S8192 32) :
    embRows x a = Cert.ReferenceIdeal.Read.val_main_v6 (F := Ideal) x a := rfl
theorem embRows_eq13 (x : FVec Ideal S10000x256 .f32) (a : IVec S8192 32) :
    embRows x a = Cert.ReferenceIdeal.Read.val_main_v13 (F := Ideal) x a := rfl

instance : Subsingleton S_.Idx := ⟨fun a b => funext fun d => d.elim0⟩

/-- With both index vectors in range, the kernel program's result is the reference's. -/
theorem result_eq (a0 a1 : FVec Ideal S10000x256 .f32) (a2 : FVec Ideal S10000x10000 .f32) (a3 a4 : IVec S8192 32)
    (h3 : ∀ i : Fin 8192, 0 ≤ (a3 (ix1 i)).toInt ∧ (a3 (ix1 i)).toInt < 10000)
    (h4 : ∀ i : Fin 8192, 0 ≤ (a4 (ix1 i)).toInt ∧ (a4 (ix1 i)).toInt < 10000) :
    result a0 a1 a2 a3 a4 = Cert.ReferenceIdeal.Read.val_main_v42 (F := Ideal) a0 a1 a2 a3 a4 := by
  funext i
  obtain rfl : i = ix0 := Subsingleton.elim _ _
  unfold result
  rw [Cert.HostReads.tail_read]
  have hb := Cert.Bridge.bridge a0 a1 a2 a3 a4 h3 h4 (planPadded a2) (fun a b => Cert.HostReads.pad_read _ _ _ _ a b)
  rw [← hb]
  rfl

end Cert.Proof.Join

end
-- ==== Proof.lean ====
/-
  The certificate of a three-kernel program against its jnp reference, over the extended reals.

  cost = Σ_{i,j} (|e1_i|² + |e2_j|² − 2 e1_i·e2_j) · P[idx1_i, idx2_j],  e1 = emb1[idx1], e2 = emb2[idx2].

  The kernel program gathers the plan by two one-hot matrix products, each accumulated over a reduction grid axis in
  a scratch buffer (R = onehot(idx1)·Ppad, then G = R·onehot(idx2)ᵀ), and a third kernel accumulates, per row
  block, the row sums of distance × G over the column blocks; a host sum adds the rows. The reference gathers
  P[idx1][:, idx2] and sums distance × plan over all pairs. The precondition asks the index vectors to lie in
  [0, 10000): outside it the reference clamps or wraps an index while a one-hot row is zero.

  Frames: each region's body is run case by case (first, middle, last step of its reduction), the accumulator's
  contents carried between grid points by the region's invariant; the three regions and the host stretches are
  chained into one run ending with every unscoped buffer at a named valuation, from which the arguments are read
  back unchanged. Values: each region's output array is read off its write-backs as one function of its input
  arrays; the composed function is the reference's, index by index.
-/
import proofs.«100679_j35734127902881_1_alg».proof.Defs
import proofs.«100679_j35734127902881_1_alg».proof.Proof.Gen.Kernel
import proofs.«100679_j35734127902881_1_alg».proof.Proof.Gen.KernelIdeal
import proofs.«100679_j35734127902881_1_alg».proof.Proof.Gen.ReferenceIdeal
import proofs.«100679_j35734127902881_1_alg».proof.Proof.Gen.Pre_finite_inputs
import proofs.«100679_j35734127902881_1_alg».proof.Proof.Kernel.Args
import proofs.«100679_j35734127902881_1_alg».proof.Proof.KernelIdeal.Value
import proofs.«100679_j35734127902881_1_alg».proof.Proof.KernelIdeal.Val2
import proofs.«100679_j35734127902881_1_alg».proof.Proof.KernelIdeal.Val0
import proofs.«100679_j35734127902881_1_alg».proof.Proof.KernelIdeal.Val1
import proofs.«100679_j35734127902881_1_alg».proof.Proof.Join
import proofs.«100679_j35734127902881_1_alg».proof.Proof.PreRange
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Hand.frame_all m ρ
/-- So does its idealization. -/
theorem frame_ki : Cert.frame_KernelIdeal := fun m ρ _ => Cert.KernelIdeal.Hand.frame_all m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the same result: the kernel
    program's result term is the reference's when the index vectors are in range, which the precondition says. -/
theorem algebraic : Cert.algebraic_KernelIdeal_ReferenceIdeal := by
  intro m ρ m' ρ' hpre hagree
  refine ⟨_, Cert.KernelIdeal.Hand.run_result m Cert.KernelIdeal.Hand.arr0 Cert.KernelIdeal.Hand.arr1 Cert.KernelIdeal.Hand.arr2 ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2.1, (hagree c).2.2.2.2]
  obtain ⟨h3, h4⟩ := Cert.PreRange.idx_range _ _ _ _ _ (hpre c)
  exact (Cert.Proof.Join.result_eq _ _ _ _ _ h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
